-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x128 : Shape := ⟨4, ![8, 256, 128, 128]⟩
abbrev S256x256 : Shape := ⟨2, ![256, 256]⟩
abbrev S256x512 : Shape := ⟨2, ![256, 512]⟩
abbrev S256 : Shape := ⟨1, ![256]⟩
abbrev S_ : Shape := ⟨0, ![]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S8x256x128x128 .f32) (main_arg1 : FVec F S256x256 .f32) (main_arg2 : FVec F S256x512 .f32) (main_arg3 : FVec F S256 .f32) (main_arg4 : FVec F S256 .f32) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S8x256x128x128 : Shape := ⟨4, ![8, 256, 128, 128]⟩
abbrev S256x256 : Shape := ⟨2, ![256, 256]⟩
abbrev S256x512 : Shape := ⟨2, ![256, 512]⟩
abbrev S256 : Shape := ⟨1, ![256]⟩
abbrev S8x128x128x256 : Shape := ⟨4, ![8, 128, 128, 256]⟩
abbrev S64x1x256 : Shape := ⟨3, ![64, 1, 256]⟩
abbrev S1x256x16x128 : Shape := ⟨4, ![1, 256, 16, 128]⟩
abbrev S1x16x128x256 : Shape := ⟨4, ![1, 16, 128, 256]⟩
abbrev S1x1x256 : Shape := ⟨3, ![1, 1, 256]⟩
abbrev S256x16x128 : Shape := ⟨3, ![256, 16, 128]⟩
abbrev S16x128 : Shape := ⟨2, ![16, 128]⟩
abbrev S1x16x128 : Shape := ⟨3, ![1, 16, 128]⟩
abbrev S16x128x256 : Shape := ⟨3, ![16, 128, 256]⟩
abbrev S2048x256 : Shape := ⟨2, ![2048, 256]⟩
abbrev S2048 : Shape := ⟨1, ![2048]⟩
abbrev S2048x1 : Shape := ⟨2, ![2048, 1]⟩
abbrev S64x256 : Shape := ⟨2, ![64, 256]⟩
abbrev S_ : Shape := ⟨0, ![]⟩
abbrev S1x256 : Shape := ⟨2, ![1, 256]⟩

abbrev nBuf : Space → Nat
  | .hbm => 29
  | .vmem => 19
  | .smem => 0
  | _ => 0

abbrev bufTy : (tb : Table) → Fin (tcTables nBuf tb) → BufTy
  | .hbm, ⟨0, _⟩ => ⟨S8x256x128x128, .f32⟩
  | .hbm, ⟨1, _⟩ => ⟨S256x256, .f32⟩
  | .hbm, ⟨2, _⟩ => ⟨S256x512, .f32⟩
  | .hbm, ⟨3, _⟩ => ⟨S256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S8x128x128x256, .f32⟩
  | .hbm, ⟨8, _⟩ => ⟨S64x1x256, .f32⟩
  | .hbm, ⟨9, _⟩ => ⟨S64x1x256, .f32⟩
  | .hbm, ⟨10, _⟩ => ⟨S64x256, .f32⟩
  | .hbm, ⟨11, _⟩ => ⟨S_, .f32⟩
  | .hbm, ⟨12, _⟩ => ⟨S256, .f32⟩
  | .hbm, ⟨13, _⟩ => ⟨S1x256, .f32⟩
  | .hbm, ⟨14, _⟩ => ⟨S64x256, .f32⟩
  | .hbm, ⟨15, _⟩ => ⟨S_, .f32⟩
  | .hbm, ⟨16, _⟩ => ⟨S256, .f32⟩
  | .hbm, ⟨17, _⟩ => ⟨S1x256, .f32⟩
  | .hbm, ⟨18, _⟩ => ⟨S_, .f32⟩
  | .hbm, ⟨19, _⟩ => ⟨S1x256, .f32⟩
  | .hbm, ⟨20, _⟩ => ⟨S1x256, .f32⟩
  | .hbm, ⟨21, _⟩ => ⟨S_, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S8x256x128x128, .f32⟩
  | .local _ .vmem, ⟨0, _⟩ => ⟨S1x256x16x128, .f32⟩
  | .local _ .vmem, ⟨1, _⟩ => ⟨S1x256x16x128, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S1x16x128x256, .f32⟩
  | .local _ .vmem, ⟨6, _⟩ => ⟨S1x16x128x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x16x128x256, .f32⟩
  | .local _ .vmem, ⟨12, _⟩ => ⟨S1x16x128x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256x16x128, .f32⟩
  | .local _ .vmem, ⟨18, _⟩ => ⟨S1x256x16x128, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x256x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x16x128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x16x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  slices_S256x512_S256x256_0_0 : S256x512.Slices ![0, 0] S256x256
  slices_S256x512_S256x256_0_256 : S256x512.Slices ![0, 256] S256x256
  inb_S1x256x16x128_S1x256x16x128_0_0_0_0 : ∀ a, (![0, 0, 0, 0] : Fin 4 → Nat) a + S1x256x16x128.size a ≤ S1x256x16x128.size a
  h_S1x256x16x128 : 0 < S1x256x16x128.numel
  shapeCasts_S1x256x16x128_S256x16x128 : S1x256x16x128.ShapeCasts S256x16x128
  reduces_S256x16x128_S16x128 : S256x16x128.Reduces [0] S16x128
  shapeCasts_S16x128_S1x16x128 : S16x128.ShapeCasts S1x16x128
  broadcasts_S1x16x128_S256x16x128 : S1x16x128.Broadcasts S256x16x128
  transposes_S256x16x128_p1_2_0_S16x128x256 : S256x16x128.Transposes [1, 2, 0] S16x128x256
  shapeCasts_S16x128x256_S2048x256 : S16x128x256.ShapeCasts S2048x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  reduces_S2048x256_S2048 : S2048x256.Reduces [1] S2048
  shapeCasts_S2048_S2048x1 : S2048.ShapeCasts S2048x1
  broadcasts_S2048x1_S2048x256 : S2048x1.Broadcasts S2048x256
  shapeCasts_S256x256_S256x256 : S256x256.ShapeCasts S256x256
  shapeCasts_S2048x256_S16x128x256 : S2048x256.ShapeCasts S16x128x256
  inb_S1x16x128x256_S1x16x128x256_0_0_0_0 : ∀ a, (![0, 0, 0, 0] : Fin 4 → Nat) a + S1x16x128x256.size a ≤ S1x16x128x256.size a
  h_S1x16x128x256 : 0 < S1x16x128x256.numel
  shapeCasts_S1x16x128x256_S16x128x256 : S1x16x128x256.ShapeCasts S16x128x256
  shapeCasts_S16x128x256_S1x16x128x256 : S16x128x256.ShapeCasts S1x16x128x256
  reduces_S2048x256_S256 : S2048x256.Reduces [0] S256
  shapeCasts_S256_S1x1x256 : S256.ShapeCasts S1x1x256
  inb_S1x1x256_S1x1x256_0_0_0 : ∀ a, (![0, 0, 0] : Fin 3 → Nat) a + S1x1x256.size a ≤ S1x1x256.size a
  h_S1x1x256 : 0 < S1x1x256.numel
  shapeCasts_S64x1x256_S64x256 : S64x1x256.ShapeCasts S64x256
  reducesTo_S64x256_S256_d0 : S64x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x256 : S1x256.ShapeCasts S1x1x256
  broadcasts_S1x1x256_S16x128x256 : S1x1x256.Broadcasts S16x128x256
  transposes_S16x128x256_p2_0_1_S256x16x128 : S16x128x256.Transposes [2, 0, 1] S256x16x128
  shapeCasts_S256x16x128_S1x256x16x128 : S256x16x128.ShapeCasts S1x256x16x128
  dot_S2048x256_S256x256_S2048x256_1_1_0_0_n_n_wf : DotDims.WF S2048x256 S256x256 S2048x256 [1] [1] [0] [0] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x16x128.size a ≤ S8x256x128x128.size a
  hwx0_0 : ∀ i : grid0.Coords, EltTy.bits .f32 = 32 ∨ (Rect.block (s := S8x256x128x128) S1x256x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x128x256.size a ≤ S8x128x128x256.size a
  hwx0_4 : ∀ i : grid0.Coords, EltTy.bits .f32 = 32 ∨ (Rect.block (s := S8x128x128x256) S1x16x128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S64x1x256.size a
  hwx0_5 : ∀ i : grid0.Coords, EltTy.bits .f32 = 32 ∨ (Rect.block (s := S64x1x256) S1x1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S64x1x256.size a
  hwx0_6 : ∀ i : grid0.Coords, EltTy.bits .f32 = 32 ∨ (Rect.block (s := S64x1x256) S1x1x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x128x256.size a ≤ S8x128x128x256.size a
  hwx1_0 : ∀ i : grid1.Coords, EltTy.bits .f32 = 32 ∨ (Rect.block (s := S8x128x128x256) S1x16x128x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x16x128.size a ≤ S8x256x128x128.size a
  hwx1_5 : ∀ i : grid1.Coords, EltTy.bits .f32 = 32 ∨ (Rect.block (s := S8x256x128x128) S1x256x16x128.size (cc1_transform_5 i) (hinb1_5 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S1x256x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x16x128x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1x1x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2_0) S1x16x128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x256x16x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x256x128x128 : Shape := ⟨4, ![8, 256, 128, 128]⟩
abbrev S256x256 : Shape := ⟨2, ![256, 256]⟩
abbrev S256x512 : Shape := ⟨2, ![256, 512]⟩
abbrev S256 : Shape := ⟨1, ![256]⟩
abbrev S_ : Shape := ⟨0, ![]⟩
abbrev S8x128x128 : Shape := ⟨3, ![8, 128, 128]⟩
abbrev S8x1x128x128 : Shape := ⟨4, ![8, 1, 128, 128]⟩
abbrev S8x128x128x256 : Shape := ⟨4, ![8, 128, 128, 256]⟩
abbrev S8x128x128x1 : Shape := ⟨4, ![8, 128, 128, 1]⟩
abbrev S8x128x128x512 : Shape := ⟨4, ![8, 128, 128, 512]⟩
abbrev S256x8x128x128 : Shape := ⟨4, ![256, 8, 128, 128]⟩
abbrev S1x256x1x1 : Shape := ⟨4, ![1, 256, 1, 1]⟩

abbrev nBuf : Space → Nat
  | .hbm => 82
  | .vmem => 0
  | .smem => 0
  | _ => 0

abbrev bufTy : (tb : Table) → Fin (tcTables nBuf tb) → BufTy
  | .hbm, ⟨0, _⟩ => ⟨S8x256x128x128, .f32⟩
  | .hbm, ⟨1, _⟩ => ⟨S256x256, .f32⟩
  | .hbm, ⟨2, _⟩ => ⟨S256x512, .f32⟩
  | .hbm, ⟨3, _⟩ => ⟨S256, .f32⟩
  | .hbm, ⟨4, _⟩ => ⟨S256, .f32⟩
  | .hbm, ⟨5, _⟩ => ⟨S8x256x128x128, .f32⟩
  | .hbm, ⟨6, _⟩ => ⟨S_, .f32⟩
  | .hbm, ⟨7, _⟩ => ⟨S8x128x128, .f32⟩
  | .hbm, ⟨8, _⟩ => ⟨S8x1x128x128, .f32⟩
  | .hbm, ⟨9, _⟩ => ⟨S8x1x128x128, .f32⟩
  | .hbm, ⟨10, _⟩ => ⟨S_, .f32⟩
  | .hbm, ⟨11, _⟩ => ⟨S8x1x128x128, .f32⟩
  | .hbm, ⟨12, _⟩ => ⟨S8x1x128x128, .f32⟩
  | .hbm, ⟨13, _⟩ => ⟨S8x256x128x128, .f32⟩
  | .hbm, ⟨14, _⟩ => ⟨S8x256x128x128, .f32⟩
  | .hbm, ⟨15, _⟩ => ⟨S8x128x128x256, .f32⟩
  | .hbm, ⟨16, _⟩ => ⟨S8x128x128x256, .f32⟩
  | .hbm, ⟨17, _⟩ => ⟨S_, .f32⟩
  | .hbm, ⟨18, _⟩ => ⟨S8x128x128, .f32⟩
  | .hbm, ⟨19, _⟩ => ⟨S_, .f32⟩
  | .hbm, ⟨20, _⟩ => ⟨S8x128x128, .f32⟩
  | .hbm, ⟨21, _⟩ => ⟨S8x128x128, .f32⟩
  | .hbm, ⟨22, _⟩ => ⟨S8x128x128x1, .f32⟩
  | .hbm, ⟨23, _⟩ => ⟨S8x128x128x256, .f32⟩
  | .hbm, ⟨24, _⟩ => ⟨S8x128x128x256, .f32⟩
  | .hbm, ⟨25, _⟩ => ⟨S8x128x128x256, .f32⟩
  | .hbm, ⟨26, _⟩ => ⟨S_, .f32⟩
  | .hbm, ⟨27, _⟩ => ⟨S8x128x128, .f32⟩
  | .hbm, ⟨28, _⟩ => ⟨S8x128x128x1, .f32⟩
  | .hbm, ⟨29, _⟩ => ⟨S8x128x128x256, .f32⟩
  | .hbm, ⟨30, _⟩ => ⟨S8x128x128x256, .f32⟩
  | .hbm, ⟨31, _⟩ => ⟨S8x128x128x256, .f32⟩
  | .hbm, ⟨32, _⟩ => ⟨S8x128x128x512, .f32⟩
  | .hbm, ⟨33, _⟩ => ⟨S256x8x128x128, .f32⟩
  | .hbm, ⟨34, _⟩ => ⟨S8x256x128x128, .f32⟩
  | .hbm, ⟨35, _⟩ => ⟨S_, .f32⟩
  | .hbm, ⟨36, _⟩ => ⟨S256, .f32⟩
  | .hbm, ⟨37, _⟩ => ⟨S1x256x1x1, .f32⟩
  | .hbm, ⟨38, _⟩ => ⟨S_, .f32⟩
  | .hbm, ⟨39, _⟩ => ⟨S1x256x1x1, .f32⟩
  | .hbm, ⟨40, _⟩ => ⟨S1x256x1x1, .f32⟩
  | .hbm, ⟨41, _⟩ => ⟨S_, .i32⟩
  | .hbm, ⟨42, _⟩ => ⟨S_, .f32⟩
  | .hbm, ⟨43, _⟩ => ⟨S256, .f32⟩
  | .hbm, ⟨44, _⟩ => ⟨S1x256x1x1, .f32⟩
  | .hbm, ⟨45, _⟩ => ⟨S_, .f32⟩
  | .hbm, ⟨46, _⟩ => ⟨S1x256x1x1, .f32⟩
  | .hbm, ⟨47, _⟩ => ⟨S1x256x1x1, .f32⟩
  | .hbm, ⟨48, _⟩ => ⟨S8x256x128x128, .f32⟩
  | .hbm, ⟨49, _⟩ => ⟨S8x256x128x128, .f32⟩
  | .hbm, ⟨50, _⟩ => ⟨S8x256x128x128, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S256, .f32⟩
  | .hbm, ⟨56, _⟩ => ⟨S1x256x1x1, .f32⟩
  | .hbm, ⟨57, _⟩ => ⟨S1x256x1x1, .f32⟩
  | .hbm, ⟨58, _⟩ => ⟨S1x256x1x1, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S1x256x1x1, .f32⟩
  | .hbm, ⟨64, _⟩ => ⟨S1x256x1x1, .f32⟩
  | .hbm, ⟨65, _⟩ => ⟨S8x256x128x128, .f32⟩
  | .hbm, ⟨66, _⟩ => ⟨S8x256x128x128, .f32⟩
  | .hbm, ⟨67, _⟩ => ⟨S_, .f32⟩
  | .hbm, ⟨68, _⟩ => ⟨S1x256x1x1, .f32⟩
  | .hbm, ⟨69, _⟩ => ⟨S1x256x1x1, .f32⟩
  | .hbm, ⟨70, _⟩ => ⟨S1x256x1x1, .f32⟩
  | .hbm, ⟨71, _⟩ => ⟨S8x256x128x128, .f32⟩
  | .hbm, ⟨72, _⟩ => ⟨S8x256x128x128, .f32⟩
  | .hbm, ⟨73, _⟩ => ⟨S1x256x1x1, .f32⟩
  | .hbm, ⟨74, _⟩ => ⟨S8x256x128x128, .f32⟩
  | .hbm, ⟨75, _⟩ => ⟨S8x256x128x128, .f32⟩
  | .hbm, ⟨76, _⟩ => ⟨S1x256x1x1, .f32⟩
  | .hbm, ⟨77, _⟩ => ⟨S8x256x128x128, .f32⟩
  | .hbm, ⟨78, _⟩ => ⟨S8x256x128x128, .f32⟩
  | .hbm, ⟨79, _⟩ => ⟨S_, .f32⟩
  | .hbm, ⟨80, _⟩ => ⟨S8x256x128x128, .f32⟩
  | .hbm, ⟨81, _⟩ => ⟨S8x256x128x128, .f32⟩
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_cst_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_cst_1 : Ref sig .tc := ⟨.hbm, 52, rfl⟩
abbrev main_call0_v8 : Ref sig .tc := ⟨.hbm, 53, rfl⟩
abbrev main_call0_cst_2 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_v12 : Ref sig .tc := ⟨.hbm, 58, rfl⟩
abbrev main_call0_cst_3 : Ref sig .tc := ⟨.hbm, 59, rfl⟩
abbrev main_call0_v13 : Ref sig .tc := ⟨.hbm, 60, rfl⟩
abbrev main_call0_cst_4 : Ref sig .tc := ⟨.hbm, 61, rfl⟩
abbrev main_call0_call0_v0 : Ref sig .tc := ⟨.hbm, 62, rfl⟩
abbrev main_call0_call0_v1 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_6 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_call1_cst : Ref sig .tc := ⟨.hbm, 79, rfl⟩
abbrev main_call1_v0 : Ref sig .tc := ⟨.hbm, 80, rfl⟩
abbrev main_v43 : Ref sig .tc := ⟨.hbm, 81, rfl⟩

abbrev nD : Nat := 1
abbrev τ : Topo := Topo.v7x

variable {F : FTy → Type} [FloatOps F]

class Facts₀ : Prop where
  reducesTo_S8x256x128x128_S8x128x128_d1 : S8x256x128x128.ReducesTo [1] S8x128x128
  h_S_ : 0 < S_.numel
  bcast_S8x128x128_S8x1x128x128_0_2_3 : S8x128x128.BroadcastsInDim S8x1x128x128 (![0, 2, 3] : Fin 3 → Fin S8x1x128x128.rank)
  bcast_S_S8x1x128x128 : S_.BroadcastsInDim S8x1x128x128 (![] : Fin 0 → Fin S8x1x128x128.rank)
  bcast_S8x1x128x128_S8x256x128x128_0_1_2_3 : S8x1x128x128.BroadcastsInDim S8x256x128x128 (![0, 1, 2, 3] : Fin 4 → Fin S8x256x128x128.rank)
  transposes_S8x256x128x128_S8x128x128x256_0_2_3_1 : S8x256x128x128.Transposes [0, 2, 3, 1] S8x128x128x256
  reducesTo_S8x128x128x256_S8x128x128_d3 : S8x128x128x256.ReducesTo [3] S8x128x128
  bcast_S_S8x128x128 : S_.BroadcastsInDim S8x128x128 (![] : Fin 0 → Fin S8x128x128.rank)
  bcast_S8x128x128_S8x128x128x1_0_1_2 : S8x128x128.BroadcastsInDim S8x128x128x1 (![0, 1, 2] : Fin 3 → Fin S8x128x128x1.rank)
  bcast_S8x128x128x1_S8x128x128x256_0_1_2_3 : S8x128x128x1.BroadcastsInDim S8x128x128x256 (![0, 1, 2, 3] : Fin 4 → Fin S8x128x128x256.rank)
  concatenates_S8x128x128x256_S8x128x128x256_S8x128x128x512_d3 : Shape.Concatenates [S8x128x128x256, S8x128x128x256] S8x128x128x512 3
  transposes_S256x8x128x128_S8x256x128x128_1_0_2_3 : S256x8x128x128.Transposes [1, 0, 2, 3] S8x256x128x128
  reducesTo_S8x256x128x128_S256_d0_2_3 : S8x256x128x128.ReducesTo [0, 2, 3] S256
  bcast_S256_S1x256x1x1_1 : S256.BroadcastsInDim S1x256x1x1 (![1] : Fin 1 → Fin S1x256x1x1.rank)
  bcast_S_S1x256x1x1 : S_.BroadcastsInDim S1x256x1x1 (![] : Fin 0 → Fin S1x256x1x1.rank)
  bcast_S1x256x1x1_S8x256x128x128_0_1_2_3 : S1x256x1x1.BroadcastsInDim S8x256x128x128 (![0, 1, 2, 3] : Fin 4 → Fin S8x256x128x128.rank)
  bcast_S_S8x256x128x128 : S_.BroadcastsInDim S8x256x128x128 (![] : Fin 0 → Fin S8x256x128x128.rank)
  dot_S8x128x128x256_S256x256_S8x128x128x256_3_1_012_0_n_n_wf : DotDims.WF S8x128x128x256 S256x256 S8x128x128x256 [3] [1] [0, 1, 2] [0] [] []
  dot_S8x128x128x256_S256x256_S8x128x128x256_3_0_012_1_n_n_wf : DotDims.WF S8x128x128x256 S256x256 S8x128x128x256 [3] [0] [0, 1, 2] [1] [] []
  dot_S256x512_S8x128x128x512_S256x8x128x128_1_3_0_012_n_n_wf : DotDims.WF S256x512 S8x128x128x512 S256x8x128x128 [1] [3] [0] [0, 1, 2] [] []

variable [Facts₀]

def dot_S8x128x128x256_S256x256_S8x128x128x256_3_1_012_0_n_n : DotDims S8x128x128x256 S256x256 S8x128x128x256 where
  lhsContracting := [3]
  rhsContracting := [1]
  lhsNonContracting := [0, 1, 2]
  rhsNonContracting := [0]
  lhsBatch := []
  rhsBatch := []
  wf := dot_S8x128x128x256_S256x256_S8x128x128x256_3_1_012_0_n_n_wf
def dot_S8x128x128x256_S256x256_S8x128x128x256_3_0_012_1_n_n : DotDims S8x128x128x256 S256x256 S8x128x128x256 where
  lhsContracting := [3]
  rhsContracting := [0]
  lhsNonContracting := [0, 1, 2]
  rhsNonContracting := [1]
  lhsBatch := []
  rhsBatch := []
  wf := dot_S8x128x128x256_S256x256_S8x128x128x256_3_0_012_1_n_n_wf
def dot_S256x512_S8x128x128x512_S256x8x128x128_1_3_0_012_n_n : DotDims S256x512 S8x128x128x512 S256x8x128x128 where
  lhsContracting := [1]
  rhsContracting := [3]
  lhsNonContracting := [0]
  rhsNonContracting := [0, 1, 2]
  lhsBatch := []
  rhsBatch := []
  wf := dot_S256x512_S8x128x128x512_S256x8x128x128_1_3_0_012_n_n_wf

class Facts : Prop extends Facts₀ where

variable [Facts]
-- ==== Proof.KRun.lean ====
/-
  The idealized kernel's run with its result array NAMED: every weakly fair execution of @main terminates, nothing
  faulting, with the result buffer holding the last segment boundary's contents of it (the second region's output array
  after all its write-backs) and the five argument arrays as launched.
-/
import proofs.«151587_j20340965114022_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main's four segments (host, region, host, region) read against the final state: the result buffer and
    the arguments are among the unscoped buffers, each at the last boundary's contents. -/
theorem run_named : θ_run defs (onTc (τ := τ) (main (F := F))) ⟨m, fun _ => 0, ρ⟩ (fun r => ∀ c : Dev nD,
      r.2.mem ((c.tc : Thread nD τ).loc main_v17) = W4 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v17 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.KRun

end
-- ==== Proof.Spec.lean ====
/-
  What both programs compute, as mathematics over coordinates (no program is imported here).

  Per pixel (b, h, w) with channel vector qv : Fin 256 → EReal and token bank t (R = 256 rows of C = 256):
    ss  = Σ_c qv c ²,  nrm = max (√ss) ε₁,  qn c = qv c / nrm                       (L2 normalisation over channels)
    cue r = Σ_c qn c · t r c,  mx = max_r cue r,  ex r = exp (cue r − mx),  sm = Σ_r ex r,  att r = ex r / sm   (softmax)
    rd c = Σ_r att r · t r c                                                           (the read from the bank)
    y o  = Σ_{k<512} w o k · cat k   with cat = qn ++ rd                               (the 1×1 convolution)
         = Σ_c qn c · w o c + Σ_c rd c · w o (256 + c)                                 (the same sum, split in two)
  Per image: batch statistics of y over (b, h, w) per output channel o, N = 131072:
    mean o = (Σ y)/N,   var o = (Σ (y − mean)²)/N  =  (Σ y²)/N − mean²  (equal on the reals)
    out = max (((y − mean) / √(var + ε₂)) · γ o + β o) 0,  and x / √v = x · v^(-1/2) for v > 0.
  The two arrangements (suffix k: sums split by halves / by blocks of 2048 pixels, variance as E[y²] − mean², rsqrt;
  suffix r: one sum, variance of deviations, division by the square root) are both stated; they agree when every
  input entry is a real number.
-/
import Idealize.ShloMosaic.PureOps.Ideal
import Idealize.ShloMosaic.Lib.ValueIdx

noncomputable section

namespace Cert.Spec

open Idealize.ShloMosaic Idealize.ShloMosaic.ValueIdx

/-- The four float literals both programs spell with the same words. -/
def eps1 : EReal := Ideal.ofBits .f32 0x2B8CBCCC#32
def eps2 : EReal := Ideal.ofBits .f32 0x3727C5AC#32
def cntN : EReal := Ideal.ofBits .f32 0x48000000#32
def ninf : EReal := Ideal.ofBits .f32 0xFF800000#32

section Pixel
variable (qv : Fin 256 → EReal) (t : Fin 256 → Fin 256 → EReal)

def ssP : EReal := ∑ c : Fin 256, qv c * qv c
def nrmP : EReal := max (Ideal.sqrt (ssP qv)) eps1
def qnP (c : Fin 256) : EReal := Ideal.div (qv c) (nrmP qv)
def cueP (r : Fin 256) : EReal := ∑ c : Fin 256, qnP qv c * t r c
def mxP : EReal := (Finset.univ : Finset (Fin 256)).fold max ninf (cueP qv t)
def exP (r : Fin 256) : EReal := Ideal.exp (cueP qv t r - mxP qv t)
def smP : EReal := ∑ r : Fin 256, exP qv t r
def attP (r : Fin 256) : EReal := Ideal.div (exP qv t r) (smP qv t)
def rdP (c : Fin 256) : EReal := ∑ r : Fin 256, attP qv t r * t r c
/-- The projection as two sums over the two halves of the weight's columns. -/
def YkP (wL wR : Fin 256 → Fin 256 → EReal) (o : Fin 256) : EReal :=
  (∑ c : Fin 256, qnP qv c * wL o c) + ∑ c : Fin 256, rdP qv t c * wR o c
/-- The concatenation of the normalised pixel and the read. -/
def catP (k : Fin 512) : EReal :=
  if h : k.val < 256 then qnP qv ⟨k.val, h⟩ else rdP qv t ⟨k.val - 256, by have := k.isLt; omega⟩
/-- The projection as one sum over the concatenation. -/
def YrP (w : Fin 256 → Fin 512 → EReal) (o : Fin 256) : EReal := ∑ k : Fin 512, w o k * catP qv t k
end Pixel

section Image
variable (Y : Fin 8 → Fin 128 → Fin 128 → Fin 256 → EReal) (γ β : Fin 256 → EReal)

/-- Pixel p (row-major in a 16 × 128 tile) of block blk = b · 8 + hb: image b, row hb · 16 + p / 128, column p % 128. -/
def YblkAt (blk : Fin 64) (p : Fin 2048) (o : Fin 256) : EReal :=
  Y ⟨blk.val / 8, by have := blk.isLt; omega⟩ ⟨(blk.val % 8) * 16 + p.val / 128, by have := blk.isLt; have := p.isLt; omega⟩
    ⟨p.val % 128, by omega⟩ o
def S1k (o : Fin 256) : EReal := ∑ blk : Fin 64, ∑ p : Fin 2048, YblkAt Y blk p o
def S2k (o : Fin 256) : EReal := ∑ blk : Fin 64, ∑ p : Fin 2048, YblkAt Y blk p o * YblkAt Y blk p o
def meank (o : Fin 256) : EReal := Ideal.div (S1k Y o) cntN
def vark (o : Fin 256) : EReal := Ideal.div (S2k Y o) cntN - meank Y o * meank Y o
def outk (b : Fin 8) (o : Fin 256) (h w : Fin 128) : EReal :=
  max (((Y b h w o - meank Y o) * Ideal.rsqrt (vark Y o + eps2)) * γ o + β o) 0

def S1r (o : Fin 256) : EReal := ∑ b : Fin 8, ∑ h : Fin 128, ∑ w : Fin 128, Y b h w o
def meanr (o : Fin 256) : EReal := Ideal.div (S1r Y o) cntN
def devr (b : Fin 8) (h w : Fin 128) (o : Fin 256) : EReal := Y b h w o - meanr Y o
def varr (o : Fin 256) : EReal :=
  Ideal.div (∑ b : Fin 8, ∑ h : Fin 128, ∑ w : Fin 128, devr Y b h w o * devr Y b h w o) cntN
def outr (b : Fin 8) (o : Fin 256) (h w : Fin 128) : EReal :=
  max (Ideal.div (Y b h w o - meanr Y o) (Ideal.sqrt (varr Y o + eps2)) * γ o + β o) 0
end Image

abbrev SQ : Shape := ⟨4, ![8, 256, 128, 128]⟩
abbrev ST : Shape := ⟨2, ![256, 256]⟩
abbrev SW : Shape := ⟨2, ![256, 512]⟩
abbrev SC : Shape := ⟨1, ![256]⟩

section Whole
variable (x : FVec Ideal SQ .f32) (t : FVec Ideal ST .f32) (w : FVec Ideal SW .f32) (γ β : FVec Ideal SC .f32)

/-- The left and right halves of the weight's columns. -/
def wL (o c : Fin 256) : EReal := w (ix2 o (⟨c.val, by have := c.isLt; omega⟩ : Fin 512))
def wR (o c : Fin 256) : EReal := w (ix2 o (⟨256 + c.val, by have := c.isLt; omega⟩ : Fin 512))
def pix (b : Fin 8) (h w' : Fin 128) (c : Fin 256) : EReal := x (ix4 b c h w')
def bank (r c : Fin 256) : EReal := t (ix2 r c)

def Yk (b : Fin 8) (h w' : Fin 128) (o : Fin 256) : EReal := YkP (pix x b h w') (bank t) (wL w) (wR w) o
def Yr (b : Fin 8) (h w' : Fin 128) (o : Fin 256) : EReal := YrP (pix x b h w') (bank t) (fun o k => w (ix2 o k)) o

/-- The result array in the first arrangement. -/
def Gk : FVec Ideal SQ .f32 := fun i =>
  outk (Yk x t w) (fun o => γ (ix1 o)) (fun o => β (ix1 o)) (i 0) (i 1) (i 2) (i 3)
/-- The result array in the second arrangement. -/
def Gr : FVec Ideal SQ .f32 := fun i =>
  outr (Yr x t w) (fun o => γ (ix1 o)) (fun o => β (ix1 o)) (i 0) (i 1) (i 2) (i 3)
end Whole

end Cert.Spec

end
-- ==== Proof.KReg0.lean ====
/-
  The first region (normalise each pixel's channel vector, cue softmax over the token bank, read, project): its three
  output arrays after the run, each ONE function of the arrays the region finds — the query x [8,256,128,128], the bank
  t [256,256] and the two halves w1, w2 [256,256] of the weight. Point (b, hb) works on the 16 × 128 pixels of rows
  hb·16 … hb·16+15 of image b: it writes their 256 projected channels into y [8,128,128,256], and their column sums of y
  and of y² into row b·8 + hb of the two [64,1,256] arrays of partial sums.
-/
import proofs.«151587_j20340965114022_2_alg».proof.Proof.Gen.KernelIdeal.Frame
import proofs.«151587_j20340965114022_2_alg».proof.Proof.Spec
import Idealize.ShloMosaic.Lib.Pipeline.Value
import Idealize.ShloMosaic.Lib.ValueIdx

set_option maxRecDepth 16384

noncomputable section

namespace Cert.KernelIdeal.KVal

open Cert.KernelIdeal Cert.KernelIdeal.Gen Cert.Spec
open Idealize.ShloMosaic Idealize.ShloMosaic.ValueIdx Idealize.ShloMosaic.TcCoe Idealize.SL.Sem
open Idealize.ShloMosaic.Pipeline (Dat)

/-- The first body's three block results: y at (row hh, column ww, channel o) of the tile; the column sums over the
    tile's 2048 pixels (pixel p is row p / 128, column p % 128) of y and of y². -/
def Pay0 : Prop :=
  (∀ (x0 : Vec Ideal S1x256x16x128 .f32) (x1 x2 x3 : Vec Ideal S256x256 .f32) (hh : Fin 16) (ww : Fin 128) (o : Fin 256),
    out0_4 (F := Ideal) x0 x1 x2 x3 (ix4 (0 : Fin 1) hh ww o)
      = YkP (fun c => x0 (ix4 (0 : Fin 1) c hh ww)) (fun r c => x1 (ix2 r c)) (fun o c => x2 (ix2 o c)) (fun o c => x3 (ix2 o c)) o)
  ∧ (∀ (x0 : Vec Ideal S1x256x16x128 .f32) (x1 x2 x3 : Vec Ideal S256x256 .f32) (o : Fin 256),
    out0_5 (F := Ideal) x0 x1 x2 x3 (ix3 (0 : Fin 1) (0 : Fin 1) o)
      = ∑ p : Fin 2048, YkP (fun c => x0 (ix4 (0 : Fin 1) c (⟨p.val / 128, by have := p.isLt; omega⟩ : Fin 16) (⟨p.val % 128, by omega⟩ : Fin 128)))
          (fun r c => x1 (ix2 r c)) (fun o c => x2 (ix2 o c)) (fun o c => x3 (ix2 o c)) o)
  ∧ (∀ (x0 : Vec Ideal S1x256x16x128 .f32) (x1 x2 x3 : Vec Ideal S256x256 .f32) (o : Fin 256),
    out0_6 (F := Ideal) x0 x1 x2 x3 (ix3 (0 : Fin 1) (0 : Fin 1) o)
      = ∑ p : Fin 2048,
          YkP (fun c => x0 (ix4 (0 : Fin 1) c (⟨p.val / 128, by have := p.isLt; omega⟩ : Fin 16) (⟨p.val % 128, by omega⟩ : Fin 128)))
            (fun r c => x1 (ix2 r c)) (fun o c => x2 (ix2 o c)) (fun o c => x3 (ix2 o c)) o
          * YkP (fun c => x0 (ix4 (0 : Fin 1) c (⟨p.val / 128, by have := p.isLt; omega⟩ : Fin 16) (⟨p.val % 128, by omega⟩ : Fin 128)))
            (fun r c => x1 (ix2 r c)) (fun o c => x2 (ix2 o c)) (fun o c => x3 (ix2 o c)) o)

/-- The projected pixel (b, h, w) at channel o, from the whole arrays. -/
def Yloc (x : FVec Ideal S8x256x128x128 .f32) (tt w1 w2 : FVec Ideal S256x256 .f32) :
    Fin 8 → Fin 128 → Fin 128 → Fin 256 → EReal :=
  fun b h w' o => YkP (fun c => x (ix4 b c h w')) (fun r c => tt (ix2 r c)) (fun o c => w1 (ix2 o c)) (fun o c => w2 (ix2 o c)) o

def G4 (x : FVec Ideal S8x256x128x128 .f32) (tt w1 w2 : FVec Ideal S256x256 .f32) : FVec Ideal S8x128x128x256 .f32 :=
  fun i => Yloc x tt w1 w2 (i 0) (i 1) (i 2) (i 3)
def G5 (x : FVec Ideal S8x256x128x128 .f32) (tt w1 w2 : FVec Ideal S256x256 .f32) : FVec Ideal S64x1x256 .f32 :=
  fun i => ∑ p : Fin 2048, YblkAt (Yloc x tt w1 w2) (i 0) p (i 2)
def G6 (x : FVec Ideal S8x256x128x128 .f32) (tt w1 w2 : FVec Ideal S256x256 .f32) : FVec Ideal S64x1x256 .f32 :=
  fun i => ∑ p : Fin 2048, YblkAt (Yloc x tt w1 w2) (i 0) p (i 2) * YblkAt (Yloc x tt w1 w2) (i 0) p (i 2)

variable (V : (c : Dev nD) → (b : Ref sig .tc) → Buf (Elt Ideal) ((c : Thread nD τ).loc b))

/-- The printed index maps over the 8 × 8 grid: the query tile and the y tile move together (image, row tile), the row of
    partial sums is image · 8 + row tile, the bank and the weights stay at block (0, 0). -/
theorem idx_facts0 : ∀ t : Fin cfg0.N,
    win0_0.index t (0 : Fin 4) = win0_4.index t (0 : Fin 4) ∧ win0_0.index t (1 : Fin 4) = 0
    ∧ win0_0.index t (2 : Fin 4) = win0_4.index t (1 : Fin 4) ∧ win0_0.index t (3 : Fin 4) = 0
    ∧ win0_4.index t (2 : Fin 4) = 0 ∧ win0_4.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 3) = win0_4.index t (0 : Fin 4) * 8 + win0_4.index t (1 : Fin 4)
    ∧ win0_5.index t (1 : Fin 3) = 0 ∧ win0_5.index t (2 : Fin 3) = 0
    ∧ win0_6.index t (0 : Fin 3) = win0_4.index t (0 : Fin 4) * 8 + win0_4.index t (1 : Fin 4)
    ∧ win0_6.index t (1 : Fin 3) = 0 ∧ win0_6.index t (2 : Fin 3) = 0
    ∧ win0_4.index t (0 : Fin 4) ≤ 7 ∧ win0_4.index t (1 : Fin 4) ≤ 7 :=
  (by decide +kernel : ∀ t : Fin grid0.N, _)

theorem idx_onto4 : ∀ (q0 : Fin 8) (q1 : Fin 8), ∃ t : Fin cfg0.N, win0_4.index t = ![q0.val, q1.val, 0, 0] :=
  (by decide +kernel : ∀ (q0 : Fin 8) (q1 : Fin 8), ∃ t : Fin grid0.N, win0_4.index t = ![q0.val, q1.val, 0, 0])
theorem idx_onto5 : ∀ (q : Fin 64), ∃ t : Fin cfg0.N, win0_5.index t = ![q.val, 0, 0] :=
  (by decide +kernel : ∀ (q : Fin 64), ∃ t : Fin grid0.N, win0_5.index t = ![q.val, 0, 0])
theorem idx_onto6 : ∀ (q : Fin 64), ∃ t : Fin cfg0.N, win0_6.index t = ![q.val, 0, 0] :=
  (by decide +kernel : ∀ (q : Fin 64), ∃ t : Fin grid0.N, win0_6.index t = ![q.val, 0, 0])

/-- The projection depends on its five arguments only through their values. -/
theorem YkP_congr {f0 f0' : Fin 256 → EReal} {f1 f1' f2 f2' f3 f3' : Fin 256 → Fin 256 → EReal} {o o' : Fin 256}
    (h0 : f0 = f0') (h1 : f1 = f1') (h2 : f2 = f2') (h3 : f3 = f3') (ho : o = o') :
    YkP f0 f1 f2 f3 o = YkP f0' f1' f2' f3' o' := by subst h0 h1 h2 h3 ho; rfl

/-- A whole [256,256] operand's block at any point is the operand (bank, left weights, right weights). -/
theorem whole1 (c : Dev nD) (t : Fin cfg0.N) :
    (fun r c' : Fin 256 => iblk0 V c 1 t (ix2 r c')) = fun r c' => V c main_arg1 (ix2 r c') := by
  obtain ⟨-, -, -, -, -, -, f10, f11, -⟩ := idx_facts0 t
  funext r c'
  show V c main_arg1 (((cfg0.win 1).blk t).view.emb (ix2 r c')) = _
  refine congrArg (V c main_arg1) ?_
  funext a; apply Fin.ext
  match a with
  | ⟨0, _⟩ => show win0_1.index t (0 : Fin 2) * 256 + 1 * r.val = r.val; omega
  | ⟨1, _⟩ => show win0_1.index t (1 : Fin 2) * 256 + 1 * c'.val = c'.val; omega
theorem whole2 (c : Dev nD) (t : Fin cfg0.N) :
    (fun r c' : Fin 256 => iblk0 V c 2 t (ix2 r c')) = fun r c' => V c main_v0 (ix2 r c') := by
  obtain ⟨-, -, -, -, -, -, -, -, f20, f21, -⟩ := idx_facts0 t
  funext r c'
  show V c main_v0 (((cfg0.win 2).blk t).view.emb (ix2 r c')) = _
  refine congrArg (V c main_v0) ?_
  funext a; apply Fin.ext
  match a with
  | ⟨0, _⟩ => show win0_2.index t (0 : Fin 2) * 256 + 1 * r.val = r.val; omega
  | ⟨1, _⟩ => show win0_2.index t (1 : Fin 2) * 256 + 1 * c'.val = c'.val; omega
theorem whole3 (c : Dev nD) (t : Fin cfg0.N) :
    (fun r c' : Fin 256 => iblk0 V c 3 t (ix2 r c')) = fun r c' => V c main_v1 (ix2 r c') := by
  obtain ⟨-, -, -, -, -, -, -, -, -, -, f30, f31, -⟩ := idx_facts0 t
  funext r c'
  show V c main_v1 (((cfg0.win 3).blk t).view.emb (ix2 r c')) = _
  refine congrArg (V c main_v1) ?_
  funext a; apply Fin.ext
  match a with
  | ⟨0, _⟩ => show win0_3.index t (0 : Fin 2) * 256 + 1 * r.val = r.val; omega
  | ⟨1, _⟩ => show win0_3.index t (1 : Fin 2) * 256 + 1 * c'.val = c'.val; omega

/-- The query tile at point t, channel c, row hh, column ww is the query at (image, c, row tile · 16 + hh, ww). -/
theorem qblk (c : Dev nD) (t : Fin cfg0.N) (b : Fin 8) (h : Fin 128) (hh : Fin 16) (ww : Fin 128)
    (hb : b.val = win0_4.index t (0 : Fin 4)) (hh' : h.val = win0_4.index t (1 : Fin 4) * 16 + hh.val) :
    (fun c' : Fin 256 => iblk0 V c 0 t (ix4 (0 : Fin 1) c' hh ww)) = fun c' => V c main_arg0 (ix4 b c' h ww) := by
  obtain ⟨e0, e1, e2, e3, -⟩ := idx_facts0 t
  funext c'
  show V c main_arg0 (((cfg0.win 0).blk t).view.emb (ix4 (0 : Fin 1) c' hh ww)) = _
  refine congrArg (V c main_arg0) ?_
  funext a; apply Fin.ext
  match a with
  | ⟨0, _⟩ => show win0_0.index t (0 : Fin 4) * 1 + 1 * ((0 : Fin 1) : ℕ) = b.val; omega
  | ⟨1, _⟩ => show win0_0.index t (1 : Fin 4) * 256 + 1 * c'.val = c'.val; omega
  | ⟨2, _⟩ => show win0_0.index t (2 : Fin 4) * 16 + 1 * hh.val = h.val; omega
  | ⟨3, _⟩ => show win0_0.index t (3 : Fin 4) * 128 + 1 * ww.val = ww.val; omega

/-- What point t writes back into y is block t of G4. -/
theorem flushed4_eq (hpay : Pay0) (c : Dev nD) (t : Fin cfg0.N) :
    (dat0 V c).flushed 4 t = ((cfg0.win 4).blk t).view.read (Elt Ideal)
      (G4 (V c main_arg0) (V c main_arg1) (V c main_v0) (V c main_v1)) := by
  show (cfg0.win 4).cut (grid0.coords t) ((dat0 V c).after 4 t) = _
  rw [after0_4]
  obtain ⟨-, -, -, -, e4, e5, -, -, -, -, -, -, -, -, -, -, -, -, l0, l1⟩ := idx_facts0 t
  funext j
  obtain ⟨z, hh, ww, o, rfl⟩ : ∃ (z : Fin 1) (hh : Fin 16) (ww : Fin 128) (o : Fin 256), j = ix4 z hh ww o :=
    ⟨j 0, j 1, j 2, j 3, eq_ix4 j⟩
  obtain rfl : z = 0 := Subsingleton.elim _ _
  show out0_4 (iblk0 V c 0 t) (iblk0 V c 1 t) (iblk0 V c 2 t) (iblk0 V c 3 t) (ix4 (0 : Fin 1) hh ww o)
    = G4 (V c main_arg0) (V c main_arg1) (V c main_v0) (V c main_v1) (((cfg0.win 4).blk t).view.emb (ix4 (0 : Fin 1) hh ww o))
  refine (hpay.1 _ _ _ _ hh ww o).trans ?_
  show _ = YkP (fun c' => V c main_arg0 (ix4 ((((cfg0.win 4).blk t).view.emb (ix4 (0 : Fin 1) hh ww o)) 0) c'
              ((((cfg0.win 4).blk t).view.emb (ix4 (0 : Fin 1) hh ww o)) 1) ((((cfg0.win 4).blk t).view.emb (ix4 (0 : Fin 1) hh ww o)) 2)))
            (fun r c' => V c main_arg1 (ix2 r c')) (fun o c' => V c main_v0 (ix2 o c')) (fun o c' => V c main_v1 (ix2 o c'))
            ((((cfg0.win 4).blk t).view.emb (ix4 (0 : Fin 1) hh ww o)) 3)
  refine YkP_congr ?_ (whole1 V c t) (whole2 V c t) (whole3 V c t) ?_
  · have hw : ((((cfg0.win 4).blk t).view.emb (ix4 (0 : Fin 1) hh ww o)) 2 : Fin 128) = ww :=
      Fin.ext (by show win0_4.index t (2 : Fin 4) * 128 + 1 * ww.val = ww.val; omega)
    rw [hw]
    exact qblk V c t _ _ hh ww (by show win0_4.index t (0 : Fin 4) * 1 + 1 * ((0 : Fin 1) : ℕ) = _; omega)
      (by show win0_4.index t (1 : Fin 4) * 16 + 1 * hh.val = _; omega)
  · exact Fin.ext (by show o.val = win0_4.index t (3 : Fin 4) * 256 + 1 * o.val; omega)

/-- One pixel of a tile, projected, is the whole-array projection at (block / 8, (block % 8) · 16 + p / 128, p % 128). -/
theorem pix_of_blk (c : Dev nD) (t : Fin cfg0.N) (o : Fin 256) (blk : Fin 64)
    (hblk : blk.val = win0_4.index t (0 : Fin 4) * 8 + win0_4.index t (1 : Fin 4)) (p : Fin 2048) :
    YkP (fun c' => iblk0 V c 0 t (ix4 (0 : Fin 1) c' (⟨p.val / 128, by have := p.isLt; omega⟩ : Fin 16) (⟨p.val % 128, by omega⟩ : Fin 128)))
        (fun r c' => iblk0 V c 1 t (ix2 r c')) (fun o c' => iblk0 V c 2 t (ix2 o c')) (fun o c' => iblk0 V c 3 t (ix2 o c')) o
      = YblkAt (Yloc (V c main_arg0) (V c main_arg1) (V c main_v0) (V c main_v1)) blk p o := by
  obtain ⟨-, -, -, -, -, -, -, -, -, -, -, -, -, -, -, -, -, -, l0, l1⟩ := idx_facts0 t
  unfold YblkAt Yloc
  refine YkP_congr ?_ (whole1 V c t) (whole2 V c t) (whole3 V c t) rfl
  exact qblk V c t _ _ _ _ (by show blk.val / 8 = _; omega)
    (by show (blk.val % 8) * 16 + p.val / 128 = win0_4.index t (1 : Fin 4) * 16 + p.val / 128; omega)

/-- What point t writes back into the partial sums of y is block t of G5. -/
theorem flushed5_eq (hpay : Pay0) (c : Dev nD) (t : Fin cfg0.N) :
    (dat0 V c).flushed 5 t = ((cfg0.win 5).blk t).view.read (Elt Ideal)
      (G5 (V c main_arg0) (V c main_arg1) (V c main_v0) (V c main_v1)) := by
  show (cfg0.win 5).cut (grid0.coords t) ((dat0 V c).after 5 t) = _
  rw [after0_5]
  obtain ⟨-, -, -, -, -, -, -, -, -, -, -, -, g0, g1, g2, -, -, -, l0, l1⟩ := idx_facts0 t
  funext j
  obtain ⟨z0, z1, o, rfl⟩ : ∃ (z0 z1 : Fin 1) (o : Fin 256), j = ix3 z0 z1 o := ⟨j 0, j 1, j 2, eq_ix3 j⟩
  obtain rfl : z0 = 0 := Subsingleton.elim _ _
  obtain rfl : z1 = 0 := Subsingleton.elim _ _
  show out0_5 (iblk0 V c 0 t) (iblk0 V c 1 t) (iblk0 V c 2 t) (iblk0 V c 3 t) (ix3 (0 : Fin 1) (0 : Fin 1) o)
    = G5 (V c main_arg0) (V c main_arg1) (V c main_v0) (V c main_v1) (((cfg0.win 5).blk t).view.emb (ix3 (0 : Fin 1) (0 : Fin 1) o))
  refine (hpay.2.1 _ _ _ _ o).trans ?_
  show _ = ∑ p : Fin 2048, YblkAt (Yloc (V c main_arg0) (V c main_arg1) (V c main_v0) (V c main_v1))
      ((((cfg0.win 5).blk t).view.emb (ix3 (0 : Fin 1) (0 : Fin 1) o)) 0) p ((((cfg0.win 5).blk t).view.emb (ix3 (0 : Fin 1) (0 : Fin 1) o)) 2)
  have ho : ((((cfg0.win 5).blk t).view.emb (ix3 (0 : Fin 1) (0 : Fin 1) o)) 2 : Fin 256) = o :=
    Fin.ext (by show win0_5.index t (2 : Fin 3) * 256 + 1 * o.val = o.val; omega)
  rw [ho]
  exact Finset.sum_congr rfl fun p _ => pix_of_blk V c t o _
    (by show win0_5.index t (0 : Fin 3) * 1 + 1 * ((0 : Fin 1) : ℕ) = _; omega) p

/-- What point t writes back into the partial sums of y² is block t of G6. -/
theorem flushed6_eq (hpay : Pay0) (c : Dev nD) (t : Fin cfg0.N) :
    (dat0 V c).flushed 6 t = ((cfg0.win 6).blk t).view.read (Elt Ideal)
      (G6 (V c main_arg0) (V c main_arg1) (V c main_v0) (V c main_v1)) := by
  show (cfg0.win 6).cut (grid0.coords t) ((dat0 V c).after 6 t) = _
  rw [after0_6]
  obtain ⟨-, -, -, -, -, -, -, -, -, -, -, -, -, -, -, g0, g1, g2, l0, l1⟩ := idx_facts0 t
  funext j
  obtain ⟨z0, z1, o, rfl⟩ : ∃ (z0 z1 : Fin 1) (o : Fin 256), j = ix3 z0 z1 o := ⟨j 0, j 1, j 2, eq_ix3 j⟩
  obtain rfl : z0 = 0 := Subsingleton.elim _ _
  obtain rfl : z1 = 0 := Subsingleton.elim _ _
  show out0_6 (iblk0 V c 0 t) (iblk0 V c 1 t) (iblk0 V c 2 t) (iblk0 V c 3 t) (ix3 (0 : Fin 1) (0 : Fin 1) o)
    = G6 (V c main_arg0) (V c main_arg1) (V c main_v0) (V c main_v1) (((cfg0.win 6).blk t).view.emb (ix3 (0 : Fin 1) (0 : Fin 1) o))
  refine (hpay.2.2 _ _ _ _ o).trans ?_
  show _ = ∑ p : Fin 2048,
      YblkAt (Yloc (V c main_arg0) (V c main_arg1) (V c main_v0) (V c main_v1))
        ((((cfg0.win 6).blk t).view.emb (ix3 (0 : Fin 1) (0 : Fin 1) o)) 0) p ((((cfg0.win 6).blk t).view.emb (ix3 (0 : Fin 1) (0 : Fin 1) o)) 2)
      * YblkAt (Yloc (V c main_arg0) (V c main_arg1) (V c main_v0) (V c main_v1))
        ((((cfg0.win 6).blk t).view.emb (ix3 (0 : Fin 1) (0 : Fin 1) o)) 0) p ((((cfg0.win 6).blk t).view.emb (ix3 (0 : Fin 1) (0 : Fin 1) o)) 2)
  have ho : ((((cfg0.win 6).blk t).view.emb (ix3 (0 : Fin 1) (0 : Fin 1) o)) 2 : Fin 256) = o :=
    Fin.ext (by show win0_6.index t (2 : Fin 3) * 256 + 1 * o.val = o.val; omega)
  rw [ho]
  refine Finset.sum_congr rfl fun p _ => ?_
  rw [pix_of_blk V c t o ((((cfg0.win 6).blk t).view.emb (ix3 (0 : Fin 1) (0 : Fin 1) o)) 0)
    (by show win0_6.index t (0 : Fin 3) * 1 + 1 * ((0 : Fin 1) : ℕ) = _; omega) p]

theorem mem_blk4 (t : Fin cfg0.N) (i : S8x128x128x256.Idx) :
    i ∈ ((cfg0.win 4).blk t).view.set ↔ ∀ a : Fin 4, win0_4.index t a * S1x16x128x256.size a ≤ (i a).val
      ∧ (i a).val < win0_4.index t a * S1x16x128x256.size a + S1x16x128x256.size a := by
  show i ∈ ((View.whole main_v2_0).slice (win0_4.rect t)).set ↔ _
  rw [View.set_slice_whole, Rect.mem_set_unit]
  exact Iff.rfl
theorem mem_blk5 (t : Fin cfg0.N) (i : S64x1x256.Idx) :
    i ∈ ((cfg0.win 5).blk t).view.set ↔ ∀ a : Fin 3, win0_5.index t a * S1x1x256.size a ≤ (i a).val
      ∧ (i a).val < win0_5.index t a * S1x1x256.size a + S1x1x256.size a := by
  show i ∈ ((View.whole main_v2_1).slice (win0_5.rect t)).set ↔ _
  rw [View.set_slice_whole, Rect.mem_set_unit]
  exact Iff.rfl
theorem mem_blk6 (t : Fin cfg0.N) (i : S64x1x256.Idx) :
    i ∈ ((cfg0.win 6).blk t).view.set ↔ ∀ a : Fin 3, win0_6.index t a * S1x1x256.size a ≤ (i a).val
      ∧ (i a).val < win0_6.index t a * S1x1x256.size a + S1x1x256.size a := by
  show i ∈ ((View.whole main_v2_2).slice (win0_6.rect t)).set ↔ _
  rw [View.set_slice_whole, Rect.mem_set_unit]
  exact Iff.rfl

/-- The y tiles fill y: (b, h, w, o) lies in the block of the point with image b and row tile h / 16. -/
theorem cover4 (i : S8x128x128x256.Idx) :
    ∃ t : Fin cfg0.N, (cfg0.win 4).flush t = true ∧ i ∈ ((cfg0.win 4).blk t).view.set := by
  have hi0 : (i 0).val < 8 := (i 0).isLt
  have hi1 : (i 1).val < 128 := (i 1).isLt
  have hi2 : (i 2).val < 128 := (i 2).isLt
  have hi3 : (i 3).val < 256 := (i 3).isLt
  obtain ⟨t, ht⟩ := idx_onto4 ⟨(i 0).val, hi0⟩ ⟨(i 1).val / 16, by omega⟩
  have q0 : win0_4.index t (0 : Fin 4) = (i 0).val := congrFun ht 0
  have q1 : win0_4.index t (1 : Fin 4) = (i 1).val / 16 := congrFun ht 1
  have q2 : win0_4.index t (2 : Fin 4) = 0 := congrFun ht 2
  have q3 : win0_4.index t (3 : Fin 4) = 0 := congrFun ht 3
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 128 ≤ (i 2).val ∧ (i 2).val < win0_4.index t (2 : Fin 4) * 128 + 128; omega
  | ⟨3, _⟩ => show win0_4.index t (3 : Fin 4) * 256 ≤ (i 3).val ∧ (i 3).val < win0_4.index t (3 : Fin 4) * 256 + 256; omega

/-- Each row of the partial sums is some point's block. -/
theorem cover5 (i : S64x1x256.Idx) :
    ∃ t : Fin cfg0.N, (cfg0.win 5).flush t = true ∧ i ∈ ((cfg0.win 5).blk t).view.set := by
  have hi0 : (i 0).val < 64 := (i 0).isLt
  have hi1 : (i 1).val < 1 := (i 1).isLt
  have hi2 : (i 2).val < 256 := (i 2).isLt
  obtain ⟨t, ht⟩ := idx_onto5 ⟨(i 0).val, hi0⟩
  have q0 : win0_5.index t (0 : Fin 3) = (i 0).val := congrFun ht 0
  have q1 : win0_5.index t (1 : Fin 3) = 0 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 256 ≤ (i 2).val ∧ (i 2).val < win0_5.index t (2 : Fin 3) * 256 + 256; omega
theorem cover6 (i : S64x1x256.Idx) :
    ∃ t : Fin cfg0.N, (cfg0.win 6).flush t = true ∧ i ∈ ((cfg0.win 6).blk t).view.set := by
  have hi0 : (i 0).val < 64 := (i 0).isLt
  have hi1 : (i 1).val < 1 := (i 1).isLt
  have hi2 : (i 2).val < 256 := (i 2).isLt
  obtain ⟨t, ht⟩ := idx_onto6 ⟨(i 0).val, hi0⟩
  have q0 : win0_6.index t (0 : Fin 3) = (i 0).val := congrFun ht 0
  have q1 : win0_6.index t (1 : Fin 3) = 0 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1 ≤ (i 1).val ∧ (i 1).val < win0_6.index t (1 : Fin 3) * 1 + 1; omega
  | ⟨2, _⟩ => show win0_6.index t (2 : Fin 3) * 256 ≤ (i 2).val ∧ (i 2).val < win0_6.index t (2 : Fin 3) * 256 + 256; omega

/-- The three arrays after the region's run. -/
theorem final4 (hpay : Pay0) (c : Dev nD) :
    (dat0 V c).arrAt 4 cfg0.N = G4 (V c main_arg0) (V c main_arg1) (V c main_v0) (V c main_v1) :=
  (dat0 V c).arrAt_eq_of_cover 4 _ (fun t _ => flushed4_eq V hpay c t) cover4
theorem final5 (hpay : Pay0) (c : Dev nD) :
    (dat0 V c).arrAt 5 cfg0.N = G5 (V c main_arg0) (V c main_arg1) (V c main_v0) (V c main_v1) :=
  (dat0 V c).arrAt_eq_of_cover 5 _ (fun t _ => flushed5_eq V hpay c t) cover5
theorem final6 (hpay : Pay0) (c : Dev nD) :
    (dat0 V c).arrAt 6 cfg0.N = G6 (V c main_arg0) (V c main_arg1) (V c main_v0) (V c main_v1) :=
  (dat0 V c).arrAt_eq_of_cover 6 _ (fun t _ => flushed6_eq V hpay c t) cover6

end Cert.KernelIdeal.KVal

end
-- ==== Proof.KReg1.lean ====
/-
  The second region (normalise, scale, shift, clamp at zero, back to channel-first): its output array after the run
  is ONE function of the arrays the region finds — the pre-activation y [8,128,128,256] and the four per-channel rows
  mean, var, gamma, beta [1,256]. Point (b, hb) reads rows hb·16 … hb·16+15 of image b of y and writes the same rows,
  all 256 channels, of the channel-first result.
-/
import proofs.«151587_j20340965114022_2_alg».proof.Proof.Gen.KernelIdeal.Frame
import proofs.«151587_j20340965114022_2_alg».proof.Proof.Spec
import Idealize.ShloMosaic.Lib.Pipeline.Value
import Idealize.ShloMosaic.Lib.ValueIdx

set_option maxRecDepth 16384

noncomputable section

namespace Cert.KernelIdeal.KVal

open Cert.KernelIdeal Cert.KernelIdeal.Gen Cert.Spec
open Idealize.ShloMosaic Idealize.ShloMosaic.ValueIdx Idealize.ShloMosaic.TcCoe Idealize.SL.Sem
open Idealize.ShloMosaic.Pipeline (Dat)

/-- The second body's block result at (channel o, row hh, column ww) of its [1,256,16,128] output block. -/
def Pay1 : Prop :=
  ∀ (y : Vec Ideal S1x16x128x256 .f32) (mu va ga be : Vec Ideal S1x256 .f32) (o : Fin 256) (hh : Fin 16) (ww : Fin 128),
    out1_5 (F := Ideal) y mu va ga be (ix4 (0 : Fin 1) o hh ww)
      = max (((y (ix4 (0 : Fin 1) hh ww o) - mu (ix2 (0 : Fin 1) o)) * Ideal.rsqrt (va (ix2 (0 : Fin 1) o) + eps2))
              * ga (ix2 (0 : Fin 1) o) + be (ix2 (0 : Fin 1) o)) 0

/-- The whole result array from the whole operand arrays: at (b, o, h, w). -/
def G1 (y : FVec Ideal S8x128x128x256 .f32) (mu va ga be : FVec Ideal S1x256 .f32) : FVec Ideal S8x256x128x128 .f32 :=
  fun i => max (((y (ix4 (i 0) (i 2) (i 3) (i 1)) - mu (ix2 (0 : Fin 1) (i 1))) * Ideal.rsqrt (va (ix2 (0 : Fin 1) (i 1)) + eps2))
              * ga (ix2 (0 : Fin 1) (i 1)) + be (ix2 (0 : Fin 1) (i 1))) 0

variable (V : (c : Dev nD) → (b : Ref sig .tc) → Buf (Elt Ideal) ((c : Thread nD τ).loc b))

/-- The printed index maps over the 8 × 8 grid: the input tile and the output tile move together (image, row tile),
    the four rows stay at block (0, 0). -/
theorem idx_facts1 : ∀ t : Fin cfg1.N,
    win1_0.index t (0 : Fin 4) = win1_5.index t (0 : Fin 4) ∧ win1_0.index t (1 : Fin 4) = win1_5.index t (2 : Fin 4)
    ∧ win1_0.index t (2 : Fin 4) = 0 ∧ win1_0.index t (3 : Fin 4) = 0
    ∧ win1_5.index t (1 : Fin 4) = 0 ∧ win1_5.index t (3 : Fin 4) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 4) ≤ 7 ∧ win1_5.index t (2 : Fin 4) ≤ 7 :=
  (by decide +kernel : ∀ t : Fin grid1.N, _)

/-- Every (image, row tile) is some point's output block. -/
theorem idx_onto1 : ∀ (q0 : Fin 8) (q2 : Fin 8), ∃ t : Fin cfg1.N, win1_5.index t = ![q0.val, 0, q2.val, 0] :=
  (by decide +kernel : ∀ (q0 : Fin 8) (q2 : Fin 8), ∃ t : Fin grid1.N, win1_5.index t = ![q0.val, 0, q2.val, 0])

/-- What point t writes back is block t of G1 of the arrays the region finds. -/
theorem flushed1_eq (hpay : Pay1) (c : Dev nD) (t : Fin cfg1.N) :
    (dat1 V c).flushed 5 t = ((cfg1.win 5).blk t).view.read (Elt Ideal)
      (G1 (V c main_v2_0) (V c main_v10) (V c main_v14) (V c main_v15) (V c main_v16)) := by
  show (cfg1.win 5).cut (grid1.coords t) ((dat1 V c).after 5 t) = _
  rw [after1_5]
  obtain ⟨e0, e1, e2, e3, e4, e5, f10, f11, f20, f21, f30, f31, f40, f41, -, -⟩ := idx_facts1 t
  funext j
  obtain ⟨z, o, hh, ww, rfl⟩ : ∃ (z : Fin 1) (o : Fin 256) (hh : Fin 16) (ww : Fin 128), j = ix4 z o hh ww :=
    ⟨j 0, j 1, j 2, j 3, eq_ix4 j⟩
  obtain rfl : z = 0 := Subsingleton.elim _ _
  show out1_5 (iblk1 V c 0 t) (iblk1 V c 1 t) (iblk1 V c 2 t) (iblk1 V c 3 t) (iblk1 V c 4 t) (ix4 (0 : Fin 1) o hh ww)
    = G1 (V c main_v2_0) (V c main_v10) (V c main_v14) (V c main_v15) (V c main_v16)
        (((cfg1.win 5).blk t).view.emb (ix4 (0 : Fin 1) o hh ww))
  refine (hpay _ _ _ _ _ o hh ww).trans ?_
  have h0 : iblk1 V c 0 t (ix4 (0 : Fin 1) hh ww o)
      = V c main_v2_0 (ix4 ((((cfg1.win 5).blk t).view.emb (ix4 (0 : Fin 1) o hh ww)) 0)
          ((((cfg1.win 5).blk t).view.emb (ix4 (0 : Fin 1) o hh ww)) 2)
          ((((cfg1.win 5).blk t).view.emb (ix4 (0 : Fin 1) o hh ww)) 3)
          ((((cfg1.win 5).blk t).view.emb (ix4 (0 : Fin 1) o hh ww)) 1)) := by
    show V c main_v2_0 (((cfg1.win 0).blk t).view.emb (ix4 (0 : Fin 1) hh ww o)) = _
    refine congrArg (V c main_v2_0) ?_
    funext a; apply Fin.ext
    match a with
    | ⟨0, _⟩ => show win1_0.index t (0 : Fin 4) * 1 + 1 * ((0 : Fin 1) : ℕ) = win1_5.index t (0 : Fin 4) * 1 + 1 * ((0 : Fin 1) : ℕ); omega
    | ⟨1, _⟩ => show win1_0.index t (1 : Fin 4) * 16 + 1 * hh.val = win1_5.index t (2 : Fin 4) * 16 + 1 * hh.val; omega
    | ⟨2, _⟩ => show win1_0.index t (2 : Fin 4) * 128 + 1 * ww.val = win1_5.index t (3 : Fin 4) * 128 + 1 * ww.val; omega
    | ⟨3, _⟩ => show win1_0.index t (3 : Fin 4) * 256 + 1 * o.val = win1_5.index t (1 : Fin 4) * 256 + 1 * o.val; omega
  have h1 : iblk1 V c 1 t (ix2 (0 : Fin 1) o)
      = V c main_v10 (ix2 (0 : Fin 1) ((((cfg1.win 5).blk t).view.emb (ix4 (0 : Fin 1) o hh ww)) 1)) := by
    show V c main_v10 (((cfg1.win 1).blk t).view.emb (ix2 (0 : Fin 1) o)) = _
    refine congrArg (V c main_v10) ?_
    funext a; apply Fin.ext
    match a with
    | ⟨0, _⟩ => show win1_1.index t (0 : Fin 2) * 1 + 1 * ((0 : Fin 1) : ℕ) = ((0 : Fin 1) : ℕ); omega
    | ⟨1, _⟩ => show win1_1.index t (1 : Fin 2) * 256 + 1 * o.val = win1_5.index t (1 : Fin 4) * 256 + 1 * o.val; omega
  have h2 : iblk1 V c 2 t (ix2 (0 : Fin 1) o)
      = V c main_v14 (ix2 (0 : Fin 1) ((((cfg1.win 5).blk t).view.emb (ix4 (0 : Fin 1) o hh ww)) 1)) := by
    show V c main_v14 (((cfg1.win 2).blk t).view.emb (ix2 (0 : Fin 1) o)) = _
    refine congrArg (V c main_v14) ?_
    funext a; apply Fin.ext
    match a with
    | ⟨0, _⟩ => show win1_2.index t (0 : Fin 2) * 1 + 1 * ((0 : Fin 1) : ℕ) = ((0 : Fin 1) : ℕ); omega
    | ⟨1, _⟩ => show win1_2.index t (1 : Fin 2) * 256 + 1 * o.val = win1_5.index t (1 : Fin 4) * 256 + 1 * o.val; omega
  have h3 : iblk1 V c 3 t (ix2 (0 : Fin 1) o)
      = V c main_v15 (ix2 (0 : Fin 1) ((((cfg1.win 5).blk t).view.emb (ix4 (0 : Fin 1) o hh ww)) 1)) := by
    show V c main_v15 (((cfg1.win 3).blk t).view.emb (ix2 (0 : Fin 1) o)) = _
    refine congrArg (V c main_v15) ?_
    funext a; apply Fin.ext
    match a with
    | ⟨0, _⟩ => show win1_3.index t (0 : Fin 2) * 1 + 1 * ((0 : Fin 1) : ℕ) = ((0 : Fin 1) : ℕ); omega
    | ⟨1, _⟩ => show win1_3.index t (1 : Fin 2) * 256 + 1 * o.val = win1_5.index t (1 : Fin 4) * 256 + 1 * o.val; omega
  have h4 : iblk1 V c 4 t (ix2 (0 : Fin 1) o)
      = V c main_v16 (ix2 (0 : Fin 1) ((((cfg1.win 5).blk t).view.emb (ix4 (0 : Fin 1) o hh ww)) 1)) := by
    show V c main_v16 (((cfg1.win 4).blk t).view.emb (ix2 (0 : Fin 1) o)) = _
    refine congrArg (V c main_v16) ?_
    funext a; apply Fin.ext
    match a with
    | ⟨0, _⟩ => show win1_4.index t (0 : Fin 2) * 1 + 1 * ((0 : Fin 1) : ℕ) = ((0 : Fin 1) : ℕ); omega
    | ⟨1, _⟩ => show win1_4.index t (1 : Fin 2) * 256 + 1 * o.val = win1_5.index t (1 : Fin 4) * 256 + 1 * o.val; omega
  rw [h0, h1, h2, h3, h4]
  rfl

/-- An index of the result array is in point t's block iff each coordinate is in the block's range on its axis. -/
theorem mem_blk1 (t : Fin cfg1.N) (i : S8x256x128x128.Idx) :
    i ∈ ((cfg1.win 5).blk t).view.set ↔ ∀ a : Fin 4, win1_5.index t a * S1x256x16x128.size a ≤ (i a).val
      ∧ (i a).val < win1_5.index t a * S1x256x16x128.size a + S1x256x16x128.size a := by
  show i ∈ ((View.whole main_v17).slice (win1_5.rect t)).set ↔ _
  rw [View.set_slice_whole, Rect.mem_set_unit]
  exact Iff.rfl

/-- The output tiles fill the result array: index (b, o, h, w) lies in the block of the point with image b and row
    tile h / 16. -/
theorem cover1 (i : S8x256x128x128.Idx) :
    ∃ t : Fin cfg1.N, (cfg1.win 5).flush t = true ∧ i ∈ ((cfg1.win 5).blk t).view.set := by
  have hi0 : (i 0).val < 8 := (i 0).isLt
  have hi1 : (i 1).val < 256 := (i 1).isLt
  have hi2 : (i 2).val < 128 := (i 2).isLt
  have hi3 : (i 3).val < 128 := (i 3).isLt
  obtain ⟨t, ht⟩ := idx_onto1 ⟨(i 0).val, hi0⟩ ⟨(i 2).val / 16, by omega⟩
  have q0 : win1_5.index t (0 : Fin 4) = (i 0).val := congrFun ht 0
  have q1 : win1_5.index t (1 : Fin 4) = 0 := congrFun ht 1
  have q2 : win1_5.index t (2 : Fin 4) = (i 2).val / 16 := congrFun ht 2
  have q3 : win1_5.index t (3 : Fin 4) = 0 := congrFun ht 3
  refine ⟨t, flush1_5 t, ?_⟩
  rw [mem_blk1]
  intro a
  match a with
  | ⟨0, _⟩ => show win1_5.index t (0 : Fin 4) * 1 ≤ (i 0).val ∧ (i 0).val < win1_5.index t (0 : Fin 4) * 1 + 1; omega
  | ⟨1, _⟩ => show win1_5.index t (1 : Fin 4) * 256 ≤ (i 1).val ∧ (i 1).val < win1_5.index t (1 : Fin 4) * 256 + 256; omega
  | ⟨2, _⟩ => show win1_5.index t (2 : Fin 4) * 16 ≤ (i 2).val ∧ (i 2).val < win1_5.index t (2 : Fin 4) * 16 + 16; omega
  | ⟨3, _⟩ => show win1_5.index t (3 : Fin 4) * 128 ≤ (i 3).val ∧ (i 3).val < win1_5.index t (3 : Fin 4) * 128 + 128; omega

/-- The result array after the region's run. -/
theorem final1 (hpay : Pay1) (c : Dev nD) :
    (dat1 V c).arrAt 5 cfg1.N = G1 (V c main_v2_0) (V c main_v10) (V c main_v14) (V c main_v15) (V c main_v16) :=
  (dat1 V c).arrAt_eq_of_cover 5 _ (fun t _ => flushed1_eq V hpay c t) cover1

end Cert.KernelIdeal.KVal

end
-- ==== Proof.KGlue.lean ====
/-
  The idealized kernel's result array is Spec.Gk of the five argument arrays: the second region's array is G1 of what
  it finds; what it finds is, through the host operations between the regions, the first region's three arrays (y as it
  is; mean = (Σ of the 64 partial sums) / N; var = (Σ of the 64 partial sums of squares) / N − mean²) and gamma, beta;
  the first region's arrays are G4, G5, G6 of the query, the bank and the two column halves of the weight.
-/
import proofs.«151587_j20340965114022_2_alg».proof.Proof.KReg0
import proofs.«151587_j20340965114022_2_alg».proof.Proof.KReg1

set_option maxRecDepth 16384

noncomputable section

namespace Cert.KernelIdeal.KVal

open Cert.KernelIdeal Cert.KernelIdeal.Gen Cert.Spec
open Idealize.ShloMosaic Idealize.ShloMosaic.ValueIdx Idealize.ShloMosaic.TcCoe Idealize.SL.Sem
open Idealize.ShloMosaic.Pipeline (Dat)

/-- The two stretches of host operations read at an index, from any buffer contents Wv they start from. -/
structure HostReads : Prop where
  mean : ∀ (Wv : Valuation τ sig (Elt Ideal)) (o : Fin 256),
    StableHlo.after (hostOps1 (F := Ideal)) Wv (Proc.devRef .tc main_v10) (ix2 (0 : Fin 1) o)
      = Ideal.div (∑ blk : Fin 64, Wv (Proc.devRef .tc main_v2_1) (ix3 blk (0 : Fin 1) o)) cntN
  var : ∀ (Wv : Valuation τ sig (Elt Ideal)) (o : Fin 256),
    StableHlo.after (hostOps1 (F := Ideal)) Wv (Proc.devRef .tc main_v14) (ix2 (0 : Fin 1) o)
      = Ideal.div (∑ blk : Fin 64, Wv (Proc.devRef .tc main_v2_2) (ix3 blk (0 : Fin 1) o)) cntN
        - Ideal.div (∑ blk : Fin 64, Wv (Proc.devRef .tc main_v2_1) (ix3 blk (0 : Fin 1) o)) cntN
          * Ideal.div (∑ blk : Fin 64, Wv (Proc.devRef .tc main_v2_1) (ix3 blk (0 : Fin 1) o)) cntN
  gamma : ∀ (Wv : Valuation τ sig (Elt Ideal)) (o : Fin 256),
    StableHlo.after (hostOps1 (F := Ideal)) Wv (Proc.devRef .tc main_v15) (ix2 (0 : Fin 1) o) = Wv (Proc.devRef .tc main_arg3) (ix1 o)
  beta : ∀ (Wv : Valuation τ sig (Elt Ideal)) (o : Fin 256),
    StableHlo.after (hostOps1 (F := Ideal)) Wv (Proc.devRef .tc main_v16) (ix2 (0 : Fin 1) o) = Wv (Proc.devRef .tc main_arg4) (ix1 o)
  y : ∀ (Wv : Valuation τ sig (Elt Ideal)),
    StableHlo.after (hostOps1 (F := Ideal)) Wv (Proc.devRef .tc main_v2_0) = Wv (Proc.devRef .tc main_v2_0)
  w1 : ∀ (Wv : Valuation τ sig (Elt Ideal)) (o c' : Fin 256),
    StableHlo.after (hostOps0 (F := Ideal)) Wv (Proc.devRef .tc main_v0) (ix2 o c')
      = Wv (Proc.devRef .tc main_arg2) (ix2 o (⟨c'.val, by have := c'.isLt; omega⟩ : Fin 512))
  w2 : ∀ (Wv : Valuation τ sig (Elt Ideal)) (o c' : Fin 256),
    StableHlo.after (hostOps0 (F := Ideal)) Wv (Proc.devRef .tc main_v1) (ix2 o c')
      = Wv (Proc.devRef .tc main_arg2) (ix2 o (⟨256 + c'.val, by have := c'.isLt; omega⟩ : Fin 512))
  x : ∀ (Wv : Valuation τ sig (Elt Ideal)),
    StableHlo.after (hostOps0 (F := Ideal)) Wv (Proc.devRef .tc main_arg0) = Wv (Proc.devRef .tc main_arg0)
  t : ∀ (Wv : Valuation τ sig (Elt Ideal)),
    StableHlo.after (hostOps0 (F := Ideal)) Wv (Proc.devRef .tc main_arg1) = Wv (Proc.devRef .tc main_arg1)

variable (m : (ℓ : Loc nD τ sig) → Buf (Elt Ideal) ℓ) (ρ : Dev nD → PrngReg)

/-- Gamma and beta are written by nothing before the second host stretch: there they are as launched. -/
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The projected pixels as the first region computes them from what it finds are Spec.Yk of the launch arguments: the
    query and the bank are as launched, the two weight operands are the two column halves of the launched weight. -/
theorem Yloc_eq (hh : HostReads) (c : Dev nD) :
    Yloc (V1 m ρ c main_arg0) (V1 m ρ c main_arg1) (V1 m ρ c main_v0) (V1 m ρ c main_v1)
      = Yk (m ((c : Thread nD τ).loc main_arg0)) (m ((c : Thread nD τ).loc main_arg1)) (m ((c : Thread nD τ).loc main_arg2)) := by
  have hx : V1 m ρ c main_arg0 = m ((c : Thread nD τ).loc main_arg0) := hh.x (W0 m ρ c)
  have ht : V1 m ρ c main_arg1 = m ((c : Thread nD τ).loc main_arg1) := hh.t (W0 m ρ c)
  funext b h w' o
  unfold Yloc Yk
  rw [hx, ht]
  refine YkP_congr rfl rfl ?_ ?_ rfl
  · funext o' c'; exact hh.w1 (W0 m ρ c) o' c'
  · funext o' c'; exact hh.w2 (W0 m ρ c) o' c'

/-- The second region's function at (b, o, h, w). -/
theorem G1_apply (y : FVec Ideal S8x128x128x256 .f32) (mu va ga be : FVec Ideal S1x256 .f32)
    (b : Fin 8) (o : Fin 256) (h w' : Fin 128) :
    G1 y mu va ga be (ix4 b o h w')
      = max (((y (ix4 b h w' o) - mu (ix2 (0 : Fin 1) o)) * Ideal.rsqrt (va (ix2 (0 : Fin 1) o) + eps2))
              * ga (ix2 (0 : Fin 1) o) + be (ix2 (0 : Fin 1) o)) 0 := rfl

/-- THE KERNEL'S RESULT: the last boundary's contents of the result buffer are Spec.Gk of the launch arguments. -/
theorem kernel_value (hp0 : Pay0) (hp1 : Pay1) (hh : HostReads) (c : Dev nD) :
    W4 m ρ c (Proc.devRef .tc main_v17)
      = Gk (m ((c : Thread nD τ).loc main_arg0)) (m ((c : Thread nD τ).loc main_arg1)) (m ((c : Thread nD τ).loc main_arg2))
          (m ((c : Thread nD τ).loc main_arg3)) (m ((c : Thread nD τ).loc main_arg4)) := by
  have e1 : W4 m ρ c (Proc.devRef .tc main_v17) = (dat1 (V3 m ρ) c).arrAt 5 cfg1.N := W4_arr m ρ c 5
  rw [e1, final1 (V3 m ρ) hp1 c]
  -- the first region's three arrays, at the boundary after it
  have a4 : W2 m ρ c (Proc.devRef .tc main_v2_0)
      = G4 (V1 m ρ c main_arg0) (V1 m ρ c main_arg1) (V1 m ρ c main_v0) (V1 m ρ c main_v1) :=
    (W2_arr m ρ c 4).trans (final4 (V1 m ρ) hp0 c)
  have a5 : W2 m ρ c (Proc.devRef .tc main_v2_1)
      = G5 (V1 m ρ c main_arg0) (V1 m ρ c main_arg1) (V1 m ρ c main_v0) (V1 m ρ c main_v1) :=
    (W2_arr m ρ c 5).trans (final5 (V1 m ρ) hp0 c)
  have a6 : W2 m ρ c (Proc.devRef .tc main_v2_2)
      = G6 (V1 m ρ c main_arg0) (V1 m ρ c main_arg1) (V1 m ρ c main_v0) (V1 m ρ c main_v1) :=
    (W2_arr m ρ c 6).trans (final6 (V1 m ρ) hp0 c)
  have hy : V3 m ρ c main_v2_0
      = G4 (V1 m ρ c main_arg0) (V1 m ρ c main_arg1) (V1 m ρ c main_v0) (V1 m ρ c main_v1) :=
    (hh.y (W2 m ρ c)).trans a4
  have hY := Yloc_eq m ρ hh c
  funext i
  obtain ⟨b, o, h, w', rfl⟩ : ∃ (b : Fin 8) (o : Fin 256) (h w' : Fin 128), i = ix4 b o h w' := ⟨i 0, i 1, i 2, i 3, eq_ix4 i⟩
  have hmu : V3 m ρ c main_v10 (ix2 (0 : Fin 1) o)
      = meank (Yk (m ((c : Thread nD τ).loc main_arg0)) (m ((c : Thread nD τ).loc main_arg1)) (m ((c : Thread nD τ).loc main_arg2))) o := by
    refine (hh.mean (W2 m ρ c) o).trans ?_
    rw [a5, ← hY]; rfl
  have hva : V3 m ρ c main_v14 (ix2 (0 : Fin 1) o)
      = vark (Yk (m ((c : Thread nD τ).loc main_arg0)) (m ((c : Thread nD τ).loc main_arg1)) (m ((c : Thread nD τ).loc main_arg2))) o := by
    refine (hh.var (W2 m ρ c) o).trans ?_
    rw [a5, a6, ← hY]; rfl
  have hga : V3 m ρ c main_v15 (ix2 (0 : Fin 1) o) = m ((c : Thread nD τ).loc main_arg3) (ix1 o) :=
    (hh.gamma (W2 m ρ c) o).trans (congrFun (W2_arg3 m ρ c) (ix1 o))
  have hbe : V3 m ρ c main_v16 (ix2 (0 : Fin 1) o) = m ((c : Thread nD τ).loc main_arg4) (ix1 o) :=
    (hh.beta (W2 m ρ c) o).trans (congrFun (W2_arg4 m ρ c) (ix1 o))
  have hyy : V3 m ρ c main_v2_0 (ix4 b h w' o)
      = Yk (m ((c : Thread nD τ).loc main_arg0)) (m ((c : Thread nD τ).loc main_arg1)) (m ((c : Thread nD τ).loc main_arg2)) b h w' o := by
    rw [hy, ← hY]; rfl
  rw [G1_apply, hyy, hmu, hva, hga, hbe]
  rfl

end Cert.KernelIdeal.KVal

end
-- ==== Proof.KHost.lean ====
/-
  The program's two stretches of array operations outside its kernel regions, read at an index, from any contents of
  the buffers they start from.

  The first stretch cuts the weight [256, 512] along its columns into the halves 0..255 and 256..511: the halves read,
  at (o, c), the weight at (o, c) and at (o, 256 + c); the query and the bank are not written.

  The second stretch takes the per-block partial sums [64, 1, 256] of y and of y², sees each as [64, 256] (entry
  (blk, o) is entry (blk, 0, o)), sums over the 64 blocks from the constant 0 (0 + Σ = Σ), puts the result in a row
  [1, 256], and divides by the splat of the word 0x48000000, the number N of pixels per channel: the mean at o is
  (Σ_blk s₁ blk o) / N, the variance is (Σ_blk s₂ blk o) / N − mean · mean. The scale and the shift [256] are seen as
  rows [1, 256]: entry (0, o) is entry o. The array of y itself is not written.
-/
import proofs.«151587_j20340965114022_2_alg».proof.Proof.Gen.KernelIdeal.Launch
import Idealize.ShloMosaic.Lib.StableHlo.Run
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout
import proofs.«151587_j20340965114022_2_alg».proof.Proof.Spec

noncomputable section

namespace Cert.KernelIdeal.KVal

open Cert.KernelIdeal Cert.KernelIdeal.Gen Cert.Spec Idealize.ShloMosaic Idealize.ShloMosaic.ValueIdx
  Idealize.ShloMosaic.TcCoe Idealize.SL.Sem Idealize.ShloMosaic.StableHlo

namespace KHost

/-- The per-block partial sums [64, 1, 256] seen as [64, 256] and summed over the 64 blocks, from the constant 0. -/
def colSum (W : S64x1x256.Idx → EReal) : S256.Idx → EReal :=
  Host.reduceAdd (F := Ideal) (shapeCast S64x256 W shapeCasts_S64x1x256_S64x256)
    (constant (F := Ideal) S_ .f32 0x00000000#32) reducesTo_S64x256_S256_d0 h_S_

/-- The [64, 1, 256] array seen as [64, 256] reads, at (blk, o), the operand at (blk, 0, o). -/
theorem cast_apply (W : S64x1x256.Idx → EReal) (blk : Fin 64) (o : Fin 256) :
    shapeCast S64x256 W shapeCasts_S64x1x256_S64x256 (ix2 blk o) = W (ix3 blk (0 : Fin 1) o) :=
  shapeCast_apply W _ _ _ (by
    rw [Shape.rowMajor_val_three, Shape.rowMajor_val_two]
    show (blk.val * 1 + 0) * 256 + o.val = blk.val * 256 + o.val
    omega)

/-- The sum over axis 0 of a [64, 256] array from 0, at column o, is the sum of the 64 entries of that column. -/
theorem sumRows_apply (x : S64x256.Idx → EReal) (o : Fin 256) :
    Host.reduceAdd (F := Ideal) x (constant (F := Ideal) S_ .f32 0x00000000#32) reducesTo_S64x256_S256_d0 h_S_ (ix1 o)
      = ∑ blk : Fin 64, x (ix2 blk o) := by
  have h : S64x256.Reduces [0] S256 := by decide
  rw [hostReduceAdd_apply, Ideal.hostReduceAdd_single reducesTo_S64x256_S256_d0 h, constant_apply,
    Ideal.ofBits_zero_f32, zero_add]
  show ∑ k : Fin 64, x (h.lift (ix1 o) k) = _
  refine Finset.sum_congr rfl (fun k _ => congrArg x ?_)
  funext c; apply Fin.ext
  fin_cases c <;> rfl

theorem colSum_apply (W : S64x1x256.Idx → EReal) (o : Fin 256) :
    colSum W (ix1 o) = ∑ blk : Fin 64, W (ix3 blk (0 : Fin 1) o) := by
  unfold colSum
  rw [sumRows_apply]
  exact Finset.sum_congr rfl (fun blk _ => cast_apply W blk o)

/-- A [256] array broadcast to [1, 256] along axis 1 reads, at (0, o), the operand at o. -/
theorem bcastRow_apply (v : S256.Idx → EReal) (o : Fin 256) :
    broadcastInDim S1x256 ![1] bcast_S256_S1x256_1 v (ix2 (0 : Fin 1) o) = v (ix1 o) :=
  broadcastInDim_apply _ _ v _ (ix1 o) (fun a => by fin_cases a; rfl)

/-- The splat of the word 0x48000000 reads the number of pixels per channel everywhere. -/
theorem splatN_apply (j : S1x256.Idx) :
    broadcastInDim S1x256 ![] bcast_S_S1x256 (constant (F := Ideal) S_ .f32 0x48000000#32) j = cntN :=
  broadcastInDim_scalar_apply _ _ j

/-- "Sum over the blocks, then divide by the number of pixels", as the host operations spell it. -/
def avg (W : S64x1x256.Idx → EReal) : S1x256.Idx → EReal :=
  Host.divf (F := Ideal) (broadcastInDim S1x256 ![1] bcast_S256_S1x256_1 (colSum W))
    (broadcastInDim S1x256 ![] bcast_S_S1x256 (constant (F := Ideal) S_ .f32 0x48000000#32))

theorem avg_apply (W : S64x1x256.Idx → EReal) (o : Fin 256) :
    avg W (ix2 (0 : Fin 1) o) = Ideal.div (∑ blk : Fin 64, W (ix3 blk (0 : Fin 1) o)) cntN := by
  unfold avg
  rw [hostDivf_apply, bcastRow_apply, colSum_apply, splatN_apply]

end KHost

variable (Wv : Valuation τ sig (Elt Ideal))

theorem host1_mean (o : Fin 256) : StableHlo.after (hostOps1 (F := Ideal)) Wv (Proc.devRef .tc main_v10) (ix2 (0 : Fin 1) o)
    = Ideal.div (∑ blk : Fin 64, Wv (Proc.devRef .tc main_v2_1) (ix3 blk (0 : Fin 1) o)) cntN := by
  have e : (StableHlo.after (hostOps1 (F := Ideal)) Wv (Proc.devRef .tc main_v10) : S1x256.Idx → EReal)
      = KHost.avg (Wv (Proc.devRef .tc main_v2_1)) := by
    after_results; rfl
  exact (congrFun e (ix2 0 o)).trans (KHost.avg_apply _ o)

theorem host1_var (o : Fin 256) : StableHlo.after (hostOps1 (F := Ideal)) Wv (Proc.devRef .tc main_v14) (ix2 (0 : Fin 1) o)
    = Ideal.div (∑ blk : Fin 64, Wv (Proc.devRef .tc main_v2_2) (ix3 blk (0 : Fin 1) o)) cntN
      - Ideal.div (∑ blk : Fin 64, Wv (Proc.devRef .tc main_v2_1) (ix3 blk (0 : Fin 1) o)) cntN
        * Ideal.div (∑ blk : Fin 64, Wv (Proc.devRef .tc main_v2_1) (ix3 blk (0 : Fin 1) o)) cntN := by
  have e : (StableHlo.after (hostOps1 (F := Ideal)) Wv (Proc.devRef .tc main_v14) : S1x256.Idx → EReal)
      = subf (F := Ideal) (φ := .f32) (KHost.avg (Wv (Proc.devRef .tc main_v2_2)))
          (mulf (F := Ideal) (φ := .f32) (KHost.avg (Wv (Proc.devRef .tc main_v2_1))) (KHost.avg (Wv (Proc.devRef .tc main_v2_1)))) := by
    after_results; rfl
  refine (congrFun e (ix2 0 o)).trans ?_
  show KHost.avg _ (ix2 0 o) - KHost.avg _ (ix2 0 o) * KHost.avg _ (ix2 0 o) = _
  rw [KHost.avg_apply, KHost.avg_apply]

theorem host1_gamma (o : Fin 256) : StableHlo.after (hostOps1 (F := Ideal)) Wv (Proc.devRef .tc main_v15) (ix2 (0 : Fin 1) o) = Wv (Proc.devRef .tc main_arg3) (ix1 o) := by
  have e : (StableHlo.after (hostOps1 (F := Ideal)) Wv (Proc.devRef .tc main_v15) : S1x256.Idx → EReal)
      = shapeCast S1x256 (Wv (Proc.devRef .tc main_arg3)) shapeCasts_S256_S1x256 := by
    after_results; rfl
  exact (congrFun e (ix2 0 o)).trans (shapeCast_a_1a_apply _ _ 0 o)

theorem host1_beta (o : Fin 256) : StableHlo.after (hostOps1 (F := Ideal)) Wv (Proc.devRef .tc main_v16) (ix2 (0 : Fin 1) o) = Wv (Proc.devRef .tc main_arg4) (ix1 o) := by
  have e : (StableHlo.after (hostOps1 (F := Ideal)) Wv (Proc.devRef .tc main_v16) : S1x256.Idx → EReal)
      = shapeCast S1x256 (Wv (Proc.devRef .tc main_arg4)) shapeCasts_S256_S1x256 := by
    after_results; rfl
  exact (congrFun e (ix2 0 o)).trans (shapeCast_a_1a_apply _ _ 0 o)

theorem host1_y : StableHlo.after (hostOps1 (F := Ideal)) Wv (Proc.devRef .tc main_v2_0) = Wv (Proc.devRef .tc main_v2_0) := by
  after_results

theorem host0_w1 (o c' : Fin 256) : StableHlo.after (hostOps0 (F := Ideal)) Wv (Proc.devRef .tc main_v0) (ix2 o c')
    = Wv (Proc.devRef .tc main_arg2) (ix2 o (⟨c'.val, by have := c'.isLt; omega⟩ : Fin 512)) := by
  have e : (StableHlo.after (hostOps0 (F := Ideal)) Wv (Proc.devRef .tc main_v0) : S256x256.Idx → EReal)
      = extractStridedSlice S256x256 ![0, 0] (Wv (Proc.devRef .tc main_arg2)) slices_S256x512_S256x256_0_0 := by
    after_results
  exact (congrFun e (ix2 o c')).trans (slice2_axis1_apply 0 _ _ o c' _ (Nat.zero_add _).symm)

theorem host0_w2 (o c' : Fin 256) : StableHlo.after (hostOps0 (F := Ideal)) Wv (Proc.devRef .tc main_v1) (ix2 o c')
    = Wv (Proc.devRef .tc main_arg2) (ix2 o (⟨256 + c'.val, by have := c'.isLt; omega⟩ : Fin 512)) := by
  have e : (StableHlo.after (hostOps0 (F := Ideal)) Wv (Proc.devRef .tc main_v1) : S256x256.Idx → EReal)
      = extractStridedSlice S256x256 ![0, 256] (Wv (Proc.devRef .tc main_arg2)) slices_S256x512_S256x256_0_256 := by
    after_results
  exact (congrFun e (ix2 o c')).trans (slice2_axis1_apply 256 _ _ o c' _ rfl)

theorem host0_x : StableHlo.after (hostOps0 (F := Ideal)) Wv (Proc.devRef .tc main_arg0) = Wv (Proc.devRef .tc main_arg0) := by
  after_results

theorem host0_t : StableHlo.after (hostOps0 (F := Ideal)) Wv (Proc.devRef .tc main_arg1) = Wv (Proc.devRef .tc main_arg1) := by
  after_results

end Cert.KernelIdeal.KVal

end
-- ==== Proof.LibObjectAxis.lean ====
/-
  Layout reads around a pair of axes flattened into one, a middle unit axis, and a vector spread over two leading axes.

  A rank-3 array [a, b, c] and the matrix [a * b, c] that lists its (p, o) pairs row by row hold the same entries: row
  p * b + o of the matrix is the array's fibre at (p, o). Read at an entry:

  `shapeCast_abc_nc_apply`      [a, b, c] cast to [n, c] (n = a * b) reads, at (p * b + o, r), the operand at (p, o, r);
  `shapeCast_nc_abc_apply`      [n, c] cast to [a, b, c] reads, at (p, o, r), the operand at (p * b + o, r);
  `shapeCast_ac_a1c_apply`      [a, c] cast to [a, 1, c] reads, at (p, 0, r), the operand at (p, r);
  `broadcastTo_11c_abc_apply`   [1, 1, c] broadcast to [a, b, c] reads, at (p, q, r), the operand at (0, 0, r);
  `multiReduction_add_mid`      the sum over the middle axis of [a, b, c], at the ideal instance, read at (p, r), is the sum
                                over o of the operand at (p, o, r) (the accumulator pattern is the printed zero word).
-/
import Idealize.ShloMosaic.Lib.Pipeline.Value
import Idealize.ShloMosaic.Lib.ValueIdx
import Idealize.ShloMosaic.PureOps.Ideal.Laws

noncomputable section

open scoped BigOperators

namespace Cert.LibObjectAxis

open Idealize.ShloMosaic Idealize.ShloMosaic.ValueIdx

variable {α : Type}

/-- An [a, b, c] array cast to [n, c] reads, at row p * b + o and column r, the operand at (p, o, r): both sit at
    row-major position (p * b + o) * c + r. -/
theorem shapeCast_abc_nc_apply {a b c n : ℕ} (x : (⟨3, ![a, b, c]⟩ : Shape).Idx → α)
    (h : (⟨3, ![a, b, c]⟩ : Shape).ShapeCasts ⟨2, ![n, c]⟩) (p : Fin a) (o : Fin b) (r : Fin c)
    (hlt : p.val * b + o.val < n) :
    shapeCast ⟨2, ![n, c]⟩ x h (ix2 (⟨p.val * b + o.val, hlt⟩ : Fin n) r) = x (ix3 p o r) :=
  shapeCast_apply x h _ _ (by
    rw [Shape.rowMajor_val_three, Shape.rowMajor_val_two]
    rfl)

/-- An [n, c] matrix cast to [a, b, c] reads, at (p, o, r), the operand at row p * b + o and column r. -/
theorem shapeCast_nc_abc_apply {a b c n : ℕ} (x : (⟨2, ![n, c]⟩ : Shape).Idx → α)
    (h : (⟨2, ![n, c]⟩ : Shape).ShapeCasts ⟨3, ![a, b, c]⟩) (p : Fin a) (o : Fin b) (r : Fin c)
    (hlt : p.val * b + o.val < n) :
    shapeCast ⟨3, ![a, b, c]⟩ x h (ix3 p o r) = x (ix2 (⟨p.val * b + o.val, hlt⟩ : Fin n) r) :=
  shapeCast_apply x h _ _ (by
    rw [Shape.rowMajor_val_three, Shape.rowMajor_val_two]
    rfl)

/-- An [a, c] matrix cast to [a, 1, c] reads, at (p, u, r), the operand at (p, r). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- A [1, 1, c] array broadcast to [a, b, c] reads, at (p, q, r), the operand at (0, 0, r). -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- The sum over the middle axis of an [a, b, c] array of extended reals, read at (p, r): the sum over o of the
    operand at (p, o, r). -/
theorem multiReduction_add_mid {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (r : Fin c) :
    multiReduction .add [1] ⟨2, ![a, c]⟩ src 0x00000000#32 h hφ hacc (ix2 p r) = ∑ o : Fin b, src (ix3 p o r) :=
  (Ideal.multiReduction_add_single src 0x00000000#32 h hφ hacc (ix2 p r)).trans
    (Finset.sum_congr rfl fun k _ => congrArg src (funext fun ax => Fin.ext (by
      match ax with
      | ⟨0, _⟩ => rfl
      | ⟨1, _⟩ => rfl
      | ⟨2, _⟩ => rfl)))

end Cert.LibObjectAxis

end
-- ==== Proof.LibMatmulRows.lean ====
/-
  A matrix product that contracts the two operands' LAST axes, read at one entry.

  For dimension numbers that contract the left operand's second axis with the right operand's second axis — the
  left operand [a, n], the right operand [b, n], the result [a, b], no batch axes: `x @ W.T` without the transpose
  ever being formed — the entry (p, q) of the product is the sum over k of left (p, k) times right (q, k): row p of
  the left operand against row q of the right one. The dimension numbers enter only through four facts about where
  the two operand indices sit (the left one reads the result's row and the contraction position, the right one the
  result's column and the contraction position); a caller proves those four facts for its own record, each by
  unfolding the record's two membership tests.

  `contr_sum_rows`     the contraction's sum re-indexed by the one contracted coordinate;
  `matmul_zero_rows`   a `tpu.matmul` into the zero accumulator at the ideal instance;
  `dotGeneral_rows`    the host's `dot_general` at the ideal instance.
-/
import Idealize.ShloMosaic.PureOps.Ideal.Laws
import Idealize.ShloMosaic.Lib.ValueIdx

noncomputable section

open scoped BigOperators

namespace Idealize.ShloMosaic.MatmulRows

open Idealize.ShloMosaic Idealize.ShloMosaic.ValueIdx

variable {a n b : ℕ}

/-- The sum over the contraction positions of a one-axis contraction of the operands' last axes is the sum over the
    contracted coordinate `k : Fin n`, the left operand read at `(p, k)` and the right one at `(q, k)`. -/
theorem contr_sum_rows (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (l : (⟨2, ![a, n]⟩ : Shape).Idx → EReal) (r : (⟨2, ![b, n]⟩ : Shape).Idx → EReal) (p : Fin a) (q : Fin b) :
    ∑ c : D.contr.Idx, l (D.lhsIdx (ix2 p q) c) * r (D.rhsIdx (ix2 p q) c) = ∑ k : Fin n, l (ix2 p k) * r (ix2 q k) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 q k := funext fun ax => Fin.ext (by
    match ax with
    | ⟨0, _⟩ => exact hr0 _ _
    | ⟨1, _⟩ => exact (hr1 _ _).trans hk)
  rw [el, er]

/-- A `tpu.matmul` of an [a, n] by a [b, n] operand into the zero accumulator, at the ideal instance, read at
    `(p, q)`: the sum over `k` of left `(p, k)` times right `(q, k)`. -/
theorem matmul_zero_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    matmul D prec l r (constant ⟨2, ![a, b]⟩ .f32 0x00000000#32) (ix2 p q) = ∑ k : Fin n, l (ix2 p k) * r (ix2 q k) :=
  (Ideal.matmul_constant_zero_apply D prec l r (ix2 p q)).trans (contr_sum_rows D hr hs hl0 hl1 hr0 hr1 l r p q)

/-- The host's `dot_general` of an [a, n] by a [b, n] operand, at the ideal instance, read at `(p, q)`: the same sum. -/
theorem dotGeneral_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    Host.dotGeneral D prec l r (ix2 p q) = ∑ k : Fin n, l (ix2 p k) * r (ix2 q k) :=
  (Ideal.dotGeneral_apply D prec .single l r (ix2 p q)).trans (contr_sum_rows D hr hs hl0 hl1 hr0 hr1 l r p q)

end Idealize.ShloMosaic.MatmulRows

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibBroadcastRank3.lean ====
/-
  A rank-3 array broadcast along one axis, read at one entry.

  Two companions of the library's row form for matrices: an [a, 1, c] array broadcast along its middle axis to
  [a, b, c] reads, at (p, q, r), the operand at (p, 0, r); a [1, b, c] array broadcast along its leading axis to
  [a, b, c] reads the operand at (0, q, r). (When an extent other than the broadcast one is itself 1 the coordinate there
  is 0 on both sides.)
-/
import Idealize.ShloMosaic.Lib.Pipeline.Value
import Idealize.ShloMosaic.Lib.ValueIdx

namespace Cert.LibBroadcastRank3

open Idealize.ShloMosaic Idealize.ShloMosaic.ValueIdx

/-- An [a, 1, c] array broadcast to [a, b, c] reads, at (p, q, r), the operand at (p, 0, r). -/
theorem broadcastTo_a1c_abc_apply {α : Type} {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A [1, b, c] array broadcast to [a, b, c] reads, at (p, q, r), the operand at (0, q, r). -/
theorem broadcastTo_1bc_abc_apply {α : Type} {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

end Cert.LibBroadcastRank3
-- ==== Proof.Payload0.lean ====
import proofs.«151587_j20340965114022_2_alg».proof.Proof.Gen.KernelIdeal.Frame
import proofs.«151587_j20340965114022_2_alg».proof.Proof.Gen.KernelIdeal.Skeleton
import proofs.«151587_j20340965114022_2_alg».proof.Proof.Spec
import proofs.«151587_j20340965114022_2_alg».proof.Proof.LibObjectAxis
import proofs.«151587_j20340965114022_2_alg».proof.Proof.LibMatmulRows
import proofs.«151587_j20340965114022_2_alg».proof.Proof.LibMatmulAt
import proofs.«151587_j20340965114022_2_alg».proof.Proof.LibColBroadcast
import proofs.«151587_j20340965114022_2_alg».proof.Proof.LibColumnCast
import proofs.«151587_j20340965114022_2_alg».proof.Proof.LibBroadcastRank3
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Cert.Spec Idealize.ShloMosaic Idealize.ShloMosaic.ValueIdx

open scoped BigOperators

/-! ## Sums and a maximum along one axis, read at an entry -/

/-- The sum over the leading axis of an [a, b, c] array, read at (q, r): the sum over k of the operand at (k, q, r). -/
theorem sum_lead3_apply {a b c : ℕ} (src : FVec Ideal ⟨3, ![a, b, c]⟩ .f32)
    (h : (⟨3, ![a, b, c]⟩ : Shape).Reduces [0] ⟨2, ![b, c]⟩) (hφ : FKind.Formats .f32)
    (hacc : (0x00000000#32 : BitVec 32) = FKind.add.neutral .f32 hφ) (q : Fin b) (r : Fin c) :
    multiReduction .add [0] ⟨2, ![b, c]⟩ src 0x00000000#32 h hφ hacc (ix2 q r) = ∑ k : Fin a, src (ix3 k q r) :=
  (Ideal.multiReduction_add_single src 0x00000000#32 h hφ hacc (ix2 q r)).trans
    (Finset.sum_congr rfl fun k _ => congrArg src (funext fun ax => Fin.ext (by
      match ax with
      | ⟨0, _⟩ => rfl
      | ⟨1, _⟩ => rfl
      | ⟨2, _⟩ => rfl)))

/-- The sum over the rows of an [a, b] matrix, read at column o. -/
theorem sum_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (o : Fin b) :
    multiReduction .add [0] ⟨1, ![b]⟩ src 0x00000000#32 h hφ hacc (ix1 o) = ∑ p : Fin a, src (ix2 p o) :=
  (Ideal.multiReduction_add_single src 0x00000000#32 h hφ hacc (ix1 o)).trans
    (Finset.sum_congr rfl fun k _ => congrArg src (funext fun ax => Fin.ext (by
      match ax with
      | ⟨0, _⟩ => rfl
      | ⟨1, _⟩ => rfl)))

/-- The sum along each row of an [a, b] matrix, read at row p. -/
theorem sum_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ r : Fin b, src (ix2 p r) :=
  (Ideal.multiReduction_add_single src 0x00000000#32 h hφ hacc (ix1 p)).trans
    (Finset.sum_congr rfl fun k _ => congrArg src (funext fun ax => Fin.ext (by
      match ax with
      | ⟨0, _⟩ => rfl
      | ⟨1, _⟩ => rfl)))

/-- The maximum along each row of an [a, b] matrix, read at row p: the fold of max from the accumulator's value. -/
theorem max_cols_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun r => src (ix2 p r)) :=
  (Ideal.multiReduction_maximumf_single src acc h hφ hacc (ix1 p)).trans
    (congrArg (fun f => (Finset.univ : Finset (Fin b)).fold max (Ideal.ofBits .f32 acc) f)
      (funext fun k => congrArg src (funext fun ax => Fin.ext (by
        match ax with
        | ⟨0, _⟩ => rfl
        | ⟨1, _⟩ => rfl))))

/-- A vector [c] stood up as [1, 1, c] reads, at (0, 0, o), the vector at o. -/
theorem shapeCast_c_11c_apply {α : Type} {c : ℕ} (x : (⟨1, ![c]⟩ : Shape).Idx → α)
    (h : (⟨1, ![c]⟩ : Shape).ShapeCasts ⟨3, ![1, 1, c]⟩) (u v : Fin 1) (o : Fin c) :
    shapeCast ⟨3, ![1, 1, c]⟩ x h (ix3 u v o) = x (ix1 o) :=
  shapeCast_apply x h _ _ (by
    have hu : u.val = 0 := by omega
    have hv : v.val = 0 := by omega
    rw [Shape.rowMajor_val_three, Shape.rowMajor_val_one]
    show o.val = (u.val * 1 + v.val) * c + o.val
    rw [hu, hv]; simp)

/-! ## The 16 × 128 tile and its 2048 flattened pixels -/

def rowH (p : Fin 2048) : Fin 16 := ⟨p.val / 128, by have := p.isLt; omega⟩
def rowW (p : Fin 2048) : Fin 128 := ⟨p.val % 128, by omega⟩

theorem rowH_rowW (p : Fin 2048) : (rowH p).val * 128 + (rowW p).val = p.val := by
  show p.val / 128 * 128 + p.val % 128 = p.val
  omega

/-- The pixel number of row h, column w of the tile. -/
def pixOf (hh : Fin 16) (ww : Fin 128) : Fin 2048 := ⟨hh.val * 128 + ww.val, by have := hh.isLt; have := ww.isLt; omega⟩

theorem rowH_pixOf (hh : Fin 16) (ww : Fin 128) : rowH (pixOf hh ww) = hh :=
  Fin.ext (by show (hh.val * 128 + ww.val) / 128 = hh.val; have := ww.isLt; omega)

theorem rowW_pixOf (hh : Fin 16) (ww : Fin 128) : rowW (pixOf hh ww) = ww :=
  Fin.ext (by show (hh.val * 128 + ww.val) % 128 = ww.val; have := ww.isLt; omega)

/-- The [16, 128, 256] tile listed as 2048 rows reads, at (p, c), the tile at (p / 128, p % 128, c). -/
theorem flat_apply {α : Type} (x : S16x128x256.Idx → α) (h : S16x128x256.ShapeCasts S2048x256) (p : Fin 2048) (c : Fin 256) :
    shapeCast S2048x256 x h (ix2 p c) = x (ix3 (rowH p) (rowW p) c) :=
  shapeCast_apply x h _ _ (by
    rw [Shape.rowMajor_val_three, Shape.rowMajor_val_two]
    show ((rowH p).val * 128 + (rowW p).val) * 256 + c.val = p.val * 256 + c.val
    rw [rowH_rowW])

/-- The 2048 rows folded back into the [16, 128, 256] tile read, at (h, w, o), row h · 128 + w. -/
theorem tile_apply {α : Type} (x : S2048x256.Idx → α) (h : S2048x256.ShapeCasts S16x128x256) (hh : Fin 16) (ww : Fin 128) (o : Fin 256) :
    shapeCast S16x128x256 x h (ix3 hh ww o) = x (ix2 (pixOf hh ww) o) :=
  Cert.LibObjectAxis.shapeCast_nc_abc_apply x h hh ww o _

/-! ## The two matrix-product records -/

/-- A product of a [2048, 256] by a [256, 256] operand that contracts both last axes, into the zero accumulator, read at (p, q):
    row p of the left operand against row q of the right one. -/
theorem rows_apply {φ₁ φ₂ : FTy} (l : FVec Ideal S2048x256 φ₁) (r : FVec Ideal S256x256 φ₂) (p : Fin 2048) (q : Fin 256) :
    matmul dot_S2048x256_S256x256_S2048x256_1_1_0_0_n_n none l r (constant S2048x256 .f32 0x00000000#32) (ix2 p q)
      = ∑ k : Fin 256, l (ix2 p k) * r (ix2 q k) :=
  Idealize.ShloMosaic.MatmulRows.matmul_zero_rows dot_S2048x256_S256x256_S2048x256_1_1_0_0_n_n rfl rfl
    (fun i c => by
      unfold DotDims.lhsIdx
      rw [dif_neg (by decide), dif_pos (by decide)]
      rfl)
    (fun i c => DotDims.lhsIdx_val_of_single _ (cl := (1 : Fin 2)) rfl i c)
    (fun i c => by
      unfold DotDims.rhsIdx
      rw [dif_neg (by decide), dif_pos (by decide)]
      rfl)
    (fun i c => DotDims.rhsIdx_val_of_single _ (cr := (1 : Fin 2)) rfl i c)
    none l r p q

/-- A product of a [2048, 256] by a [256, 256] operand that contracts the left operand's last axis with the right operand's
    first, into the zero accumulator, read at (p, q): row p of the left operand against column q of the right one. -/
theorem cols_apply {φ₁ φ₂ : FTy} (l : FVec Ideal S2048x256 φ₁) (r : FVec Ideal S256x256 φ₂) (p : Fin 2048) (q : Fin 256) :
    matmul dot_S2048x256_S256x256_S2048x256_1_0_0_1_n_n none l r (constant S2048x256 .f32 0x00000000#32) (ix2 p q)
      = ∑ k : Fin 256, l (ix2 p k) * r (ix2 k q) :=
  Idealize.ShloMosaic.MatmulAt.matmul_zero_ix2 dot_S2048x256_S256x256_S2048x256_1_0_0_1_n_n rfl rfl
    (fun i c => by
      unfold DotDims.lhsIdx
      rw [dif_neg (by decide), dif_pos (by decide)]
      rfl)
    (fun i c => DotDims.lhsIdx_val_of_single _ (cl := (1 : Fin 2)) rfl i c)
    (fun i c => DotDims.rhsIdx_val_of_single _ (cr := (0 : Fin 2)) rfl i c)
    (fun i c => by
      unfold DotDims.rhsIdx
      rw [dif_neg (by decide), dif_pos (by decide)]
      rfl)
    none l r p q

/-! ## The stages of the pixel computation, each over a vector variable -/

def bpix (x0 : Vec Ideal S1x256x16x128 .f32) (hh : Fin 16) (ww : Fin 128) (c : Fin 256) : EReal := x0 (ix4 (0 : Fin 1) c hh ww)
def m2 (x : Vec Ideal S256x256 .f32) (r c : Fin 256) : EReal := x (ix2 r c)

/-- Each channel vector of a [256, 16, 128] array divided by the larger of its Euclidean length and a constant, read at (c, h, w). -/
theorem normTile_apply (v1 : FVec Ideal S256x16x128 .f32) (e : Ideal .f32)
    (hr : S256x16x128.Reduces [0] S16x128) (hφ : FKind.Formats .f32) (hacc : (0x00000000#32 : BitVec 32) = FKind.add.neutral .f32 hφ)
    (hc : S16x128.ShapeCasts S1x16x128) (hb : S1x16x128.Broadcasts S256x16x128) (c : Fin 256) (hh : Fin 16) (ww : Fin 128) :
    divf v1 (broadcastTo S256x16x128
        (maximumf (sqrt (shapeCast S1x16x128 (multiReduction .add [0] S16x128 (mulf v1 v1) 0x00000000#32 hr hφ hacc) hc))
          (broadcast S1x16x128 e)) hb) (ix3 c hh ww)
      = Ideal.div (v1 (ix3 c hh ww)) (max (Ideal.sqrt (∑ k : Fin 256, v1 (ix3 k hh ww) * v1 (ix3 k hh ww))) e) := by
  refine (divf_apply _ _ _).trans ?_
  refine congrArg (Ideal.div (v1 (ix3 c hh ww))) ?_
  refine (Cert.LibBroadcastRank3.broadcastTo_1bc_abc_apply _ hb c hh ww).trans ?_
  refine (maximumf_apply _ _ _).trans ?_
  refine congrArg (fun z => max (Ideal.sqrt z) e) ?_
  refine (shapeCast_ab_1ab_apply _ hc (0 : Fin 1) hh ww).trans ?_
  exact sum_lead3_apply (mulf v1 v1) hr hφ hacc hh ww

/-- The query block normalised over channels and listed by pixel reads, at (p, c), the normalised channel vector of pixel p. -/
theorem normalised_apply (x0 : Vec Ideal S1x256x16x128 .f32) (e : Ideal .f32)
    (hc1 : S1x256x16x128.ShapeCasts S256x16x128)
    (hr : S256x16x128.Reduces [0] S16x128) (hφ : FKind.Formats .f32) (hacc : (0x00000000#32 : BitVec 32) = FKind.add.neutral .f32 hφ)
    (hc : S16x128.ShapeCasts S1x16x128) (hb : S1x16x128.Broadcasts S256x16x128)
    (ht : S256x16x128.Transposes [1, 2, 0] S16x128x256) (hc3 : S16x128x256.ShapeCasts S2048x256) (p : Fin 2048) (c : Fin 256) :
    shapeCast S2048x256 (transpose S16x128x256 [1, 2, 0]
        (divf (shapeCast S256x16x128 x0 hc1) (broadcastTo S256x16x128
          (maximumf (sqrt (shapeCast S1x16x128 (multiReduction .add [0] S16x128
              (mulf (shapeCast S256x16x128 x0 hc1) (shapeCast S256x16x128 x0 hc1)) 0x00000000#32 hr hφ hacc) hc))
            (broadcast S1x16x128 e)) hb)) ht) hc3 (ix2 p c)
      = Ideal.div (bpix x0 (rowH p) (rowW p) c)
          (max (Ideal.sqrt (∑ k : Fin 256, bpix x0 (rowH p) (rowW p) k * bpix x0 (rowH p) (rowW p) k)) e) := by
  refine (flat_apply _ hc3 p c).trans ?_
  refine (transpose_apply _ _ ht _ (ix3 c (rowH p) (rowW p))
    (fun b => match b with | ⟨0, _⟩ => rfl | ⟨1, _⟩ => rfl | ⟨2, _⟩ => rfl)).trans ?_
  refine (normTile_apply _ e hr hφ hacc hc hb c (rowH p) (rowW p)).trans ?_
  simp only [shapeCast_1abc_abc_apply]
  rfl

/-! ## The softmax along each row -/

def mxF (cu : Fin 256 → EReal) : EReal := (Finset.univ : Finset (Fin 256)).fold max ninf cu
def exF (cu : Fin 256 → EReal) (r : Fin 256) : EReal := Ideal.exp (cu r - mxF cu)
def softF (cu : Fin 256 → EReal) (r : Fin 256) : EReal := Ideal.div (exF cu r) (∑ r' : Fin 256, exF cu r')

/-- A per-row statistic [2048] stood up as a column and spread along the rows reads, at (p, r), the statistic of row p. -/
theorem rowStat_apply (s : FVec Ideal S2048 .f32) (hc : S2048.ShapeCasts S2048x1) (hb : S2048x1.Broadcasts S2048x256)
    (p : Fin 2048) (r : Fin 256) : broadcastTo S2048x256 (shapeCast S2048x1 s hc) hb (ix2 p r) = s (ix1 p) :=
  (Cert.LibColBroadcast.broadcastTo_a1_ab_apply _ hb p r).trans (Cert.LibColumnCast.shapeCast_a_a1_apply s hc p (0 : Fin 1))

/-- The exponential of each entry less its row's maximum. -/
theorem expShift_apply (cu : FVec Ideal S2048x256 .f32)
    (hr : S2048x256.Reduces [1] S2048) (hφ : FKind.Formats .f32) (hacc : (0xFF800000#32 : BitVec 32) = FKind.maximumf.neutral .f32 hφ)
    (hc : S2048.ShapeCasts S2048x1) (hb : S2048x1.Broadcasts S2048x256) (p : Fin 2048) (r : Fin 256) :
    exp (subf cu (broadcastTo S2048x256 (shapeCast S2048x1 (multiReduction .maximumf [1] S2048 cu 0xFF800000#32 hr hφ hacc) hc) hb)) (ix2 p r)
      = exF (fun r' => cu (ix2 p r')) r := by
  show Ideal.exp (cu (ix2 p r) - broadcastTo S2048x256 (shapeCast S2048x1 (multiReduction .maximumf [1] S2048 cu 0xFF800000#32 hr hφ hacc) hc) hb (ix2 p r)) = _
  refine congrArg (fun z => Ideal.exp (cu (ix2 p r) - z)) ?_
  refine (rowStat_apply _ hc hb p r).trans ?_
  exact max_cols_apply cu 0xFF800000#32 hr hφ hacc p

/-- The softmax along each row, read at (p, r). -/
theorem softmax_apply (cu : FVec Ideal S2048x256 .f32)
    (hr : S2048x256.Reduces [1] S2048) (hφ : FKind.Formats .f32) (hacc : (0xFF800000#32 : BitVec 32) = FKind.maximumf.neutral .f32 hφ)
    (hc : S2048.ShapeCasts S2048x1) (hb : S2048x1.Broadcasts S2048x256)
    (hφ' : FKind.Formats .f32) (hacc' : (0x00000000#32 : BitVec 32) = FKind.add.neutral .f32 hφ') (p : Fin 2048) (r : Fin 256) :
    divf (exp (subf cu (broadcastTo S2048x256 (shapeCast S2048x1 (multiReduction .maximumf [1] S2048 cu 0xFF800000#32 hr hφ hacc) hc) hb)))
        (broadcastTo S2048x256 (shapeCast S2048x1 (multiReduction .add [1] S2048
          (exp (subf cu (broadcastTo S2048x256 (shapeCast S2048x1 (multiReduction .maximumf [1] S2048 cu 0xFF800000#32 hr hφ hacc) hc) hb)))
          0x00000000#32 hr hφ' hacc') hc) hb) (ix2 p r)
      = softF (fun r' => cu (ix2 p r')) r := by
  refine (divf_apply _ _ _).trans ?_
  refine congrArg₂ Ideal.div (expShift_apply cu hr hφ hacc hc hb p r) ?_
  refine (rowStat_apply _ hc hb p r).trans ?_
  refine (sum_cols_apply _ hr hφ' hacc' p).trans ?_
  exact Finset.sum_congr rfl fun r' _ => expShift_apply cu hr hφ hacc hc hb p r'

/-! ## The projection at a pixel -/

/-- The product against the rows of a weight half after both operands change format (no change at the ideal values). -/
theorem rowsT_apply (l : FVec Ideal S2048x256 .f32) (r : FVec Ideal S256x256 .f32) (hl : FTy.bits .bf16 < FTy.bits .f32)
    (hr : FTy.bits .bf16 < FTy.bits .f32) (p : Fin 2048) (q : Fin 256) :
    matmul dot_S2048x256_S256x256_S2048x256_1_1_0_0_n_n none (truncf .bf16 l hl) (truncf .bf16 r hr)
        (constant S2048x256 .f32 0x00000000#32) (ix2 p q)
      = ∑ k : Fin 256, l (ix2 p k) * r (ix2 q k) :=
  rows_apply (truncf .bf16 l hl) (truncf .bf16 r hr) p q

theorem colsT_apply (l : FVec Ideal S2048x256 .f32) (r : FVec Ideal S256x256 .f32) (hl : FTy.bits .bf16 < FTy.bits .f32)
    (hr : FTy.bits .bf16 < FTy.bits .f32) (p : Fin 2048) (q : Fin 256) :
    matmul dot_S2048x256_S256x256_S2048x256_1_0_0_1_n_n none (truncf .bf16 l hl) (truncf .bf16 r hr)
        (constant S2048x256 .f32 0x00000000#32) (ix2 p q)
      = ∑ k : Fin 256, l (ix2 p k) * r (ix2 k q) :=
  cols_apply (truncf .bf16 l hl) (truncf .bf16 r hr) p q

theorem attP_eq_softF (qv : Fin 256 → EReal) (t : Fin 256 → Fin 256 → EReal) (r : Fin 256) :
    attP qv t r = softF (cueP qv t) r := rfl

/-- The [2048, 256] projection the first body computes, read at pixel p and output channel o. -/
theorem pay4_apply (x0 : Vec Ideal S1x256x16x128 .f32) (x1 x2 x3 : Vec Ideal S256x256 .f32) (p : Fin 2048) (o : Fin 256) :
    k0_pay4 (F := Ideal) x0 x1 x2 x3 (ix2 p o) = YkP (bpix x0 (rowH p) (rowW p)) (m2 x1) (m2 x2) (m2 x3) o := by
  unfold k0_pay4
  refine (addf_apply _ _ _).trans ?_
  refine (congrArg₂ (· + ·) (rowsT_apply _ _ _ _ p o) (rowsT_apply _ _ _ _ p o)).trans ?_
  unfold YkP
  refine congrArg₂ (· + ·)
    (Finset.sum_congr rfl fun c _ => congrArg₂ (· * ·) ?_ ?_)
    (Finset.sum_congr rfl fun c _ => congrArg₂ (· * ·) ?_ ?_)
  · exact normalised_apply x0 _ _ _ _ _ _ _ _ _ p c
  · rw [shapeCast_self]; rfl
  · refine (colsT_apply _ _ _ _ p c).trans ?_
    unfold rdP
    refine Finset.sum_congr rfl fun r _ => congrArg₂ (· * ·) ?_ rfl
    refine (softmax_apply _ _ _ _ _ _ _ _ p r).trans ?_
    rw [attP_eq_softF]
    refine congrArg (fun f => softF f r) (funext fun r' => ?_)
    refine (rowsT_apply _ _ _ _ p r').trans ?_
    unfold cueP
    exact Finset.sum_congr rfl fun c' _ => congrArg₂ (· * ·) (normalised_apply x0 _ _ _ _ _ _ _ _ _ p c') rfl
  · rw [shapeCast_self]; rfl

/-! ## The three output buffers of the first body -/

theorem out0_4_apply (x0 : Vec Ideal S1x256x16x128 .f32) (x1 x2 x3 : Vec Ideal S256x256 .f32) (hh : Fin 16) (ww : Fin 128) (o : Fin 256) :
    out0_4 (F := Ideal) x0 x1 x2 x3 (ix4 (0 : Fin 1) hh ww o) = YkP (bpix x0 hh ww) (m2 x1) (m2 x2) (m2 x3) o := by
  have hz4 : (![0, 0, 0, 0] : Fin 4 → Nat) = fun _ => 0 := by funext a; fin_cases a <;> rfl
  have hz2 : (![0, 0] : Fin 2 → Nat) = fun _ => 0 := by funext a; fin_cases a <;> rfl
  unfold out0_4
  rw [View.canon_unit_zero hz4]
  simp only [View.ld_unit_zero (S := S1x256x16x128) hz4, View.ld_unit_zero (S := S256x256) hz2]
  unfold k0_pay1 k0_pay5
  refine (shapeCast_abc_1abc_apply _ _ (0 : Fin 1) hh ww o).trans ?_
  refine (tile_apply _ _ hh ww o).trans ?_
  refine (pay4_apply x0 x1 x2 x3 (pixOf hh ww) o).trans ?_
  rw [rowH_pixOf, rowW_pixOf]

theorem out0_5_apply (x0 : Vec Ideal S1x256x16x128 .f32) (x1 x2 x3 : Vec Ideal S256x256 .f32) (o : Fin 256) :
    out0_5 (F := Ideal) x0 x1 x2 x3 (ix3 (0 : Fin 1) (0 : Fin 1) o) = ∑ p : Fin 2048, YkP (bpix x0 (rowH p) (rowW p)) (m2 x1) (m2 x2) (m2 x3) o := by
  have hz4 : (![0, 0, 0, 0] : Fin 4 → Nat) = fun _ => 0 := by funext a; fin_cases a <;> rfl
  have hz3 : (![0, 0, 0] : Fin 3 → Nat) = fun _ => 0 := by funext a; fin_cases a <;> rfl
  have hz2 : (![0, 0] : Fin 2 → Nat) = fun _ => 0 := by funext a; fin_cases a <;> rfl
  unfold out0_5
  rw [View.canon_unit_zero hz3]
  simp only [View.ld_unit_zero (S := S1x256x16x128) hz4, View.ld_unit_zero (S := S256x256) hz2]
  unfold k0_pay2
  refine (shapeCast_c_11c_apply _ _ (0 : Fin 1) (0 : Fin 1) o).trans ?_
  refine (sum_rows_apply _ _ _ _ o).trans ?_
  exact Finset.sum_congr rfl fun p _ => pay4_apply x0 x1 x2 x3 p o

theorem out0_6_apply (x0 : Vec Ideal S1x256x16x128 .f32) (x1 x2 x3 : Vec Ideal S256x256 .f32) (o : Fin 256) :
    out0_6 (F := Ideal) x0 x1 x2 x3 (ix3 (0 : Fin 1) (0 : Fin 1) o)
      = ∑ p : Fin 2048, YkP (bpix x0 (rowH p) (rowW p)) (m2 x1) (m2 x2) (m2 x3) o * YkP (bpix x0 (rowH p) (rowW p)) (m2 x1) (m2 x2) (m2 x3) o := by
  have hz4 : (![0, 0, 0, 0] : Fin 4 → Nat) = fun _ => 0 := by funext a; fin_cases a <;> rfl
  have hz3 : (![0, 0, 0] : Fin 3 → Nat) = fun _ => 0 := by funext a; fin_cases a <;> rfl
  have hz2 : (![0, 0] : Fin 2 → Nat) = fun _ => 0 := by funext a; fin_cases a <;> rfl
  unfold out0_6
  rw [View.canon_unit_zero hz3]
  simp only [View.ld_unit_zero (S := S1x256x16x128) hz4, View.ld_unit_zero (S := S256x256) hz2]
  unfold k0_pay3
  refine (shapeCast_c_11c_apply _ _ (0 : Fin 1) (0 : Fin 1) o).trans ?_
  refine (sum_rows_apply _ _ _ _ o).trans ?_
  exact Finset.sum_congr rfl fun p _ =>
    (mulf_apply _ _ _).trans (congrArg₂ (· * ·) (pay4_apply x0 x1 x2 x3 p o) (pay4_apply x0 x1 x2 x3 p o))

end Cert.KernelIdeal.Pay

end
-- ==== Proof.Payload1.lean ====
import proofs.«151587_j20340965114022_2_alg».proof.Proof.Gen.KernelIdeal.Frame
import proofs.«151587_j20340965114022_2_alg».proof.Proof.Gen.KernelIdeal.Skeleton
import proofs.«151587_j20340965114022_2_alg».proof.Proof.Spec
import proofs.«151587_j20340965114022_2_alg».proof.Proof.LibObjectAxis
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Cert.Spec Idealize.ShloMosaic Idealize.ShloMosaic.ValueIdx

/-- A per-channel row [1, 256] stood up as [1, 1, 256] and spread over the 16 × 128 tile reads, at (h, w, o), the row at o. -/
theorem chanBcast_apply (v : Vec Ideal S1x256 .f32) (h1 : S1x256.ShapeCasts S1x256) (h2 : S1x256.ShapeCasts S1x1x256)
    (h3 : S1x1x256.Broadcasts S16x128x256) (hh : Fin 16) (ww : Fin 128) (o : Fin 256) :
    broadcastTo S16x128x256 (shapeCast S1x1x256 (shapeCast S1x256 v h1) h2) h3 (ix3 hh ww o) = v (ix2 (0 : Fin 1) o) := by
  refine (Cert.LibObjectAxis.broadcastTo_11c_abc_apply _ h3 hh ww o).trans ?_
  refine (shapeCast_ab_1ab_apply _ h2 (0 : Fin 1) (0 : Fin 1) o).trans ?_
  rw [shapeCast_self]

/-- The reciprocal square root of the per-channel variance plus a constant, spread over the tile, read at (h, w, o). -/
theorem rsqrtBcast_apply (v : Vec Ideal S1x256 .f32) (c : Ideal .f32) (h1 : S1x256.ShapeCasts S1x256) (h2 : S1x256.ShapeCasts S1x1x256)
    (h3 : S1x1x256.Broadcasts S16x128x256) (hh : Fin 16) (ww : Fin 128) (o : Fin 256) :
    broadcastTo S16x128x256 (rsqrt (addf (shapeCast S1x1x256 (shapeCast S1x256 v h1) h2) (broadcast S1x1x256 c) : FVec Ideal S1x1x256 .f32)) h3 (ix3 hh ww o)
      = Ideal.rsqrt (v (ix2 (0 : Fin 1) o) + c) := by
  refine (Cert.LibObjectAxis.broadcastTo_11c_abc_apply _ h3 hh ww o).trans ?_
  show Ideal.rsqrt (shapeCast S1x1x256 (shapeCast S1x256 v h1) h2 (ix3 (0 : Fin 1) (0 : Fin 1) o) + c) = _
  rw [shapeCast_ab_1ab_apply _ h2 (0 : Fin 1) (0 : Fin 1) o, shapeCast_self]

theorem out1_5_apply (y : Vec Ideal S1x16x128x256 .f32) (mu va ga be : Vec Ideal S1x256 .f32) (o : Fin 256) (hh : Fin 16) (ww : Fin 128) :
    out1_5 (F := Ideal) y mu va ga be (ix4 (0 : Fin 1) o hh ww)
      = max (((y (ix4 (0 : Fin 1) hh ww o) - mu (ix2 (0 : Fin 1) o)) * Ideal.rsqrt (va (ix2 (0 : Fin 1) o) + eps2)) * ga (ix2 (0 : Fin 1) o) + be (ix2 (0 : Fin 1) o)) 0 := by
  have hz4 : (![0, 0, 0, 0] : Fin 4 → Nat) = fun _ => 0 := by funext a; fin_cases a <;> rfl
  have hz2 : (![0, 0] : Fin 2 → Nat) = fun _ => 0 := by funext a; fin_cases a <;> rfl
  unfold out1_5
  rw [View.canon_unit_zero hz4]
  simp only [View.ld_unit_zero (S := S1x16x128x256) hz4, View.ld_unit_zero (S := S1x256) hz2]
  unfold k1_pay1
  refine (shapeCast_abc_1abc_apply _ _ (0 : Fin 1) o hh ww).trans ?_
  refine (transpose_apply _ _ _ _ (ix3 hh ww o) (fun b => match b with | ⟨0, _⟩ => rfl | ⟨1, _⟩ => rfl | ⟨2, _⟩ => rfl)).trans ?_
  simp only [maximumf_apply, addf_apply, mulf_apply, subf_apply, broadcast_apply]
  rw [chanBcast_apply, chanBcast_apply, chanBcast_apply, rsqrtBcast_apply, shapeCast_1abc_abc_apply]
  rw [Ideal.ofBits_def, Ideal.ofBits_def, Ideal.ofBits_zero_f32]
  rfl

end Cert.KernelIdeal.Pay

end
-- ==== Proof.RefRunOps.lean ====
/- The reference program's @main as the LIST of its 77 host operations, in order, the three module-local
   functions it calls (the variance with its inner select, and the final maximum with zero) listed inline at
   their call sites over the buffers of those calls; and its run read back: every weakly fair execution
   terminates with each buffer at the fold of the operations' results over the launch contents. -/
import proofs.«151587_j20340965114022_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order: its own first thirty-seven (the per-pixel chain up to the transposed product,
    then the channel mean and the integer zero), the variance function's twenty with the three of the select it
    calls, @main's next fourteen (centring, the square root of variance plus epsilon, the division, scale and
    shift), and the three of the final maximum with zero. -/
abbrev ops : List (HloOp τ sig (Elt F)) :=
  [ binary main_arg0 main_arg0 main_v0 (mulf : (⟨S8x256x128x128, .f32⟩ : BufTy).Contents (Elt F) → (⟨S8x256x128x128, .f32⟩ : BufTy).Contents (Elt F) → (⟨S8x256x128x128, .f32⟩ : BufTy).Contents (Elt F)),
    nullary main_cst (constant S_ .f32 0x00000000#32),
    binary main_v0 main_cst main_v1 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    unary main_v1 main_v2 (broadcastInDim S8x1x128x128 ![0, 2, 3] bcast_S8x128x128_S8x1x128x128_0_2_3 : (⟨S8x128x128, .f32⟩ : BufTy).Contents (Elt F) → (⟨S8x1x128x128, .f32⟩ : BufTy).Contents (Elt F)),
    unary main_v2 main_v3 (Host.sqrt : (⟨S8x1x128x128, .f32⟩ : BufTy).Contents (Elt F) → (⟨S8x1x128x128, .f32⟩ : BufTy).Contents (Elt F)),
    nullary main_cst_0 (constant S_ .f32 0x2B8CBCCC#32),
    unary main_cst_0 main_v4 (broadcastInDim S8x1x128x128 ![] bcast_S_S8x1x128x128 : (⟨S_, .f32⟩ : BufTy).Contents (Elt F) → (⟨S8x1x128x128, .f32⟩ : BufTy).Contents (Elt F)),
    binary main_v3 main_v4 main_v5 (maximumf : (⟨S8x1x128x128, .f32⟩ : BufTy).Contents (Elt F) → (⟨S8x1x128x128, .f32⟩ : BufTy).Contents (Elt F) → (⟨S8x1x128x128, .f32⟩ : BufTy).Contents (Elt F)),
    unary main_v5 main_v6 (broadcastInDim S8x256x128x128 ![0, 1, 2, 3] bcast_S8x1x128x128_S8x256x128x128_0_1_2_3 : (⟨S8x1x128x128, .f32⟩ : BufTy).Contents (Elt F) → (⟨S8x256x128x128, .f32⟩ : BufTy).Contents (Elt F)),
    binary main_arg0 main_v6 main_v7 (Host.divf : (⟨S8x256x128x128, .f32⟩ : BufTy).Contents (Elt F) → (⟨S8x256x128x128, .f32⟩ : BufTy).Contents (Elt F) → (⟨S8x256x128x128, .f32⟩ : BufTy).Contents (Elt F)),
    unary main_v7 main_v8 ((transpose S8x128x128x256 [0, 2, 3, 1] · transposes_S8x256x128x128_S8x128x128x256_0_2_3_1) : (⟨S8x256x128x128, .f32⟩ : BufTy).Contents (Elt F) → (⟨S8x128x128x256, .f32⟩ : BufTy).Contents (Elt F)),
    binary main_v8 main_arg1 main_v9 ((fun l r => Host.dotGeneral dot_S8x128x128x256_S256x256_S8x128x128x256_3_1_012_0_n_n none l r) : (⟨S8x128x128x256, .f32⟩ : BufTy).Contents (Elt F) → (⟨S256x256, .f32⟩ : BufTy).Contents (Elt F) → (⟨S8x128x128x256, .f32⟩ : BufTy).Contents (Elt F)),
    nullary main_cst_1 (constant S_ .f32 0xFF800000#32),
    binary main_v9 main_cst_1 main_v10 ((fun x v => Host.reduce FloatOps.maximumf x v reducesTo_S8x128x128x256_S8x128x128_d3 h_S_) : (⟨S8x128x128x256, .f32⟩ : BufTy).Contents (Elt F) → (⟨S_, .f32⟩ : BufTy).Contents (Elt F) → (⟨S8x128x128, .f32⟩ : BufTy).Contents (Elt F)),
    nullary main_cst_2 (constant S_ .f32 0xFF800000#32),
    unary main_cst_2 main_v11 (broadcastInDim S8x128x128 ![] bcast_S_S8x128x128 : (⟨S_, .f32⟩ : BufTy).Contents (Elt F) → (⟨S8x128x128, .f32⟩ : BufTy).Contents (Elt F)),
    binary main_v11 main_v10 main_v12 (maximumf : (⟨S8x128x128, .f32⟩ : BufTy).Contents (Elt F) → (⟨S8x128x128, .f32⟩ : BufTy).Contents (Elt F) → (⟨S8x128x128, .f32⟩ : BufTy).Contents (Elt F)),
    unary main_v12 main_v13 (broadcastInDim S8x128x128x1 ![0, 1, 2] bcast_S8x128x128_S8x128x128x1_0_1_2 : (⟨S8x128x128, .f32⟩ : BufTy).Contents (Elt F) → (⟨S8x128x128x1, .f32⟩ : BufTy).Contents (Elt F)),
    unary main_v13 main_v14 (broadcastInDim S8x128x128x256 ![0, 1, 2, 3] bcast_S8x128x128x1_S8x128x128x256_0_1_2_3 : (⟨S8x128x128x1, .f32⟩ : BufTy).Contents (Elt F) → (⟨S8x128x128x256, .f32⟩ : BufTy).Contents (Elt F)),
    binary main_v9 main_v14 main_v15 (subf : (⟨S8x128x128x256, .f32⟩ : BufTy).Contents (Elt F) → (⟨S8x128x128x256, .f32⟩ : BufTy).Contents (Elt F) → (⟨S8x128x128x256, .f32⟩ : BufTy).Contents (Elt F)),
    unary main_v15 main_v16 (Host.exp : (⟨S8x128x128x256, .f32⟩ : BufTy).Contents (Elt F) → (⟨S8x128x128x256, .f32⟩ : BufTy).Contents (Elt F)),
    nullary main_cst_3 (constant S_ .f32 0x00000000#32),
    binary main_v16 main_cst_3 main_v17 ((fun x v => Host.reduceAdd x v reducesTo_S8x128x128x256_S8x128x128_d3 h_S_) : (⟨S8x128x128x256, .f32⟩ : BufTy).Contents (Elt F) → (⟨S_, .f32⟩ : BufTy).Contents (Elt F) → (⟨S8x128x128, .f32⟩ : BufTy).Contents (Elt F)),
    unary main_v17 main_v18 (broadcastInDim S8x128x128x1 ![0, 1, 2] bcast_S8x128x128_S8x128x128x1_0_1_2 : (⟨S8x128x128, .f32⟩ : BufTy).Contents (Elt F) → (⟨S8x128x128x1, .f32⟩ : BufTy).Contents (Elt F)),
    unary main_v18 main_v19 (broadcastInDim S8x128x128x256 ![0, 1, 2, 3] bcast_S8x128x128x1_S8x128x128x256_0_1_2_3 : (⟨S8x128x128x1, .f32⟩ : BufTy).Contents (Elt F) → (⟨S8x128x128x256, .f32⟩ : BufTy).Contents (Elt F)),
    binary main_v16 main_v19 main_v20 (Host.divf : (⟨S8x128x128x256, .f32⟩ : BufTy).Contents (Elt F) → (⟨S8x128x128x256, .f32⟩ : BufTy).Contents (Elt F) → (⟨S8x128x128x256, .f32⟩ : BufTy).Contents (Elt F)),
    binary main_v20 main_arg1 main_v21 ((fun l r => Host.dotGeneral dot_S8x128x128x256_S256x256_S8x128x128x256_3_0_012_1_n_n none l r) : (⟨S8x128x128x256, .f32⟩ : BufTy).Contents (Elt F) → (⟨S256x256, .f32⟩ : BufTy).Contents (Elt F) → (⟨S8x128x128x256, .f32⟩ : BufTy).Contents (Elt F)),
    binary main_v8 main_v21 main_v22 ((fun a b => concatenate S8x128x128x512 3 [⟨S8x128x128x256, a⟩, ⟨S8x128x128x256, b⟩] concatenates_S8x128x128x256_S8x128x128x256_S8x128x128x512_d3) : (⟨S8x128x128x256, .f32⟩ : BufTy).Contents (Elt F) → (⟨S8x128x128x256, .f32⟩ : BufTy).Contents (Elt F) → (⟨S8x128x128x512, .f32⟩ : BufTy).Contents (Elt F)),
    binary main_arg2 main_v22 main_v23 ((fun l r => Host.dotGeneral dot_S256x512_S8x128x128x512_S256x8x128x128_1_3_0_012_n_n none l r) : (⟨S256x512, .f32⟩ : BufTy).Contents (Elt F) → (⟨S8x128x128x512, .f32⟩ : BufTy).Contents (Elt F) → (⟨S256x8x128x128, .f32⟩ : BufTy).Contents (Elt F)),
    unary main_v23 main_v24 ((transpose S8x256x128x128 [1, 0, 2, 3] · transposes_S256x8x128x128_S8x256x128x128_1_0_2_3) : (⟨S256x8x128x128, .f32⟩ : BufTy).Contents (Elt F) → (⟨S8x256x128x128, .f32⟩ : BufTy).Contents (Elt F)),
    nullary main_cst_4 (constant S_ .f32 0x00000000#32),
    binary main_v24 main_cst_4 main_v25 ((fun x v => Host.reduceAdd x v reducesTo_S8x256x128x128_S256_d0_2_3 h_S_) : (⟨S8x256x128x128, .f32⟩ : BufTy).Contents (Elt F) → (⟨S_, .f32⟩ : BufTy).Contents (Elt F) → (⟨S256, .f32⟩ : BufTy).Contents (Elt F)),
    unary main_v25 main_v26 (broadcastInDim S1x256x1x1 ![1] bcast_S256_S1x256x1x1_1 : (⟨S256, .f32⟩ : BufTy).Contents (Elt F) → (⟨S1x256x1x1, .f32⟩ : BufTy).Contents (Elt F)),
    nullary main_cst_5 (constant S_ .f32 0x48000000#32),
    unary main_cst_5 main_v27 (broadcastInDim S1x256x1x1 ![] bcast_S_S1x256x1x1 : (⟨S_, .f32⟩ : BufTy).Contents (Elt F) → (⟨S1x256x1x1, .f32⟩ : BufTy).Contents (Elt F)),
    binary main_v26 main_v27 main_v28 (Host.divf : (⟨S1x256x1x1, .f32⟩ : BufTy).Contents (Elt F) → (⟨S1x256x1x1, .f32⟩ : BufTy).Contents (Elt F) → (⟨S1x256x1x1, .f32⟩ : BufTy).Contents (Elt F)),
    nullary main_c (constantI S_ 32 0#32),
    TRef.nullary main_call0.cst (constant S_ .f32 0x00000000#32),
    TRef.binary (.of main_v24 : TRef sig ⟨S8x256x128x128, .f32⟩) main_call0.cst main_call0.v0 (fun x v => Host.reduceAdd x v reducesTo_S8x256x128x128_S256_d0_2_3 h_S_),
    TRef.unary main_call0.v0 main_call0.v1 (broadcastInDim S1x256x1x1 ![1] bcast_S256_S1x256x1x1_1),
    TRef.nullary main_call0.cst_0 (constant S_ .f32 0x48000000#32),
    TRef.unary main_call0.cst_0 main_call0.v2 (broadcastInDim S1x256x1x1 ![] bcast_S_S1x256x1x1),
    TRef.binary main_call0.v1 main_call0.v2 main_call0.v3 Host.divf,
    TRef.unary main_call0.v3 main_call0.v4 (broadcastInDim S8x256x128x128 ![0, 1, 2, 3] bcast_S1x256x1x1_S8x256x128x128_0_1_2_3),
    TRef.binary (.of main_v24 : TRef sig ⟨S8x256x128x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x48000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8x256x128x128_S256_d0_2_3 h_S_),
    TRef.unary main_call0.v9 main_call0.v10 (broadcastInDim S1x256x1x1 ![1] bcast_S256_S1x256x1x1_1),
    TRef.unary main_call0.v8 main_call0.v11 (broadcastInDim S1x256x1x1 ![] bcast_S_S1x256x1x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x256x1x1 ![] bcast_S_S1x256x1x1),
    TRef.ternary main_call0.v13 main_call0.v12 main_call0.call0.v1 main_call0.call0.v2 (fun p a b => select (broadcastInDim S1x256x1x1 ![] bcast_S_S1x256x1x1 p) a b),
    unary main_v28 main_v30 (broadcastInDim S8x256x128x128 ![0, 1, 2, 3] bcast_S1x256x1x1_S8x256x128x128_0_1_2_3 : (⟨S1x256x1x1, .f32⟩ : BufTy).Contents (Elt F) → (⟨S8x256x128x128, .f32⟩ : BufTy).Contents (Elt F)),
    binary main_v24 main_v30 main_v31 (subf : (⟨S8x256x128x128, .f32⟩ : BufTy).Contents (Elt F) → (⟨S8x256x128x128, .f32⟩ : BufTy).Contents (Elt F) → (⟨S8x256x128x128, .f32⟩ : BufTy).Contents (Elt F)),
    nullary main_cst_6 (constant S_ .f32 0x3727C5AC#32),
    unary main_cst_6 main_v32 (broadcastInDim S1x256x1x1 ![] bcast_S_S1x256x1x1 : (⟨S_, .f32⟩ : BufTy).Contents (Elt F) → (⟨S1x256x1x1, .f32⟩ : BufTy).Contents (Elt F)),
    binary main_v29 main_v32 main_v33 (addf : (⟨S1x256x1x1, .f32⟩ : BufTy).Contents (Elt F) → (⟨S1x256x1x1, .f32⟩ : BufTy).Contents (Elt F) → (⟨S1x256x1x1, .f32⟩ : BufTy).Contents (Elt F)),
    unary main_v33 main_v34 (Host.sqrt : (⟨S1x256x1x1, .f32⟩ : BufTy).Contents (Elt F) → (⟨S1x256x1x1, .f32⟩ : BufTy).Contents (Elt F)),
    unary main_v34 main_v35 (broadcastInDim S8x256x128x128 ![0, 1, 2, 3] bcast_S1x256x1x1_S8x256x128x128_0_1_2_3 : (⟨S1x256x1x1, .f32⟩ : BufTy).Contents (Elt F) → (⟨S8x256x128x128, .f32⟩ : BufTy).Contents (Elt F)),
    binary main_v31 main_v35 main_v36 (Host.divf : (⟨S8x256x128x128, .f32⟩ : BufTy).Contents (Elt F) → (⟨S8x256x128x128, .f32⟩ : BufTy).Contents (Elt F) → (⟨S8x256x128x128, .f32⟩ : BufTy).Contents (Elt F)),
    unary main_arg3 main_v37 (broadcastInDim S1x256x1x1 ![1] bcast_S256_S1x256x1x1_1 : (⟨S256, .f32⟩ : BufTy).Contents (Elt F) → (⟨S1x256x1x1, .f32⟩ : BufTy).Contents (Elt F)),
    unary main_v37 main_v38 (broadcastInDim S8x256x128x128 ![0, 1, 2, 3] bcast_S1x256x1x1_S8x256x128x128_0_1_2_3 : (⟨S1x256x1x1, .f32⟩ : BufTy).Contents (Elt F) → (⟨S8x256x128x128, .f32⟩ : BufTy).Contents (Elt F)),
    binary main_v36 main_v38 main_v39 (mulf : (⟨S8x256x128x128, .f32⟩ : BufTy).Contents (Elt F) → (⟨S8x256x128x128, .f32⟩ : BufTy).Contents (Elt F) → (⟨S8x256x128x128, .f32⟩ : BufTy).Contents (Elt F)),
    unary main_arg4 main_v40 (broadcastInDim S1x256x1x1 ![1] bcast_S256_S1x256x1x1_1 : (⟨S256, .f32⟩ : BufTy).Contents (Elt F) → (⟨S1x256x1x1, .f32⟩ : BufTy).Contents (Elt F)),
    unary main_v40 main_v41 (broadcastInDim S8x256x128x128 ![0, 1, 2, 3] bcast_S1x256x1x1_S8x256x128x128_0_1_2_3 : (⟨S1x256x1x1, .f32⟩ : BufTy).Contents (Elt F) → (⟨S8x256x128x128, .f32⟩ : BufTy).Contents (Elt F)),
    binary main_v39 main_v41 main_v42 (addf : (⟨S8x256x128x128, .f32⟩ : BufTy).Contents (Elt F) → (⟨S8x256x128x128, .f32⟩ : BufTy).Contents (Elt F) → (⟨S8x256x128x128, .f32⟩ : BufTy).Contents (Elt F)),
    TRef.nullary main_call1.cst (constant S_ .f32 0x00000000#32),
    TRef.unary main_call1.cst main_call1.v0 (broadcastInDim S8x256x128x128 ![] bcast_S_S8x256x128x128),
    TRef.binary (.of main_v42 : TRef sig ⟨S8x256x128x128, .f32⟩) main_call1.v0 main_call1.v1 maximumf ]

-- seventy-seven binds re-associated: the rewrite under the chain recurses once per statement
set_option maxRecDepth 4096 in
set_option maxHeartbeats 4000000 in
/-- @main is that straight line: the called functions' bodies unfolded at their calls, both sides are one chain
    of steps once sequencing is re-associated. -/
theorem main_eq (c : Dev nD) : main (F := F) c = seq ops := by
  simp only [main, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., unary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- For any float values, from any memory with zero counters: every weakly fair execution of @main terminates,
    and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- No operation writes an argument's buffer. -/
theorem arg0_eq (V : Valuation τ sig (Elt F)) :
    after ops V (main_arg0 : DevRef τ sig) = V (main_arg0 : DevRef τ sig) := by after_results_simp
theorem arg1_eq (V : Valuation τ sig (Elt F)) :
    after ops V (main_arg1 : DevRef τ sig) = V (main_arg1 : DevRef τ sig) := by after_results_simp
theorem arg2_eq (V : Valuation τ sig (Elt F)) :
    after ops V (main_arg2 : DevRef τ sig) = V (main_arg2 : DevRef τ sig) := by after_results_simp
theorem arg3_eq (V : Valuation τ sig (Elt F)) :
    after ops V (main_arg3 : DevRef τ sig) = V (main_arg3 : DevRef τ sig) := by after_results_simp
theorem arg4_eq (V : Valuation τ sig (Elt F)) :
    after ops V (main_arg4 : DevRef τ sig) = V (main_arg4 : DevRef τ sig) := by after_results_simp

/-! ## The list cut before the concatenation

The first twenty-seven operations compute the two operands of the concatenation (the normalised pixel, transposed,
and the attention read); the remaining fifty start at the concatenation and read those two buffers and three of
the arguments. -/

/-- The operations up to the attention read (%21). -/
abbrev ops1 : List (HloOp τ sig (Elt F)) :=
  [ binary main_arg0 main_arg0 main_v0 (mulf : (⟨S8x256x128x128, .f32⟩ : BufTy).Contents (Elt F) → (⟨S8x256x128x128, .f32⟩ : BufTy).Contents (Elt F) → (⟨S8x256x128x128, .f32⟩ : BufTy).Contents (Elt F)),
    nullary main_cst (constant S_ .f32 0x00000000#32),
    binary main_v0 main_cst main_v1 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    unary main_v1 main_v2 (broadcastInDim S8x1x128x128 ![0, 2, 3] bcast_S8x128x128_S8x1x128x128_0_2_3 : (⟨S8x128x128, .f32⟩ : BufTy).Contents (Elt F) → (⟨S8x1x128x128, .f32⟩ : BufTy).Contents (Elt F)),
    unary main_v2 main_v3 (Host.sqrt : (⟨S8x1x128x128, .f32⟩ : BufTy).Contents (Elt F) → (⟨S8x1x128x128, .f32⟩ : BufTy).Contents (Elt F)),
    nullary main_cst_0 (constant S_ .f32 0x2B8CBCCC#32),
    unary main_cst_0 main_v4 (broadcastInDim S8x1x128x128 ![] bcast_S_S8x1x128x128 : (⟨S_, .f32⟩ : BufTy).Contents (Elt F) → (⟨S8x1x128x128, .f32⟩ : BufTy).Contents (Elt F)),
    binary main_v3 main_v4 main_v5 (maximumf : (⟨S8x1x128x128, .f32⟩ : BufTy).Contents (Elt F) → (⟨S8x1x128x128, .f32⟩ : BufTy).Contents (Elt F) → (⟨S8x1x128x128, .f32⟩ : BufTy).Contents (Elt F)),
    unary main_v5 main_v6 (broadcastInDim S8x256x128x128 ![0, 1, 2, 3] bcast_S8x1x128x128_S8x256x128x128_0_1_2_3 : (⟨S8x1x128x128, .f32⟩ : BufTy).Contents (Elt F) → (⟨S8x256x128x128, .f32⟩ : BufTy).Contents (Elt F)),
    binary main_arg0 main_v6 main_v7 (Host.divf : (⟨S8x256x128x128, .f32⟩ : BufTy).Contents (Elt F) → (⟨S8x256x128x128, .f32⟩ : BufTy).Contents (Elt F) → (⟨S8x256x128x128, .f32⟩ : BufTy).Contents (Elt F)),
    unary main_v7 main_v8 ((transpose S8x128x128x256 [0, 2, 3, 1] · transposes_S8x256x128x128_S8x128x128x256_0_2_3_1) : (⟨S8x256x128x128, .f32⟩ : BufTy).Contents (Elt F) → (⟨S8x128x128x256, .f32⟩ : BufTy).Contents (Elt F)),
    binary main_v8 main_arg1 main_v9 ((fun l r => Host.dotGeneral dot_S8x128x128x256_S256x256_S8x128x128x256_3_1_012_0_n_n none l r) : (⟨S8x128x128x256, .f32⟩ : BufTy).Contents (Elt F) → (⟨S256x256, .f32⟩ : BufTy).Contents (Elt F) → (⟨S8x128x128x256, .f32⟩ : BufTy).Contents (Elt F)),
    nullary main_cst_1 (constant S_ .f32 0xFF800000#32),
    binary main_v9 main_cst_1 main_v10 ((fun x v => Host.reduce FloatOps.maximumf x v reducesTo_S8x128x128x256_S8x128x128_d3 h_S_) : (⟨S8x128x128x256, .f32⟩ : BufTy).Contents (Elt F) → (⟨S_, .f32⟩ : BufTy).Contents (Elt F) → (⟨S8x128x128, .f32⟩ : BufTy).Contents (Elt F)),
    nullary main_cst_2 (constant S_ .f32 0xFF800000#32),
    unary main_cst_2 main_v11 (broadcastInDim S8x128x128 ![] bcast_S_S8x128x128 : (⟨S_, .f32⟩ : BufTy).Contents (Elt F) → (⟨S8x128x128, .f32⟩ : BufTy).Contents (Elt F)),
    binary main_v11 main_v10 main_v12 (maximumf : (⟨S8x128x128, .f32⟩ : BufTy).Contents (Elt F) → (⟨S8x128x128, .f32⟩ : BufTy).Contents (Elt F) → (⟨S8x128x128, .f32⟩ : BufTy).Contents (Elt F)),
    unary main_v12 main_v13 (broadcastInDim S8x128x128x1 ![0, 1, 2] bcast_S8x128x128_S8x128x128x1_0_1_2 : (⟨S8x128x128, .f32⟩ : BufTy).Contents (Elt F) → (⟨S8x128x128x1, .f32⟩ : BufTy).Contents (Elt F)),
    unary main_v13 main_v14 (broadcastInDim S8x128x128x256 ![0, 1, 2, 3] bcast_S8x128x128x1_S8x128x128x256_0_1_2_3 : (⟨S8x128x128x1, .f32⟩ : BufTy).Contents (Elt F) → (⟨S8x128x128x256, .f32⟩ : BufTy).Contents (Elt F)),
    binary main_v9 main_v14 main_v15 (subf : (⟨S8x128x128x256, .f32⟩ : BufTy).Contents (Elt F) → (⟨S8x128x128x256, .f32⟩ : BufTy).Contents (Elt F) → (⟨S8x128x128x256, .f32⟩ : BufTy).Contents (Elt F)),
    unary main_v15 main_v16 (Host.exp : (⟨S8x128x128x256, .f32⟩ : BufTy).Contents (Elt F) → (⟨S8x128x128x256, .f32⟩ : BufTy).Contents (Elt F)),
    nullary main_cst_3 (constant S_ .f32 0x00000000#32),
    binary main_v16 main_cst_3 main_v17 ((fun x v => Host.reduceAdd x v reducesTo_S8x128x128x256_S8x128x128_d3 h_S_) : (⟨S8x128x128x256, .f32⟩ : BufTy).Contents (Elt F) → (⟨S_, .f32⟩ : BufTy).Contents (Elt F) → (⟨S8x128x128, .f32⟩ : BufTy).Contents (Elt F)),
    unary main_v17 main_v18 (broadcastInDim S8x128x128x1 ![0, 1, 2] bcast_S8x128x128_S8x128x128x1_0_1_2 : (⟨S8x128x128, .f32⟩ : BufTy).Contents (Elt F) → (⟨S8x128x128x1, .f32⟩ : BufTy).Contents (Elt F)),
    unary main_v18 main_v19 (broadcastInDim S8x128x128x256 ![0, 1, 2, 3] bcast_S8x128x128x1_S8x128x128x256_0_1_2_3 : (⟨S8x128x128x1, .f32⟩ : BufTy).Contents (Elt F) → (⟨S8x128x128x256, .f32⟩ : BufTy).Contents (Elt F)),
    binary main_v16 main_v19 main_v20 (Host.divf : (⟨S8x128x128x256, .f32⟩ : BufTy).Contents (Elt F) → (⟨S8x128x128x256, .f32⟩ : BufTy).Contents (Elt F) → (⟨S8x128x128x256, .f32⟩ : BufTy).Contents (Elt F)),
    binary main_v20 main_arg1 main_v21 ((fun l r => Host.dotGeneral dot_S8x128x128x256_S256x256_S8x128x128x256_3_0_012_1_n_n none l r) : (⟨S8x128x128x256, .f32⟩ : BufTy).Contents (Elt F) → (⟨S256x256, .f32⟩ : BufTy).Contents (Elt F) → (⟨S8x128x128x256, .f32⟩ : BufTy).Contents (Elt F)) ]

/-- The operations from the concatenation (%22) on. -/
abbrev ops2 : List (HloOp τ sig (Elt F)) :=
  [ binary main_v8 main_v21 main_v22 ((fun a b => concatenate S8x128x128x512 3 [⟨S8x128x128x256, a⟩, ⟨S8x128x128x256, b⟩] concatenates_S8x128x128x256_S8x128x128x256_S8x128x128x512_d3) : (⟨S8x128x128x256, .f32⟩ : BufTy).Contents (Elt F) → (⟨S8x128x128x256, .f32⟩ : BufTy).Contents (Elt F) → (⟨S8x128x128x512, .f32⟩ : BufTy).Contents (Elt F)),
    binary main_arg2 main_v22 main_v23 ((fun l r => Host.dotGeneral dot_S256x512_S8x128x128x512_S256x8x128x128_1_3_0_012_n_n none l r) : (⟨S256x512, .f32⟩ : BufTy).Contents (Elt F) → (⟨S8x128x128x512, .f32⟩ : BufTy).Contents (Elt F) → (⟨S256x8x128x128, .f32⟩ : BufTy).Contents (Elt F)),
    unary main_v23 main_v24 ((transpose S8x256x128x128 [1, 0, 2, 3] · transposes_S256x8x128x128_S8x256x128x128_1_0_2_3) : (⟨S256x8x128x128, .f32⟩ : BufTy).Contents (Elt F) → (⟨S8x256x128x128, .f32⟩ : BufTy).Contents (Elt F)),
    nullary main_cst_4 (constant S_ .f32 0x00000000#32),
    binary main_v24 main_cst_4 main_v25 ((fun x v => Host.reduceAdd x v reducesTo_S8x256x128x128_S256_d0_2_3 h_S_) : (⟨S8x256x128x128, .f32⟩ : BufTy).Contents (Elt F) → (⟨S_, .f32⟩ : BufTy).Contents (Elt F) → (⟨S256, .f32⟩ : BufTy).Contents (Elt F)),
    unary main_v25 main_v26 (broadcastInDim S1x256x1x1 ![1] bcast_S256_S1x256x1x1_1 : (⟨S256, .f32⟩ : BufTy).Contents (Elt F) → (⟨S1x256x1x1, .f32⟩ : BufTy).Contents (Elt F)),
    nullary main_cst_5 (constant S_ .f32 0x48000000#32),
    unary main_cst_5 main_v27 (broadcastInDim S1x256x1x1 ![] bcast_S_S1x256x1x1 : (⟨S_, .f32⟩ : BufTy).Contents (Elt F) → (⟨S1x256x1x1, .f32⟩ : BufTy).Contents (Elt F)),
    binary main_v26 main_v27 main_v28 (Host.divf : (⟨S1x256x1x1, .f32⟩ : BufTy).Contents (Elt F) → (⟨S1x256x1x1, .f32⟩ : BufTy).Contents (Elt F) → (⟨S1x256x1x1, .f32⟩ : BufTy).Contents (Elt F)),
    nullary main_c (constantI S_ 32 0#32),
    TRef.nullary main_call0.cst (constant S_ .f32 0x00000000#32),
    TRef.binary (.of main_v24 : TRef sig ⟨S8x256x128x128, .f32⟩) main_call0.cst main_call0.v0 (fun x v => Host.reduceAdd x v reducesTo_S8x256x128x128_S256_d0_2_3 h_S_),
    TRef.unary main_call0.v0 main_call0.v1 (broadcastInDim S1x256x1x1 ![1] bcast_S256_S1x256x1x1_1),
    TRef.nullary main_call0.cst_0 (constant S_ .f32 0x48000000#32),
    TRef.unary main_call0.cst_0 main_call0.v2 (broadcastInDim S1x256x1x1 ![] bcast_S_S1x256x1x1),
    TRef.binary main_call0.v1 main_call0.v2 main_call0.v3 Host.divf,
    TRef.unary main_call0.v3 main_call0.v4 (broadcastInDim S8x256x128x128 ![0, 1, 2, 3] bcast_S1x256x1x1_S8x256x128x128_0_1_2_3),
    TRef.binary (.of main_v24 : TRef sig ⟨S8x256x128x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x48000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8x256x128x128_S256_d0_2_3 h_S_),
    TRef.unary main_call0.v9 main_call0.v10 (broadcastInDim S1x256x1x1 ![1] bcast_S256_S1x256x1x1_1),
    TRef.unary main_call0.v8 main_call0.v11 (broadcastInDim S1x256x1x1 ![] bcast_S_S1x256x1x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x256x1x1 ![] bcast_S_S1x256x1x1),
    TRef.ternary main_call0.v13 main_call0.v12 main_call0.call0.v1 main_call0.call0.v2 (fun p a b => select (broadcastInDim S1x256x1x1 ![] bcast_S_S1x256x1x1 p) a b),
    unary main_v28 main_v30 (broadcastInDim S8x256x128x128 ![0, 1, 2, 3] bcast_S1x256x1x1_S8x256x128x128_0_1_2_3 : (⟨S1x256x1x1, .f32⟩ : BufTy).Contents (Elt F) → (⟨S8x256x128x128, .f32⟩ : BufTy).Contents (Elt F)),
    binary main_v24 main_v30 main_v31 (subf : (⟨S8x256x128x128, .f32⟩ : BufTy).Contents (Elt F) → (⟨S8x256x128x128, .f32⟩ : BufTy).Contents (Elt F) → (⟨S8x256x128x128, .f32⟩ : BufTy).Contents (Elt F)),
    nullary main_cst_6 (constant S_ .f32 0x3727C5AC#32),
    unary main_cst_6 main_v32 (broadcastInDim S1x256x1x1 ![] bcast_S_S1x256x1x1 : (⟨S_, .f32⟩ : BufTy).Contents (Elt F) → (⟨S1x256x1x1, .f32⟩ : BufTy).Contents (Elt F)),
    binary main_v29 main_v32 main_v33 (addf : (⟨S1x256x1x1, .f32⟩ : BufTy).Contents (Elt F) → (⟨S1x256x1x1, .f32⟩ : BufTy).Contents (Elt F) → (⟨S1x256x1x1, .f32⟩ : BufTy).Contents (Elt F)),
    unary main_v33 main_v34 (Host.sqrt : (⟨S1x256x1x1, .f32⟩ : BufTy).Contents (Elt F) → (⟨S1x256x1x1, .f32⟩ : BufTy).Contents (Elt F)),
    unary main_v34 main_v35 (broadcastInDim S8x256x128x128 ![0, 1, 2, 3] bcast_S1x256x1x1_S8x256x128x128_0_1_2_3 : (⟨S1x256x1x1, .f32⟩ : BufTy).Contents (Elt F) → (⟨S8x256x128x128, .f32⟩ : BufTy).Contents (Elt F)),
    binary main_v31 main_v35 main_v36 (Host.divf : (⟨S8x256x128x128, .f32⟩ : BufTy).Contents (Elt F) → (⟨S8x256x128x128, .f32⟩ : BufTy).Contents (Elt F) → (⟨S8x256x128x128, .f32⟩ : BufTy).Contents (Elt F)),
    unary main_arg3 main_v37 (broadcastInDim S1x256x1x1 ![1] bcast_S256_S1x256x1x1_1 : (⟨S256, .f32⟩ : BufTy).Contents (Elt F) → (⟨S1x256x1x1, .f32⟩ : BufTy).Contents (Elt F)),
    unary main_v37 main_v38 (broadcastInDim S8x256x128x128 ![0, 1, 2, 3] bcast_S1x256x1x1_S8x256x128x128_0_1_2_3 : (⟨S1x256x1x1, .f32⟩ : BufTy).Contents (Elt F) → (⟨S8x256x128x128, .f32⟩ : BufTy).Contents (Elt F)),
    binary main_v36 main_v38 main_v39 (mulf : (⟨S8x256x128x128, .f32⟩ : BufTy).Contents (Elt F) → (⟨S8x256x128x128, .f32⟩ : BufTy).Contents (Elt F) → (⟨S8x256x128x128, .f32⟩ : BufTy).Contents (Elt F)),
    unary main_arg4 main_v40 (broadcastInDim S1x256x1x1 ![1] bcast_S256_S1x256x1x1_1 : (⟨S256, .f32⟩ : BufTy).Contents (Elt F) → (⟨S1x256x1x1, .f32⟩ : BufTy).Contents (Elt F)),
    unary main_v40 main_v41 (broadcastInDim S8x256x128x128 ![0, 1, 2, 3] bcast_S1x256x1x1_S8x256x128x128_0_1_2_3 : (⟨S1x256x1x1, .f32⟩ : BufTy).Contents (Elt F) → (⟨S8x256x128x128, .f32⟩ : BufTy).Contents (Elt F)),
    binary main_v39 main_v41 main_v42 (addf : (⟨S8x256x128x128, .f32⟩ : BufTy).Contents (Elt F) → (⟨S8x256x128x128, .f32⟩ : BufTy).Contents (Elt F) → (⟨S8x256x128x128, .f32⟩ : BufTy).Contents (Elt F)),
    TRef.nullary main_call1.cst (constant S_ .f32 0x00000000#32),
    TRef.unary main_call1.cst main_call1.v0 (broadcastInDim S8x256x128x128 ![] bcast_S_S8x256x128x128),
    TRef.binary (.of main_v42 : TRef sig ⟨S8x256x128x128, .f32⟩) main_call1.v0 main_call1.v1 maximumf ]

theorem ops_split : (ops : List (HloOp τ sig (Elt F))) = ops1 ++ ops2 := rfl

/-- Running two lines one after the other is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The fold through the whole list, as the second part's fold over the first part's. -/
theorem after_ops (V : Valuation τ sig (Elt F)) :
    after (ops : List (HloOp τ sig (Elt F))) V = after ops2 (after ops1 V) := by
  rw [ops_split, after_app]

end Cert.ReferenceIdeal.RefRun

end
-- ==== Proof.RefPixDef.lean ====
/-
  The value of the reference's per-pixel half, as a closed term: the composition of the pure functions of
  the reference program's operations %0 … %24, in the program's order, each exactly as the program prints it,
  read at the ideal instance (a float an extended real).
-/
import proofs.«151587_j20340965114022_2_alg».proof.Proof.Gen.ReferenceIdeal
import Idealize.ShloMosaic.PureOps.Ideal

noncomputable section

namespace Cert.ReferenceIdeal.RefValue

open Idealize.ShloMosaic Cert.ReferenceIdeal
open Cert.ReferenceIdeal.Facts₀

variable [Cert.ReferenceIdeal.Facts]

/-- %0 = multiply %arg0, %arg0 -/
def st_v0 (a0 : FVec Ideal S8x256x128x128 .f32) : FVec Ideal S8x256x128x128 .f32 :=
  mulf (F := Ideal) a0 a0
/-- %cst = 0.0 -/
def st_cst : FVec Ideal S_ .f32 := constant (F := Ideal) S_ .f32 0x00000000#32
/-- %1 = reduce add over the channel axis -/
def st_v1 (a0 : FVec Ideal S8x256x128x128 .f32) : FVec Ideal S8x128x128 .f32 :=
  Host.reduceAdd (F := Ideal) (st_v0 a0) st_cst reducesTo_S8x256x128x128_S8x128x128_d1 h_S_
/-- %2 = broadcast_in_dim %1, dims = [0, 2, 3] -/
def st_v2 (a0 : FVec Ideal S8x256x128x128 .f32) : FVec Ideal S8x1x128x128 .f32 :=
  broadcastInDim S8x1x128x128 ![0, 2, 3] bcast_S8x128x128_S8x1x128x128_0_2_3 (st_v1 a0)
/-- %3 = sqrt %2 -/
def st_v3 (a0 : FVec Ideal S8x256x128x128 .f32) : FVec Ideal S8x1x128x128 .f32 :=
  Host.sqrt (F := Ideal) (st_v2 a0)
/-- %cst_0 = 1e-12 -/
def st_cst_0 : FVec Ideal S_ .f32 := constant (F := Ideal) S_ .f32 0x2B8CBCCC#32
/-- %4 = broadcast_in_dim %cst_0, dims = [] -/
def st_v4 : FVec Ideal S8x1x128x128 .f32 :=
  broadcastInDim S8x1x128x128 ![] bcast_S_S8x1x128x128 st_cst_0
/-- %5 = maximum %3, %4 -/
def st_v5 (a0 : FVec Ideal S8x256x128x128 .f32) : FVec Ideal S8x1x128x128 .f32 :=
  maximumf (F := Ideal) (st_v3 a0) st_v4
/-- %6 = broadcast_in_dim %5, dims = [0, 1, 2, 3] -/
def st_v6 (a0 : FVec Ideal S8x256x128x128 .f32) : FVec Ideal S8x256x128x128 .f32 :=
  broadcastInDim S8x256x128x128 ![0, 1, 2, 3] bcast_S8x1x128x128_S8x256x128x128_0_1_2_3 (st_v5 a0)
/-- %7 = divide %arg0, %6 -/
def st_v7 (a0 : FVec Ideal S8x256x128x128 .f32) : FVec Ideal S8x256x128x128 .f32 :=
  Host.divf (F := Ideal) a0 (st_v6 a0)
/-- %8 = transpose %7, dims = [0, 2, 3, 1] -/
def st_v8 (a0 : FVec Ideal S8x256x128x128 .f32) : FVec Ideal S8x128x128x256 .f32 :=
  transpose S8x128x128x256 [0, 2, 3, 1] (st_v7 a0) transposes_S8x256x128x128_S8x128x128x256_0_2_3_1
/-- %9 = dot_general %8, %arg1, contracting [3] x [1] -/
def st_v9 (a0 : FVec Ideal S8x256x128x128 .f32) (a1 : FVec Ideal S256x256 .f32) : FVec Ideal S8x128x128x256 .f32 :=
  Host.dotGeneral (F := Ideal) dot_S8x128x128x256_S256x256_S8x128x128x256_3_1_012_0_n_n none (st_v8 a0) a1
/-- %cst_1 = -inf -/
def st_cst_1 : FVec Ideal S_ .f32 := constant (F := Ideal) S_ .f32 0xFF800000#32
/-- %10 = reduce maximum over the last axis -/
def st_v10 (a0 : FVec Ideal S8x256x128x128 .f32) (a1 : FVec Ideal S256x256 .f32) : FVec Ideal S8x128x128 .f32 :=
  Host.reduce (FloatOps.maximumf (F := Ideal) (φ := .f32)) (st_v9 a0 a1) st_cst_1 reducesTo_S8x128x128x256_S8x128x128_d3 h_S_
/-- %cst_2 = -inf -/
def st_cst_2 : FVec Ideal S_ .f32 := constant (F := Ideal) S_ .f32 0xFF800000#32
/-- %11 = broadcast_in_dim %cst_2, dims = [] -/
def st_v11 : FVec Ideal S8x128x128 .f32 :=
  broadcastInDim S8x128x128 ![] bcast_S_S8x128x128 st_cst_2
/-- %12 = maximum %11, %10 -/
def st_v12 (a0 : FVec Ideal S8x256x128x128 .f32) (a1 : FVec Ideal S256x256 .f32) : FVec Ideal S8x128x128 .f32 :=
  maximumf (F := Ideal) st_v11 (st_v10 a0 a1)
/-- %13 = broadcast_in_dim %12, dims = [0, 1, 2] -/
def st_v13 (a0 : FVec Ideal S8x256x128x128 .f32) (a1 : FVec Ideal S256x256 .f32) : FVec Ideal S8x128x128x1 .f32 :=
  broadcastInDim S8x128x128x1 ![0, 1, 2] bcast_S8x128x128_S8x128x128x1_0_1_2 (st_v12 a0 a1)
/-- %14 = broadcast_in_dim %13, dims = [0, 1, 2, 3] -/
def st_v14 (a0 : FVec Ideal S8x256x128x128 .f32) (a1 : FVec Ideal S256x256 .f32) : FVec Ideal S8x128x128x256 .f32 :=
  broadcastInDim S8x128x128x256 ![0, 1, 2, 3] bcast_S8x128x128x1_S8x128x128x256_0_1_2_3 (st_v13 a0 a1)
/-- %15 = subtract %9, %14 -/
def st_v15 (a0 : FVec Ideal S8x256x128x128 .f32) (a1 : FVec Ideal S256x256 .f32) : FVec Ideal S8x128x128x256 .f32 :=
  subf (F := Ideal) (st_v9 a0 a1) (st_v14 a0 a1)
/-- %16 = exponential %15 -/
def st_v16 (a0 : FVec Ideal S8x256x128x128 .f32) (a1 : FVec Ideal S256x256 .f32) : FVec Ideal S8x128x128x256 .f32 :=
  Host.exp (F := Ideal) (st_v15 a0 a1)
/-- %cst_3 = 0.0 -/
def st_cst_3 : FVec Ideal S_ .f32 := constant (F := Ideal) S_ .f32 0x00000000#32
/-- %17 = reduce add over the last axis -/
def st_v17 (a0 : FVec Ideal S8x256x128x128 .f32) (a1 : FVec Ideal S256x256 .f32) : FVec Ideal S8x128x128 .f32 :=
  Host.reduceAdd (F := Ideal) (st_v16 a0 a1) st_cst_3 reducesTo_S8x128x128x256_S8x128x128_d3 h_S_
/-- %18 = broadcast_in_dim %17, dims = [0, 1, 2] -/
def st_v18 (a0 : FVec Ideal S8x256x128x128 .f32) (a1 : FVec Ideal S256x256 .f32) : FVec Ideal S8x128x128x1 .f32 :=
  broadcastInDim S8x128x128x1 ![0, 1, 2] bcast_S8x128x128_S8x128x128x1_0_1_2 (st_v17 a0 a1)
/-- %19 = broadcast_in_dim %18, dims = [0, 1, 2, 3] -/
def st_v19 (a0 : FVec Ideal S8x256x128x128 .f32) (a1 : FVec Ideal S256x256 .f32) : FVec Ideal S8x128x128x256 .f32 :=
  broadcastInDim S8x128x128x256 ![0, 1, 2, 3] bcast_S8x128x128x1_S8x128x128x256_0_1_2_3 (st_v18 a0 a1)
/-- %20 = divide %16, %19 -/
def st_v20 (a0 : FVec Ideal S8x256x128x128 .f32) (a1 : FVec Ideal S256x256 .f32) : FVec Ideal S8x128x128x256 .f32 :=
  Host.divf (F := Ideal) (st_v16 a0 a1) (st_v19 a0 a1)
/-- %21 = dot_general %20, %arg1, contracting [3] x [0] -/
def st_v21 (a0 : FVec Ideal S8x256x128x128 .f32) (a1 : FVec Ideal S256x256 .f32) : FVec Ideal S8x128x128x256 .f32 :=
  Host.dotGeneral (F := Ideal) dot_S8x128x128x256_S256x256_S8x128x128x256_3_0_012_1_n_n none (st_v20 a0 a1) a1
/-- %22 = concatenate %8, %21, dim = 3 -/
def st_v22 (a0 : FVec Ideal S8x256x128x128 .f32) (a1 : FVec Ideal S256x256 .f32) : FVec Ideal S8x128x128x512 .f32 :=
  concatenate S8x128x128x512 3 [⟨S8x128x128x256, st_v8 a0⟩, ⟨S8x128x128x256, st_v21 a0 a1⟩]
    concatenates_S8x128x128x256_S8x128x128x256_S8x128x128x512_d3
/-- %23 = dot_general %arg2, %22, contracting [1] x [3] -/
def st_v23 (a0 : FVec Ideal S8x256x128x128 .f32) (a1 : FVec Ideal S256x256 .f32) (a2 : FVec Ideal S256x512 .f32) :
    FVec Ideal S256x8x128x128 .f32 :=
  Host.dotGeneral (F := Ideal) dot_S256x512_S8x128x128x512_S256x8x128x128_1_3_0_012_n_n none a2 (st_v22 a0 a1)
/-- %24 = transpose %23, dims = [1, 0, 2, 3] -/
def st_v24 (a0 : FVec Ideal S8x256x128x128 .f32) (a1 : FVec Ideal S256x256 .f32) (a2 : FVec Ideal S256x512 .f32) :
    FVec Ideal S8x256x128x128 .f32 :=
  transpose S8x256x128x128 [1, 0, 2, 3] (st_v23 a0 a1 a2) transposes_S256x8x128x128_S8x256x128x128_1_0_2_3

/-- The value of the reference's %24: the projected pixel, before the batch normalisation. -/
def pixTerm (a0 : FVec Ideal S8x256x128x128 .f32) (a1 : FVec Ideal S256x256 .f32) (a2 : FVec Ideal S256x512 .f32) :
    FVec Ideal S8x256x128x128 .f32 := st_v24 a0 a1 a2

end Cert.ReferenceIdeal.RefValue

end
-- ==== Proof.RefBNDef.lean ====
/-
  The reference's batch-norm half as a value: the result of @main (the value %43) as the composition of
  the pure functions of @main's operations from %cst_4 on, over the value yv of %24 and the arguments
  %arg3, %arg4. Each stage is one operation of the program applied to earlier stages, in the program's
  order: the mean (%cst_4 … %28), the integer constant %c, the call of @_var on (%24, %c) with its
  operations in order and the call of @_where inside it (its value is the select, which is %29), then
  %30 … %42, and the call of @relu (its value is the maximum, which is %43).
-/
import proofs.«151587_j20340965114022_2_alg».proof.Proof.Gen.ReferenceIdeal
import Idealize.ShloMosaic.PureOps.Ideal

noncomputable section

namespace Cert.ReferenceIdeal.RefValue

open Idealize.ShloMosaic Cert.ReferenceIdeal Cert.ReferenceIdeal.Facts₀

variable [Cert.ReferenceIdeal.Facts]

/-! ## @main: the mean -/

/-- %cst_4 = 0.0 -/
def bn_cst_4 : FVec Ideal S_ .f32 := constant (F := Ideal) S_ .f32 0x00000000#32
/-- %25: the sum over the axes [0, 2, 3]. -/
def bn_v25 (yv : FVec Ideal S8x256x128x128 .f32) : FVec Ideal S256 .f32 :=
  Host.reduceAdd (F := Ideal) yv bn_cst_4 reducesTo_S8x256x128x128_S256_d0_2_3 h_S_
/-- %26 -/
def bn_v26 (yv : FVec Ideal S8x256x128x128 .f32) : FVec Ideal S1x256x1x1 .f32 :=
  broadcastInDim S1x256x1x1 ![1] bcast_S256_S1x256x1x1_1 (bn_v25 yv)
/-- %cst_5 = 131072.0 -/
def bn_cst_5 : FVec Ideal S_ .f32 := constant (F := Ideal) S_ .f32 0x48000000#32
/-- %27 -/
def bn_v27 : FVec Ideal S1x256x1x1 .f32 := broadcastInDim S1x256x1x1 ![] bcast_S_S1x256x1x1 bn_cst_5
/-- %28: the mean. -/
def bn_v28 (yv : FVec Ideal S8x256x128x128 .f32) : FVec Ideal S1x256x1x1 .f32 :=
  Host.divf (F := Ideal) (bn_v26 yv) bn_v27
/-- %c = 0 : i32 -/
def bn_c : IVec S_ 32 := constantI S_ 32 0#32

/-! ## @_var on (%24, %c) -/

/-- @_var's %cst = 0.0 -/
def var_cst : FVec Ideal S_ .f32 := constant (F := Ideal) S_ .f32 0x00000000#32
/-- @_var's %0 -/
def var_v0 (yv : FVec Ideal S8x256x128x128 .f32) : FVec Ideal S256 .f32 :=
  Host.reduceAdd (F := Ideal) yv var_cst reducesTo_S8x256x128x128_S256_d0_2_3 h_S_
/-- @_var's %1 -/
def var_v1 (yv : FVec Ideal S8x256x128x128 .f32) : FVec Ideal S1x256x1x1 .f32 :=
  broadcastInDim S1x256x1x1 ![1] bcast_S256_S1x256x1x1_1 (var_v0 yv)
/-- @_var's %cst_0 = 131072.0 -/
def var_cst_0 : FVec Ideal S_ .f32 := constant (F := Ideal) S_ .f32 0x48000000#32
/-- @_var's %2 -/
def var_v2 : FVec Ideal S1x256x1x1 .f32 := broadcastInDim S1x256x1x1 ![] bcast_S_S1x256x1x1 var_cst_0
/-- @_var's %3: the mean again. -/
def var_v3 (yv : FVec Ideal S8x256x128x128 .f32) : FVec Ideal S1x256x1x1 .f32 :=
  Host.divf (F := Ideal) (var_v1 yv) var_v2
/-- @_var's %4 -/
def var_v4 (yv : FVec Ideal S8x256x128x128 .f32) : FVec Ideal S8x256x128x128 .f32 :=
  broadcastInDim S8x256x128x128 ![0, 1, 2, 3] bcast_S1x256x1x1_S8x256x128x128_0_1_2_3 (var_v3 yv)
/-- @_var's %5: the deviations. -/
def var_v5 (yv : FVec Ideal S8x256x128x128 .f32) : FVec Ideal S8x256x128x128 .f32 :=
  subf yv (var_v4 yv)
/-- @_var's %6: their squares. -/
def var_v6 (yv : FVec Ideal S8x256x128x128 .f32) : FVec Ideal S8x256x128x128 .f32 :=
  mulf (var_v5 yv) (var_v5 yv)
/-- @_var's %7: the integer argument as a float. -/
def var_v7 : FVec Ideal S_ .f32 := sitofp (F := Ideal) .f32 bn_c
/-- @_var's %cst_1 = 131072.0 -/
def var_cst_1 : FVec Ideal S_ .f32 := constant (F := Ideal) S_ .f32 0x48000000#32
/-- @_var's %8: the count less the correction. -/
def var_v8 : FVec Ideal S_ .f32 := subf var_cst_1 var_v7
/-- @_var's %cst_2 = 0.0 -/
def var_cst_2 : FVec Ideal S_ .f32 := constant (F := Ideal) S_ .f32 0x00000000#32
/-- @_var's %9: the sum of the squared deviations. -/
def var_v9 (yv : FVec Ideal S8x256x128x128 .f32) : FVec Ideal S256 .f32 :=
  Host.reduceAdd (F := Ideal) (var_v6 yv) var_cst_2 reducesTo_S8x256x128x128_S256_d0_2_3 h_S_
/-- @_var's %10 -/
def var_v10 (yv : FVec Ideal S8x256x128x128 .f32) : FVec Ideal S1x256x1x1 .f32 :=
  broadcastInDim S1x256x1x1 ![1] bcast_S256_S1x256x1x1_1 (var_v9 yv)
/-- @_var's %11 -/
def var_v11 : FVec Ideal S1x256x1x1 .f32 := broadcastInDim S1x256x1x1 ![] bcast_S_S1x256x1x1 var_v8
/-- @_var's %12 -/
def var_v12 (yv : FVec Ideal S8x256x128x128 .f32) : FVec Ideal S1x256x1x1 .f32 :=
  Host.divf (F := Ideal) (var_v10 yv) var_v11
/-- @_var's %cst_3 = 0.0 -/
def var_cst_3 : FVec Ideal S_ .f32 := constant (F := Ideal) S_ .f32 0x00000000#32
/-- @_var's %13: is the corrected count positive? -/
def var_v13 : IVec S_ 1 := cmpf .ogt var_v8 var_cst_3
/-- @_var's %cst_4: the not-a-number word. -/
def var_cst_4 : FVec Ideal S_ .f32 := constant (F := Ideal) S_ .f32 0x7FC00000#32

/-! ## @_where on (%13, %12, %cst_4), inside @_var -/

/-- @_where's %0 -/
def where_v0 : FVec Ideal S_ .f32 := id var_cst_4
/-- @_where's %1 -/
def where_v1 : FVec Ideal S1x256x1x1 .f32 := broadcastInDim S1x256x1x1 ![] bcast_S_S1x256x1x1 where_v0
/-- @_where's %2, which is @_var's result and @main's %29: the variance. -/
def bn_v29 (yv : FVec Ideal S8x256x128x128 .f32) : FVec Ideal S1x256x1x1 .f32 :=
  (fun p a b => select (broadcastInDim S1x256x1x1 ![] bcast_S_S1x256x1x1 p) a b) var_v13 (var_v12 yv) where_v1

/-! ## @main: the normalisation -/

/-- %30 -/
def bn_v30 (yv : FVec Ideal S8x256x128x128 .f32) : FVec Ideal S8x256x128x128 .f32 :=
  broadcastInDim S8x256x128x128 ![0, 1, 2, 3] bcast_S1x256x1x1_S8x256x128x128_0_1_2_3 (bn_v28 yv)
/-- %31 -/
def bn_v31 (yv : FVec Ideal S8x256x128x128 .f32) : FVec Ideal S8x256x128x128 .f32 :=
  subf yv (bn_v30 yv)
/-- %cst_6: the variance's epsilon. -/
def bn_cst_6 : FVec Ideal S_ .f32 := constant (F := Ideal) S_ .f32 0x3727C5AC#32
/-- %32 -/
def bn_v32 : FVec Ideal S1x256x1x1 .f32 := broadcastInDim S1x256x1x1 ![] bcast_S_S1x256x1x1 bn_cst_6
/-- %33 -/
def bn_v33 (yv : FVec Ideal S8x256x128x128 .f32) : FVec Ideal S1x256x1x1 .f32 :=
  addf (bn_v29 yv) bn_v32
/-- %34 -/
def bn_v34 (yv : FVec Ideal S8x256x128x128 .f32) : FVec Ideal S1x256x1x1 .f32 :=
  Host.sqrt (F := Ideal) (bn_v33 yv)
/-- %35 -/
def bn_v35 (yv : FVec Ideal S8x256x128x128 .f32) : FVec Ideal S8x256x128x128 .f32 :=
  broadcastInDim S8x256x128x128 ![0, 1, 2, 3] bcast_S1x256x1x1_S8x256x128x128_0_1_2_3 (bn_v34 yv)
/-- %36 -/
def bn_v36 (yv : FVec Ideal S8x256x128x128 .f32) : FVec Ideal S8x256x128x128 .f32 :=
  Host.divf (F := Ideal) (bn_v31 yv) (bn_v35 yv)
/-- %37 -/
def bn_v37 (a3 : FVec Ideal S256 .f32) : FVec Ideal S1x256x1x1 .f32 :=
  broadcastInDim S1x256x1x1 ![1] bcast_S256_S1x256x1x1_1 a3
/-- %38 -/
def bn_v38 (a3 : FVec Ideal S256 .f32) : FVec Ideal S8x256x128x128 .f32 :=
  broadcastInDim S8x256x128x128 ![0, 1, 2, 3] bcast_S1x256x1x1_S8x256x128x128_0_1_2_3 (bn_v37 a3)
/-- %39 -/
def bn_v39 (yv : FVec Ideal S8x256x128x128 .f32) (a3 : FVec Ideal S256 .f32) : FVec Ideal S8x256x128x128 .f32 :=
  mulf (bn_v36 yv) (bn_v38 a3)
/-- %40 -/
def bn_v40 (a4 : FVec Ideal S256 .f32) : FVec Ideal S1x256x1x1 .f32 :=
  broadcastInDim S1x256x1x1 ![1] bcast_S256_S1x256x1x1_1 a4
/-- %41 -/
def bn_v41 (a4 : FVec Ideal S256 .f32) : FVec Ideal S8x256x128x128 .f32 :=
  broadcastInDim S8x256x128x128 ![0, 1, 2, 3] bcast_S1x256x1x1_S8x256x128x128_0_1_2_3 (bn_v40 a4)
/-- %42 -/
def bn_v42 (yv : FVec Ideal S8x256x128x128 .f32) (a3 a4 : FVec Ideal S256 .f32) : FVec Ideal S8x256x128x128 .f32 :=
  addf (bn_v39 yv a3) (bn_v41 a4)

/-! ## @relu on %42 -/

/-- @relu's %cst = 0.0 -/
def relu_cst : FVec Ideal S_ .f32 := constant (F := Ideal) S_ .f32 0x00000000#32
/-- @relu's %0 -/
def relu_v0 : FVec Ideal S8x256x128x128 .f32 := broadcastInDim S8x256x128x128 ![] bcast_S_S8x256x128x128 relu_cst
/-- @relu's %1, which is @main's %43. -/
def bn_v43 (yv : FVec Ideal S8x256x128x128 .f32) (a3 a4 : FVec Ideal S256 .f32) : FVec Ideal S8x256x128x128 .f32 :=
  maximumf (bn_v42 yv a3 a4) relu_v0

/-- The reference's result as a function of the value of %24 and the arguments %arg3, %arg4. -/
def bnTerm (yv : FVec Ideal S8x256x128x128 .f32) (a3 a4 : FVec Ideal S256 .f32) : FVec Ideal S8x256x128x128 .f32 :=
  bn_v43 yv a3 a4

end Cert.ReferenceIdeal.RefValue

end
-- ==== Proof.RefRun.lean ====
/- The reference program's run read back at the ideal instance: every weakly fair execution of @main terminates
   with the result buffer at the composed value — the batch normalisation of the per-pixel projection of the
   arguments' launch contents — and the five arguments unchanged. The list of operations is read in two parts,
   cut before the concatenation: the first part's fold at the concatenation's two operands, then the second
   part's fold at the result over any contents of those two buffers and of the arguments. -/
import proofs.«151587_j20340965114022_2_alg».proof.Proof.RefRunOps
import proofs.«151587_j20340965114022_2_alg».proof.Proof.RefPixDef
import proofs.«151587_j20340965114022_2_alg».proof.Proof.RefBNDef

noncomputable section

namespace Cert.ReferenceIdeal.RefRun

open Cert.ReferenceIdeal Cert.ReferenceIdeal.Gen Cert.ReferenceIdeal.RefValue Idealize.ShloMosaic Idealize.ShloMosaic.TcCoe Idealize.SL.Sem Idealize.ShloMosaic.StableHlo

/-! ## The first part: the two operands of the concatenation -/

set_option maxHeartbeats 400000 in
/-- After the first part the buffer of %8 holds the normalised pixel, transposed: each operation's result at its
    own buffer is its function of its operands' contents, at any other buffer what was there. -/
theorem pix_v8 (V : Valuation τ sig (Elt Ideal)) :
    after (ops1 (F := Ideal)) V (main_v8 : DevRef τ sig) = st_v8 (V (main_arg0 : DevRef τ sig)) := by
  after_results_simp
  rfl

set_option maxHeartbeats 400000 in
/-- After the first part the buffer of %21 holds the attention read. -/
theorem pix_v21 (V : Valuation τ sig (Elt Ideal)) :
    after (ops1 (F := Ideal)) V (main_v21 : DevRef τ sig)
      = st_v21 (V (main_arg0 : DevRef τ sig)) (V (main_arg1 : DevRef τ sig)) := by
  after_results_simp
  rfl

/-- The first part writes no argument. -/
theorem pix_arg2 (V : Valuation τ sig (Elt Ideal)) :
    after (ops1 (F := Ideal)) V (main_arg2 : DevRef τ sig) = V (main_arg2 : DevRef τ sig) := by after_results_simp
theorem pix_arg3 (V : Valuation τ sig (Elt Ideal)) :
    after (ops1 (F := Ideal)) V (main_arg3 : DevRef τ sig) = V (main_arg3 : DevRef τ sig) := by after_results_simp
theorem pix_arg4 (V : Valuation τ sig (Elt Ideal)) :
    after (ops1 (F := Ideal)) V (main_arg4 : DevRef τ sig) = V (main_arg4 : DevRef τ sig) := by after_results_simp

/-! ## The second part: from the concatenation to the result -/

/-- The projection from the two operands of the concatenation: the product with the weight, transposed back. -/
def catTerm (x8 x21 : FVec Ideal S8x128x128x256 .f32) (a2 : FVec Ideal S256x512 .f32) : FVec Ideal S8x256x128x128 .f32 :=
  transpose S8x256x128x128 [1, 0, 2, 3]
    (Host.dotGeneral (F := Ideal) dot_S256x512_S8x128x128x512_S256x8x128x128_1_3_0_012_n_n none a2
      (concatenate S8x128x128x512 3 [⟨S8x128x128x256, x8⟩, ⟨S8x128x128x256, x21⟩]
        concatenates_S8x128x128x256_S8x128x128x256_S8x128x128x512_d3))
    transposes_S256x8x128x128_S8x256x128x128_1_0_2_3

/-- The per-pixel value is that projection of its own stages %8 and %21: its last three stages unfolded. -/
theorem pixTerm_eq (a0 : FVec Ideal S8x256x128x128 .f32) (a1 : FVec Ideal S256x256 .f32) (a2 : FVec Ideal S256x512 .f32) :
    pixTerm a0 a1 a2 = catTerm (st_v8 a0) (st_v21 a0 a1) a2 := rfl

set_option maxHeartbeats 400000 in
/-- From any contents, after the second part the result buffer holds the batch normalisation of the projection of
    the contents of the two operands' buffers; the called functions' operations carry their values along the
    identity between a buffer's type and its value's. -/
theorem bn_out (W : Valuation τ sig (Elt Ideal)) :
    after (ops2 (F := Ideal)) W (main_v43 : DevRef τ sig)
      = bnTerm (catTerm (W (main_v8 : DevRef τ sig)) (W (main_v21 : DevRef τ sig)) (W (main_arg2 : DevRef τ sig)))
        (W (main_arg3 : DevRef τ sig)) (W (main_arg4 : DevRef τ sig)) := by
  after_results_simp
  rfl

/-! ## The whole list -/

/-- The fold at the result buffer is the composed value. -/
theorem out_eq (V : Valuation τ sig (Elt Ideal)) :
    after (ops (F := Ideal)) V (main_v43 : DevRef τ sig)
      = bnTerm (pixTerm (V (main_arg0 : DevRef τ sig)) (V (main_arg1 : DevRef τ sig)) (V (main_arg2 : DevRef τ sig)))
          (V (main_arg3 : DevRef τ sig)) (V (main_arg4 : DevRef τ sig)) := by
  rw [after_ops, bn_out, pix_v8, pix_v21, pix_arg2, pix_arg3, pix_arg4, pixTerm_eq]

/-- On the one device, from any memory with zero counters: every weakly fair execution of @main terminates with
    the result at the batch normalisation of the per-pixel projection of the arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43)
        = bnTerm (pixTerm (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v43).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_main m ρ)

end Cert.ReferenceIdeal.RefRun

end
-- ==== Proof.RefPixOps.lean ====
/-
  The reference's layout and contraction operations, each read at one index, over an arbitrary operand.

  Every lemma takes the operand as a variable of the literal array type and the index by its literal coordinates:
  a broadcast reads the operand at the kept coordinates (a unit axis at 0), a transpose at the permuted ones, a sum
  over one axis from the zero constant is the sum over that axis's coordinate, a maximum over the last axis from the
  constant -∞ is the fold of max from that constant, a product contracting one axis of each operand is the sum over
  the contracted coordinate, and a two-piece concatenation along the last axis reads the first piece below 256 and
  the second piece, 256 less, from there on.
-/
import proofs.«151587_j20340965114022_2_alg».proof.Proof.RefPixDef
import Idealize.ShloMosaic.PureOps.Ideal.Laws
import Idealize.ShloMosaic.Lib.ValueIdx
import Idealize.ShloMosaic.Lib.Pipeline.Value

noncomputable section

open scoped BigOperators

namespace Cert.ReferenceIdeal.RefValue

open Idealize.ShloMosaic Idealize.ShloMosaic.ValueIdx Cert.ReferenceIdeal
open Cert.ReferenceIdeal.Facts₀

variable [Cert.ReferenceIdeal.Facts]

/-- A scalar constant broadcast with no dimensions reads the constant's value everywhere. -/
theorem splat_read {t : Shape} (dims : Fin S_.rank → Fin t.rank) (hb : S_.BroadcastsInDim t dims) (bits : BitVec 32) (j : t.Idx) :
    broadcastInDim t dims hb (constant (F := Ideal) S_ .f32 bits) j = Ideal.ofBits .f32 bits := rfl

theorem bcast_0_2_3_read (x : FVec Ideal S8x128x128 .f32) (b : Fin 8) (u : Fin 1) (h w : Fin 128) :
    broadcastInDim S8x1x128x128 ![0, 2, 3] bcast_S8x128x128_S8x1x128x128_0_2_3 x (ix4 b u h w) = x (ix3 b h w) :=
  broadcastInDim_apply _ _ x _ (ix3 b h w) fun a => by
    match a with
    | ⟨0, _⟩ => rfl
    | ⟨1, _⟩ => rfl
    | ⟨2, _⟩ => rfl

theorem bcast_chan_read (x : FVec Ideal S8x1x128x128 .f32) (b : Fin 8) (c : Fin 256) (h w : Fin 128) :
    broadcastInDim S8x256x128x128 ![0, 1, 2, 3] bcast_S8x1x128x128_S8x256x128x128_0_1_2_3 x (ix4 b c h w) = x (ix4 b (0 : Fin 1) h w) :=
  broadcastInDim_apply _ _ x _ (ix4 b (0 : Fin 1) h w) fun a => by
    match a with
    | ⟨0, _⟩ => rfl
    | ⟨1, _⟩ => rfl
    | ⟨2, _⟩ => rfl
    | ⟨3, _⟩ => rfl

theorem bcast_0_1_2_read (x : FVec Ideal S8x128x128 .f32) (b : Fin 8) (h w : Fin 128) (u : Fin 1) :
    broadcastInDim S8x128x128x1 ![0, 1, 2] bcast_S8x128x128_S8x128x128x1_0_1_2 x (ix4 b h w u) = x (ix3 b h w) :=
  broadcastInDim_apply _ _ x _ (ix3 b h w) fun a => by
    match a with
    | ⟨0, _⟩ => rfl
    | ⟨1, _⟩ => rfl
    | ⟨2, _⟩ => rfl

theorem bcast_last_read (x : FVec Ideal S8x128x128x1 .f32) (b : Fin 8) (h w : Fin 128) (r : Fin 256) :
    broadcastInDim S8x128x128x256 ![0, 1, 2, 3] bcast_S8x128x128x1_S8x128x128x256_0_1_2_3 x (ix4 b h w r) = x (ix4 b h w (0 : Fin 1)) :=
  broadcastInDim_apply _ _ x _ (ix4 b h w (0 : Fin 1)) fun a => by
    match a with
    | ⟨0, _⟩ => rfl
    | ⟨1, _⟩ => rfl
    | ⟨2, _⟩ => rfl
    | ⟨3, _⟩ => rfl

theorem transpose_0231_read (x : FVec Ideal S8x256x128x128 .f32) (b : Fin 8) (h w : Fin 128) (c : Fin 256) :
    transpose S8x128x128x256 [0, 2, 3, 1] x transposes_S8x256x128x128_S8x128x128x256_0_2_3_1 (ix4 b h w c) = x (ix4 b c h w) :=
  transpose_apply _ x _ _ (ix4 b c h w) fun a => by
    match a with
    | ⟨0, _⟩ => rfl
    | ⟨1, _⟩ => rfl
    | ⟨2, _⟩ => rfl
    | ⟨3, _⟩ => rfl

theorem transpose_1023_read (x : FVec Ideal S256x8x128x128 .f32) (b : Fin 8) (o : Fin 256) (h w : Fin 128) :
    transpose S8x256x128x128 [1, 0, 2, 3] x transposes_S256x8x128x128_S8x256x128x128_1_0_2_3 (ix4 b o h w) = x (ix4 o b h w) :=
  transpose_apply _ x _ _ (ix4 o b h w) fun a => by
    match a with
    | ⟨0, _⟩ => rfl
    | ⟨1, _⟩ => rfl
    | ⟨2, _⟩ => rfl
    | ⟨3, _⟩ => rfl

theorem red_chan : S8x256x128x128.Reduces [1] S8x128x128 := by decide
theorem red_last : S8x128x128x256.Reduces [3] S8x128x128 := by decide

/-- The host's sum over the channel axis from the zero constant, read at a pixel. -/
theorem reduceAdd_chan_read (x : FVec Ideal S8x256x128x128 .f32) (b : Fin 8) (h w : Fin 128) :
    Host.reduceAdd (F := Ideal) x (constant (F := Ideal) S_ .f32 0x00000000#32) reducesTo_S8x256x128x128_S8x128x128_d1 h_S_ (ix3 b h w)
      = ∑ c : Fin 256, x (ix4 b c h w) := by
  refine (Ideal.hostReduceAdd_single reducesTo_S8x256x128x128_S8x128x128_d1 red_chan x _ (ix3 b h w)).trans ?_
  rw [show (constant (F := Ideal) S_ .f32 0x00000000#32 (Shape.Idx.first h_S_)) = Ideal.ofBits .f32 0x00000000#32 from rfl,
    Ideal.ofBits_zero_f32, zero_add]
  refine Finset.sum_congr rfl fun c _ => congrArg x (funext fun a => Fin.ext ?_)
  match a with
  | ⟨0, _⟩ => rfl
  | ⟨1, _⟩ => rfl
  | ⟨2, _⟩ => rfl
  | ⟨3, _⟩ => rfl

theorem reduceAdd_last_read (x : FVec Ideal S8x128x128x256 .f32) (b : Fin 8) (h w : Fin 128) :
    Host.reduceAdd (F := Ideal) x (constant (F := Ideal) S_ .f32 0x00000000#32) reducesTo_S8x128x128x256_S8x128x128_d3 h_S_ (ix3 b h w)
      = ∑ r : Fin 256, x (ix4 b h w r) := by
  refine (Ideal.hostReduceAdd_single reducesTo_S8x128x128x256_S8x128x128_d3 red_last x _ (ix3 b h w)).trans ?_
  rw [show (constant (F := Ideal) S_ .f32 0x00000000#32 (Shape.Idx.first h_S_)) = Ideal.ofBits .f32 0x00000000#32 from rfl,
    Ideal.ofBits_zero_f32, zero_add]
  refine Finset.sum_congr rfl fun c _ => congrArg x (funext fun a => Fin.ext ?_)
  match a with
  | ⟨0, _⟩ => rfl
  | ⟨1, _⟩ => rfl
  | ⟨2, _⟩ => rfl
  | ⟨3, _⟩ => rfl

theorem reduceMax_last_read (x : FVec Ideal S8x128x128x256 .f32) (b : Fin 8) (h w : Fin 128) :
    Host.reduce (FloatOps.maximumf (F := Ideal) (φ := .f32)) x (constant (F := Ideal) S_ .f32 0xFF800000#32)
        reducesTo_S8x128x128x256_S8x128x128_d3 h_S_ (ix3 b h w)
      = (Finset.univ : Finset (Fin 256)).fold max (Ideal.ofBits .f32 0xFF800000#32) (fun r => x (ix4 b h w r)) := by
  refine (Host.reduce_eq_fold_single (FloatOps.maximumf (F := Ideal) (φ := .f32)) x _ reducesTo_S8x128x128x256_S8x128x128_d3 red_last h_S_ (ix3 b h w)).trans ?_
  refine congrArg (Finset.fold max (Ideal.ofBits .f32 0xFF800000#32) · (Finset.univ : Finset (Fin 256))) (funext fun r => ?_)
  refine congrArg x (funext fun a => Fin.ext ?_)
  match a with
  | ⟨0, _⟩ => rfl
  | ⟨1, _⟩ => rfl
  | ⟨2, _⟩ => rfl
  | ⟨3, _⟩ => rfl

abbrev D9 := dot_S8x128x128x256_S256x256_S8x128x128x256_3_1_012_0_n_n
abbrev D21 := dot_S8x128x128x256_S256x256_S8x128x128x256_3_0_012_1_n_n
abbrev D23 := dot_S256x512_S8x128x128x512_S256x8x128x128_1_3_0_012_n_n

/-- The cue product: the pixel's row against a bank row, both contracted on their last axis. -/
theorem dot9_read (l : FVec Ideal S8x128x128x256 .f32) (r : FVec Ideal S256x256 .f32) (b : Fin 8) (h w : Fin 128) (q : Fin 256) :
    Host.dotGeneral (F := Ideal) D9 none l r (ix4 b h w q) = ∑ c : Fin 256, l (ix4 b h w c) * r (ix2 q c) := by
  refine (Ideal.dotGeneral_apply D9 none .single l r (ix4 b h w q)).trans ?_
  rw [← Equiv.sum_comp (contrEquiv1 D9 256 rfl rfl).symm]
  refine Finset.sum_congr rfl fun k _ => ?_
  have hk := contrEquiv1_symm_val D9 256 rfl rfl k
  have el : D9.lhsIdx (ix4 b h w q) ((contrEquiv1 D9 256 rfl rfl).symm k) = ix4 b h w k := funext fun ax => Fin.ext (by
    match ax with
    | ⟨0, _⟩ => rfl
    | ⟨1, _⟩ => rfl
    | ⟨2, _⟩ => rfl
    | ⟨3, _⟩ => exact (D9.lhsIdx_val_of_single rfl _ _).trans hk)
  have er : D9.rhsIdx (ix4 b h w q) ((contrEquiv1 D9 256 rfl rfl).symm k) = ix2 q k := funext fun ax => Fin.ext (by
    match ax with
    | ⟨0, _⟩ => rfl
    | ⟨1, _⟩ => exact (D9.rhsIdx_val_of_single rfl _ _).trans hk)
  rw [el, er]

/-- The read product: the attention row against the bank's column, contracting the left operand's last axis with
    the bank's first. -/
theorem dot21_read (l : FVec Ideal S8x128x128x256 .f32) (r : FVec Ideal S256x256 .f32) (b : Fin 8) (h w : Fin 128) (q : Fin 256) :
    Host.dotGeneral (F := Ideal) D21 none l r (ix4 b h w q) = ∑ c : Fin 256, l (ix4 b h w c) * r (ix2 c q) := by
  refine (Ideal.dotGeneral_apply D21 none .single l r (ix4 b h w q)).trans ?_
  rw [← Equiv.sum_comp (contrEquiv1 D21 256 rfl rfl).symm]
  refine Finset.sum_congr rfl fun k _ => ?_
  have hk := contrEquiv1_symm_val D21 256 rfl rfl k
  have el : D21.lhsIdx (ix4 b h w q) ((contrEquiv1 D21 256 rfl rfl).symm k) = ix4 b h w k := funext fun ax => Fin.ext (by
    match ax with
    | ⟨0, _⟩ => rfl
    | ⟨1, _⟩ => rfl
    | ⟨2, _⟩ => rfl
    | ⟨3, _⟩ => exact (D21.lhsIdx_val_of_single rfl _ _).trans hk)
  have er : D21.rhsIdx (ix4 b h w q) ((contrEquiv1 D21 256 rfl rfl).symm k) = ix2 k q := funext fun ax => Fin.ext (by
    match ax with
    | ⟨0, _⟩ => exact (D21.rhsIdx_val_of_single rfl _ _).trans hk
    | ⟨1, _⟩ => rfl)
  rw [el, er]

/-- The projection: a weight row against the concatenated pixel, contracting the weight's last axis with the
    pixel array's last. -/
theorem dot23_read (l : FVec Ideal S256x512 .f32) (r : FVec Ideal S8x128x128x512 .f32) (o : Fin 256) (b : Fin 8) (h w : Fin 128) :
    Host.dotGeneral (F := Ideal) D23 none l r (ix4 o b h w) = ∑ k : Fin 512, l (ix2 o k) * r (ix4 b h w k) := by
  refine (Ideal.dotGeneral_apply D23 none .single l r (ix4 o b h w)).trans ?_
  rw [← Equiv.sum_comp (contrEquiv1 D23 512 rfl rfl).symm]
  refine Finset.sum_congr rfl fun k _ => ?_
  have hk := contrEquiv1_symm_val D23 512 rfl rfl k
  have el : D23.lhsIdx (ix4 o b h w) ((contrEquiv1 D23 512 rfl rfl).symm k) = ix2 o k := funext fun ax => Fin.ext (by
    match ax with
    | ⟨0, _⟩ => rfl
    | ⟨1, _⟩ => exact (D23.lhsIdx_val_of_single rfl _ _).trans hk)
  have er : D23.rhsIdx (ix4 o b h w) ((contrEquiv1 D23 512 rfl rfl).symm k) = ix4 b h w k := funext fun ax => Fin.ext (by
    match ax with
    | ⟨0, _⟩ => rfl
    | ⟨1, _⟩ => rfl
    | ⟨2, _⟩ => rfl
    | ⟨3, _⟩ => exact (D23.rhsIdx_val_of_single rfl _ _).trans hk)
  rw [el, er]

/-- The concatenation of two [8,128,128,256] arrays along the last axis, read at a position of the 512. -/
theorem concat_read (x₁ x₂ : FVec Ideal S8x128x128x256 .f32) (b : Fin 8) (h w : Fin 128) (k : Fin 512) :
    concatenate S8x128x128x512 3 [⟨S8x128x128x256, x₁⟩, ⟨S8x128x128x256, x₂⟩]
        concatenates_S8x128x128x256_S8x128x128x256_S8x128x128x512_d3 (ix4 b h w k)
      = if hk : k.val < 256 then x₁ (ix4 b h w (⟨k.val, hk⟩ : Fin 256))
        else x₂ (ix4 b h w (⟨k.val - 256, by have := k.isLt; omega⟩ : Fin 256)) := by
  by_cases hk : k.val < 256
  · rw [dif_pos hk]
    exact concatenate_pair_apply_left (3 : Fin 4) x₁ x₂ _ (ix4 b h w k) rfl (ix4 b h w (⟨k.val, hk⟩ : Fin 256)) fun a => by
      match a with
      | ⟨0, _⟩ => rfl
      | ⟨1, _⟩ => rfl
      | ⟨2, _⟩ => rfl
      | ⟨3, _⟩ => rfl
  · rw [dif_neg hk]
    exact concatenate_pair_apply_right (3 : Fin 4) x₁ x₂ _ (ix4 b h w k) rfl rfl
      (ix4 b h w (⟨k.val - 256, by have := k.isLt; omega⟩ : Fin 256))
      (fun a ha => by
        match a with
        | ⟨0, _⟩ => rfl
        | ⟨1, _⟩ => rfl
        | ⟨2, _⟩ => rfl
        | ⟨3, _⟩ => exact absurd rfl ha)
      (by show k.val - 256 + 256 = k.val; omega)

end Cert.ReferenceIdeal.RefValue

end
-- ==== Proof.Consts.lean ====
/-
  The four float literals of Spec.lean as extended reals: 131072 = 2¹⁷ (the number of pixels per channel), −∞ (the
  neutral element of the row maximum), and the two positive epsilons (their exact dyadic values do not matter, only
  that they are positive reals).
-/
import proofs.«151587_j20340965114022_2_alg».proof.Proof.Spec

noncomputable section

namespace Cert.Spec

open Idealize.ShloMosaic

theorem cntN_eq : cntN = ((131072 : ℝ) : EReal) := by
  simp [cntN, Ideal.ofBits, Ideal.ieee, -EReal.coe_mul]; norm_num

theorem ninf_eq : ninf = ⊥ := by
  simp [ninf, Ideal.ofBits, Ideal.ieee]

theorem eps1_pos : ∃ r : ℝ, 0 < r ∧ eps1 = (r : EReal) := by
  refine ⟨(9223372 : ℝ) / 2 ^ 63, by positivity, ?_⟩
  simp [eps1, Ideal.ofBits, Ideal.ieee, -EReal.coe_mul]; norm_num

theorem eps2_pos : ∃ r : ℝ, 0 < r ∧ eps2 = (r : EReal) := by
  refine ⟨(10995116 : ℝ) / 2 ^ 40, by positivity, ?_⟩
  simp [eps2, Ideal.ofBits, Ideal.ieee, -EReal.coe_mul]; norm_num

end Cert.Spec

end
-- ==== Proof.RefPix.lean ====
/-
  The reference's per-pixel half read at an index: the value of the reference's %24 at (b, o, h, w) is the
  specification's projected pixel Yr at pixel (b, h, w) and output channel o.

  One lemma per stage of the term, in the term's order: the sum of squares, the norm, the normalised pixel, its
  transpose, the cue, the row maximum (the maximum with the -∞ splat changes nothing), the exponentials, their sum,
  the attention weights, the read, the concatenation and the projection. No finiteness is used: every step reads an
  operation at an index.
-/
import proofs.«151587_j20340965114022_2_alg».proof.Proof.RefPixOps
import proofs.«151587_j20340965114022_2_alg».proof.Proof.Spec
import proofs.«151587_j20340965114022_2_alg».proof.Proof.Consts

noncomputable section

open scoped BigOperators

namespace Cert.ReferenceIdeal.RefValue

open Idealize.ShloMosaic Idealize.ShloMosaic.ValueIdx Cert.ReferenceIdeal
open Cert.ReferenceIdeal.Facts₀
open Cert.Spec (pix bank ssP nrmP qnP cueP mxP exP smP attP rdP catP YrP Yr eps1 ninf)

variable [Cert.ReferenceIdeal.Facts]

section Stages
variable (a0 : FVec Ideal S8x256x128x128 .f32) (a1 : FVec Ideal S256x256 .f32) (a2 : FVec Ideal S256x512 .f32)
  (b : Fin 8) (h w : Fin 128)

/-- %1: the sum of the pixel's squares. -/
theorem st_v1_apply : st_v1 a0 (ix3 b h w) = ssP (pix a0 b h w) := by
  unfold st_v1 st_cst
  exact reduceAdd_chan_read (st_v0 a0) b h w

/-- %5: the pixel's norm, bounded below by the first epsilon. -/
theorem st_v5_apply (u : Fin 1) : st_v5 a0 (ix4 b u h w) = nrmP (pix a0 b h w) := by
  have e2 : st_v2 a0 (ix4 b u h w) = ssP (pix a0 b h w) := by
    unfold st_v2
    exact (bcast_0_2_3_read (st_v1 a0) b u h w).trans (st_v1_apply a0 b h w)
  show max (Ideal.sqrt (st_v2 a0 (ix4 b u h w))) (st_v4 (ix4 b u h w)) = nrmP (pix a0 b h w)
  rw [e2]
  rfl

/-- %7: the normalised pixel, in the argument's layout. -/
theorem st_v7_apply (c : Fin 256) : st_v7 a0 (ix4 b c h w) = qnP (pix a0 b h w) c := by
  have e6 : st_v6 a0 (ix4 b c h w) = nrmP (pix a0 b h w) := by
    unfold st_v6
    exact (bcast_chan_read (st_v5 a0) b c h w).trans (st_v5_apply a0 b h w 0)
  show Ideal.div (a0 (ix4 b c h w)) (st_v6 a0 (ix4 b c h w)) = qnP (pix a0 b h w) c
  rw [e6]
  rfl

/-- %8: the normalised pixel, channels last. -/
theorem st_v8_apply (c : Fin 256) : st_v8 a0 (ix4 b h w c) = qnP (pix a0 b h w) c := by
  unfold st_v8
  exact (transpose_0231_read (st_v7 a0) b h w c).trans (st_v7_apply a0 b h w c)

/-- %9: the cue of bank row r. -/
theorem st_v9_apply (r : Fin 256) : st_v9 a0 a1 (ix4 b h w r) = cueP (pix a0 b h w) (bank a1) r := by
  unfold st_v9
  refine (dot9_read (st_v8 a0) a1 b h w r).trans ?_
  exact Finset.sum_congr rfl fun c _ => by rw [st_v8_apply]; rfl

/-- %10: the row maximum of the cues. -/
theorem st_v10_apply : st_v10 a0 a1 (ix3 b h w) = mxP (pix a0 b h w) (bank a1) := by
  unfold st_v10 st_cst_1
  refine (reduceMax_last_read (st_v9 a0 a1) b h w).trans ?_
  exact congrArg (Finset.fold max ninf · (Finset.univ : Finset (Fin 256))) (funext fun r => st_v9_apply a0 a1 b h w r)

/-- %11: the -∞ splat. -/
theorem st_v11_apply (j : S8x128x128.Idx) : st_v11 j = ninf := by
  unfold st_v11 st_cst_2
  exact splat_read _ _ _ j

/-- %12: the maximum with the -∞ splat is the row maximum. -/
theorem st_v12_apply : st_v12 a0 a1 (ix3 b h w) = mxP (pix a0 b h w) (bank a1) := by
  unfold st_v12
  refine (maximumf_apply st_v11 (st_v10 a0 a1) (ix3 b h w)).trans ?_
  rw [st_v10_apply, st_v11_apply, Cert.Spec.ninf_eq]
  exact max_eq_right bot_le

/-- %14: the row maximum at every bank row. -/
theorem st_v14_apply (r : Fin 256) : st_v14 a0 a1 (ix4 b h w r) = mxP (pix a0 b h w) (bank a1) := by
  unfold st_v14
  refine (bcast_last_read (st_v13 a0 a1) b h w r).trans ?_
  unfold st_v13
  exact (bcast_0_1_2_read (st_v12 a0 a1) b h w 0).trans (st_v12_apply a0 a1 b h w)

/-- %16: the exponential of the shifted cue. -/
theorem st_v16_apply (r : Fin 256) : st_v16 a0 a1 (ix4 b h w r) = exP (pix a0 b h w) (bank a1) r := by
  show Ideal.exp (st_v9 a0 a1 (ix4 b h w r) - st_v14 a0 a1 (ix4 b h w r)) = exP (pix a0 b h w) (bank a1) r
  rw [st_v9_apply, st_v14_apply]
  rfl

/-- %17: the sum of the exponentials. -/
theorem st_v17_apply : st_v17 a0 a1 (ix3 b h w) = smP (pix a0 b h w) (bank a1) := by
  unfold st_v17 st_cst_3
  refine (reduceAdd_last_read (st_v16 a0 a1) b h w).trans ?_
  exact Finset.sum_congr rfl fun r _ => st_v16_apply a0 a1 b h w r

/-- %19: that sum at every bank row. -/
theorem st_v19_apply (r : Fin 256) : st_v19 a0 a1 (ix4 b h w r) = smP (pix a0 b h w) (bank a1) := by
  unfold st_v19
  refine (bcast_last_read (st_v18 a0 a1) b h w r).trans ?_
  unfold st_v18
  exact (bcast_0_1_2_read (st_v17 a0 a1) b h w 0).trans (st_v17_apply a0 a1 b h w)

/-- %20: the attention weight of bank row r. -/
theorem st_v20_apply (r : Fin 256) : st_v20 a0 a1 (ix4 b h w r) = attP (pix a0 b h w) (bank a1) r := by
  show Ideal.div (st_v16 a0 a1 (ix4 b h w r)) (st_v19 a0 a1 (ix4 b h w r)) = attP (pix a0 b h w) (bank a1) r
  rw [st_v16_apply, st_v19_apply]
  rfl

/-- %21: the read from the bank at channel c. -/
theorem st_v21_apply (c : Fin 256) : st_v21 a0 a1 (ix4 b h w c) = rdP (pix a0 b h w) (bank a1) c := by
  unfold st_v21
  refine (dot21_read (st_v20 a0 a1) a1 b h w c).trans ?_
  exact Finset.sum_congr rfl fun r _ => by rw [st_v20_apply]; rfl

/-- %22: the concatenation of the normalised pixel and the read. -/
theorem st_v22_apply (k : Fin 512) : st_v22 a0 a1 (ix4 b h w k) = catP (pix a0 b h w) (bank a1) k := by
  unfold st_v22
  refine (concat_read (st_v8 a0) (st_v21 a0 a1) b h w k).trans ?_
  unfold Cert.Spec.catP
  by_cases hk : k.val < 256
  · rw [dif_pos hk, dif_pos hk]; exact st_v8_apply a0 b h w _
  · rw [dif_neg hk, dif_neg hk]; exact st_v21_apply a0 a1 b h w _

/-- %23: the projection onto output channel o. -/
theorem st_v23_apply (o : Fin 256) : st_v23 a0 a1 a2 (ix4 o b h w) = Yr a0 a1 a2 b h w o := by
  unfold st_v23
  refine (dot23_read a2 (st_v22 a0 a1) o b h w).trans ?_
  show _ = ∑ k : Fin 512, a2 (ix2 o k) * catP (pix a0 b h w) (bank a1) k
  exact Finset.sum_congr rfl fun k _ => by rw [st_v22_apply]

end Stages

/-- The reference's %24 at (b, o, h, w) is the specification's projected pixel. -/
theorem pixTerm_apply (a0 : FVec Ideal S8x256x128x128 .f32) (a1 : FVec Ideal S256x256 .f32) (a2 : FVec Ideal S256x512 .f32)
    (b : Fin 8) (o : Fin 256) (h w : Fin 128) :
    pixTerm a0 a1 a2 (Idealize.ShloMosaic.ValueIdx.ix4 b o h w) = Cert.Spec.Yr a0 a1 a2 b h w o := by
  unfold pixTerm st_v24
  exact (transpose_1023_read (st_v23 a0 a1 a2) b o h w).trans (st_v23_apply a0 a1 a2 b h w o)

end Cert.ReferenceIdeal.RefValue

end
-- ==== Proof.LibReduce023.lean ====
/-
  The host's sum over the axes [0, 2, 3] of an [8, 256, 128, 128] array into [256], read at an index.

  At the ideal instance a float `stablehlo.reduce` with an add body is, at each result index j, the initial value plus
  the sum of the operand over the set of source indices that drop to j. For the axes [0, 2, 3] of a rank-4 array the
  kept axis is axis 1, so the indices that drop to (o) are exactly the (b, o, h, w), and the sum over that set is the
  triple sum over b, h and w. The set is re-indexed through the product of the four coordinate ranges: the sum over a
  filtered set is the sum of an `if` over every index, every index is `ix4` of its coordinates, and the `if` on the
  second coordinate picks the one value o.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.LibReduce023

open Idealize.ShloMosaic Idealize.ShloMosaic.ValueIdx

/-- A rank-4 index set of these extents is the product of its four coordinate ranges … -/
def idxEquiv4 : (⟨4, ![8, 256, 128, 128]⟩ : Shape).Idx ≃ Fin 8 × Fin 256 × Fin 128 × Fin 128 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] (f : (⟨4, ![8, 256, 128, 128]⟩ : Shape).Idx → M) :
    ∑ i, f i = ∑ b : Fin 8, ∑ c : Fin 256, ∑ h : Fin 128, ∑ w : Fin 128, f (ix4 b c h w) := by
  rw [← Equiv.sum_comp idxEquiv4.symm f, Fintype.sum_prod_type]
  refine Finset.sum_congr rfl fun b _ => ?_
  rw [Fintype.sum_prod_type]
  refine Finset.sum_congr rfl fun c _ => ?_
  rw [Fintype.sum_prod_type]
  rfl

/-- Dropping the axes [0, 2, 3] of (b, c, h, w) leaves (c): it is (o) exactly when c = o. -/
theorem drop_ix4_eq_iff (hr : (⟨4, ![8, 256, 128, 128]⟩ : Shape).ReducesTo [0, 2, 3] ⟨1, ![256]⟩)
    (b : Fin 8) (c o : Fin 256) (h w : Fin 128) : hr.drop (ix4 b c h w) = ix1 o ↔ c = o := by
  have hv : ((hr.drop (ix4 b c h w) 0 : Fin 256) : Nat) = c.val :=
    Shape.ReducesTo.drop_apply_val_of_eq hr (ix4 b c h w) 0 1
  constructor
  · intro e
    have e0 : ((hr.drop (ix4 b c h w) 0 : Fin 256) : Nat) = ((ix1 o : (⟨1, ![256]⟩ : Shape).Idx) 0 : Fin 256).val :=
      congrArg (fun (j : (⟨1, ![256]⟩ : Shape).Idx) => ((j 0 : Fin 256) : Nat)) e
    exact Fin.ext (hv.symm.trans e0)
  · intro e
    subst e
    funext a
    match a with
    | ⟨0, _⟩ => exact Fin.ext hv

/-- THE SUM READ AT (o): the initial value plus the triple sum over b, h, w of the operand at (b, o, h, w). -/
theorem hostReduceAdd_023 (hr : (⟨4, ![8, 256, 128, 128]⟩ : Shape).ReducesTo [0, 2, 3] ⟨1, ![256]⟩)
    (x : (⟨4, ![8, 256, 128, 128]⟩ : Shape).Idx → EReal) (init : EReal) (o : Fin 256) :
    Ideal.hostReduceAdd hr x init (ix1 o) = init + ∑ b : Fin 8, ∑ h : Fin 128, ∑ w : Fin 128, x (ix4 b o h w) := by
  unfold Ideal.hostReduceAdd
  congr 1
  rw [Finset.sum_filter, sum_idx4]
  refine Finset.sum_congr rfl fun b _ => ?_
  have hc : ∀ c : Fin 256, (∑ h : Fin 128, ∑ w : Fin 128,
        (if hr.drop (ix4 b c h w) = ix1 o then x (ix4 b c h w) else 0))
      = if c = o then ∑ h : Fin 128, ∑ w : Fin 128, x (ix4 b c h w) else 0 := by
    intro c
    by_cases hco : c = o
    · rw [if_pos hco]
      refine Finset.sum_congr rfl fun h _ => Finset.sum_congr rfl fun w _ => ?_
      rw [if_pos ((drop_ix4_eq_iff hr b c o h w).2 hco)]
    · rw [if_neg hco]
      refine Finset.sum_eq_zero fun h _ => Finset.sum_eq_zero fun w _ => ?_
      rw [if_neg (fun e => hco ((drop_ix4_eq_iff hr b c o h w).1 e))]
  rw [Finset.sum_congr rfl fun c _ => hc c, Finset.sum_ite_eq' Finset.univ o, if_pos (Finset.mem_univ o)]

/-- The host operation as a program prints it, from the zero constant: the triple sum. -/
theorem reduceAdd_zero_023 (hr : (⟨4, ![8, 256, 128, 128]⟩ : Shape).ReducesTo [0, 2, 3] ⟨1, ![256]⟩)
    (hu : 0 < (⟨0, ![]⟩ : Shape).numel) (x : FVec Ideal ⟨4, ![8, 256, 128, 128]⟩ .f32) (o : Fin 256) :
    Host.reduceAdd (F := Ideal) x (constant (F := Ideal) ⟨0, ![]⟩ .f32 0x00000000#32) hr hu (ix1 o)
      = ∑ b : Fin 8, ∑ h : Fin 128, ∑ w : Fin 128, x (ix4 b o h w) := by
  show Ideal.hostReduceAdd hr x (Ideal.ofBits .f32 0x00000000#32) (ix1 o) = _
  rw [hostReduceAdd_023, Ideal.ofBits_zero_f32, zero_add]

end Cert.LibReduce023

end
-- ==== Proof.RefBN.lean ====
/-
  The reference's batch-norm half read at an index: the value of the composition `bnTerm` at (b, o, h, w) is the
  specification's `outr` of the incoming array, the scale and the shift.

  Layout: a [256] array broadcast to [1, 256, 1, 1] along axis 1 reads its entry o; a [1, 256, 1, 1] array broadcast to
  [8, 256, 128, 128] reads its entry (0, o, 0, 0); a scalar broadcast to any shape reads its one entry.
  Sums: the host's sum over the axes [0, 2, 3] from the zero constant is the triple sum over b, h, w (LibReduce023).
  Inside the variance function three small evaluations: the integer 0 converts to the real 0, the count 131072 less 0 is
  the count, and the count is greater than 0, so the select reads its first branch (the quotient) at every index and
  the not-a-number branch is never read.
-/
import proofs.«151587_j20340965114022_2_alg».proof.Proof.RefBNDef
import proofs.«151587_j20340965114022_2_alg».proof.Proof.Spec
import proofs.«151587_j20340965114022_2_alg».proof.Proof.Consts
import proofs.«151587_j20340965114022_2_alg».proof.Proof.LibReduce023
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Facts₀

variable [Cert.ReferenceIdeal.Facts]

/-! ## Layout operations read at an index -/

/-- A [256] array broadcast to [1, 256, 1, 1] along axis 1, read at (u, o, v, w), is the operand at (o). -/
theorem bcast_c_apply {α : Type} (x : S256.Idx → α) (u : Fin 1) (o : Fin 256) (v w : Fin 1) :
    broadcastInDim S1x256x1x1 ![1] bcast_S256_S1x256x1x1_1 x (ix4 u o v w) = x (ix1 o) :=
  broadcastInDim_apply _ _ x _ (ix1 o) fun a => match a with
    | ⟨0, _⟩ => by
      show o.val = if (256 : Nat) = 1 then 0 else o.val
      rw [if_neg (by decide)]

/-- A [1, 256, 1, 1] array broadcast to [8, 256, 128, 128], read at (b, o, h, w), is the operand at (0, o, 0, 0). -/
theorem bcast_full_apply {α : Type} (x : S1x256x1x1.Idx → α) (b : Fin 8) (o : Fin 256) (h w : Fin 128) :
    broadcastInDim S8x256x128x128 ![0, 1, 2, 3] bcast_S1x256x1x1_S8x256x128x128_0_1_2_3 x (ix4 b o h w)
      = x (ix4 (0 : Fin 1) o (0 : Fin 1) (0 : Fin 1)) :=
  broadcastInDim_apply _ _ x _ (ix4 (0 : Fin 1) o (0 : Fin 1) (0 : Fin 1)) fun a => match a with
    | ⟨0, _⟩ => by
      show (0 : Nat) = if (1 : Nat) = 1 then 0 else b.val
      rw [if_pos rfl]
    | ⟨1, _⟩ => by
      show o.val = if (256 : Nat) = 1 then 0 else o.val
      rw [if_neg (by decide)]
    | ⟨2, _⟩ => by
      show (0 : Nat) = if (1 : Nat) = 1 then 0 else h.val
      rw [if_pos rfl]
    | ⟨3, _⟩ => by
      show (0 : Nat) = if (1 : Nat) = 1 then 0 else w.val
      rw [if_pos rfl]

/-- A scalar broadcast to any shape reads its one entry. -/
theorem splat_apply {α : Type} {t : Shape} (hb : S_.BroadcastsInDim t (![] : Fin 0 → Fin t.rank)) (c : S_.Idx → α)
    (j : t.Idx) : broadcastInDim t ![] hb c j = c ix0 :=
  broadcastInDim_apply _ hb c j ix0 fun a => a.elim0

/-- A quotient of a [256] array broadcast along axis 1 by a broadcast scalar, read at (u, o, v, w). -/
theorem div_bcast_apply (s : FVec Ideal S256 .f32) (c : FVec Ideal S_ .f32) (u : Fin 1) (o : Fin 256) (v w : Fin 1) :
    Host.divf (F := Ideal) (broadcastInDim S1x256x1x1 ![1] bcast_S256_S1x256x1x1_1 s)
        (broadcastInDim S1x256x1x1 ![] bcast_S_S1x256x1x1 c) (ix4 u o v w)
      = Ideal.div (s (ix1 o)) (c ix0) := by
  show Ideal.div (broadcastInDim S1x256x1x1 ![1] bcast_S256_S1x256x1x1_1 s (ix4 u o v w))
      (broadcastInDim S1x256x1x1 ![] bcast_S_S1x256x1x1 c (ix4 u o v w)) = _
  rw [bcast_c_apply, splat_apply]

/-- The host's sum over the axes [0, 2, 3] from the zero constant, read at (o). -/
theorem sum023_apply (x : FVec Ideal S8x256x128x128 .f32) (o : Fin 256) :
    Host.reduceAdd (F := Ideal) x (constant (F := Ideal) S_ .f32 0x00000000#32) reducesTo_S8x256x128x128_S256_d0_2_3 h_S_
        (ix1 o)
      = ∑ b : Fin 8, ∑ h : Fin 128, ∑ w : Fin 128, x (ix4 b o h w) :=
  Cert.LibReduce023.reduceAdd_zero_023 _ _ x o

/-! ## The stages -/

/-- The incoming array by coordinates, channel last, as the specification takes it. -/
abbrev Yof (yv : FVec Ideal S8x256x128x128 .f32) : Fin 8 → Fin 128 → Fin 128 → Fin 256 → EReal :=
  fun b h w o => yv (ix4 b o h w)

variable (yv : FVec Ideal S8x256x128x128 .f32) (a3 a4 : FVec Ideal S256 .f32)

theorem bn_v25_apply (o : Fin 256) : bn_v25 yv (ix1 o) = Cert.Spec.S1r (Yof yv) o := by
  unfold bn_v25 bn_cst_4
  exact sum023_apply yv o

theorem bn_v28_apply (u : Fin 1) (o : Fin 256) (v w : Fin 1) :
    bn_v28 yv (ix4 u o v w) = Cert.Spec.meanr (Yof yv) o := by
  unfold bn_v28 bn_v26 bn_v27
  rw [div_bcast_apply, bn_v25_apply]
  rfl

theorem var_v0_apply (o : Fin 256) : var_v0 yv (ix1 o) = Cert.Spec.S1r (Yof yv) o := by
  unfold var_v0 var_cst
  exact sum023_apply yv o

theorem var_v3_apply (u : Fin 1) (o : Fin 256) (v w : Fin 1) :
    var_v3 yv (ix4 u o v w) = Cert.Spec.meanr (Yof yv) o := by
  unfold var_v3 var_v1 var_v2
  rw [div_bcast_apply, var_v0_apply]
  rfl

theorem var_v5_apply (b : Fin 8) (o : Fin 256) (h w : Fin 128) :
    var_v5 yv (ix4 b o h w) = Cert.Spec.devr (Yof yv) b h w o := by
  show yv (ix4 b o h w) - var_v4 yv (ix4 b o h w) = _
  unfold var_v4
  rw [bcast_full_apply, var_v3_apply]
  rfl

theorem var_v6_apply (b : Fin 8) (o : Fin 256) (h w : Fin 128) :
    var_v6 yv (ix4 b o h w) = Cert.Spec.devr (Yof yv) b h w o * Cert.Spec.devr (Yof yv) b h w o := by
  show var_v5 yv (ix4 b o h w) * var_v5 yv (ix4 b o h w) = _
  rw [var_v5_apply]

/-- The integer constant 0 converts to the real 0. -/
theorem var_v7_apply (j : S_.Idx) : var_v7 j = 0 := by
  show ((((0#32 : BitVec 32).toInt : ℤ) : ℝ) : EReal) = 0
  rw [show (0#32 : BitVec 32).toInt = 0 by decide, Int.cast_zero, EReal.coe_zero]

/-- The count less the correction 0 is the count. -/
theorem var_v8_apply (j : S_.Idx) : var_v8 j = Cert.Spec.cntN := by
  show var_cst_1 j - var_v7 j = _
  rw [var_v7_apply, sub_zero]
  rfl

theorem var_v9_apply (o : Fin 256) :
    var_v9 yv (ix1 o) = ∑ b : Fin 8, ∑ h : Fin 128, ∑ w : Fin 128,
      Cert.Spec.devr (Yof yv) b h w o * Cert.Spec.devr (Yof yv) b h w o := by
  unfold var_v9 var_cst_2
  rw [sum023_apply]
  exact Finset.sum_congr rfl fun b _ => Finset.sum_congr rfl fun h _ => Finset.sum_congr rfl fun w _ =>
    var_v6_apply yv b o h w

theorem var_v12_apply (u : Fin 1) (o : Fin 256) (v w : Fin 1) :
    var_v12 yv (ix4 u o v w) = Cert.Spec.varr (Yof yv) o := by
  unfold var_v12 var_v10 var_v11
  rw [div_bcast_apply, var_v9_apply, var_v8_apply]
  rfl

/-- The count 131072 is greater than 0. -/
theorem var_v13_apply (j : S_.Idx) : var_v13 j = 1#1 := by
  show Ideal.cmp .ogt (var_v8 j) (var_cst_3 j) = 1#1
  rw [var_v8_apply]
  show BitVec.ofBool (decide (Ideal.ofBits .f32 0x00000000#32 < Cert.Spec.cntN)) = 1#1
  rw [Ideal.ofBits_zero_f32, Cert.Spec.cntN_eq]
  have hlt : (0 : EReal) < ((131072 : ℝ) : EReal) := by exact_mod_cast (by norm_num : (0 : ℝ) < 131072)
  rw [decide_eq_true hlt]
  rfl

/-- The select on the broadcast condition reads its first branch: the variance. -/
theorem bn_v29_apply (u : Fin 1) (o : Fin 256) (v w : Fin 1) :
    bn_v29 yv (ix4 u o v w) = Cert.Spec.varr (Yof yv) o := by
  show Scalar.select (broadcastInDim S1x256x1x1 ![] bcast_S_S1x256x1x1 var_v13 (ix4 u o v w))
      (var_v12 yv (ix4 u o v w)) (where_v1 (ix4 u o v w)) = _
  rw [splat_apply, var_v13_apply, select_one, var_v12_apply]

theorem bn_v31_apply (b : Fin 8) (o : Fin 256) (h w : Fin 128) :
    bn_v31 yv (ix4 b o h w) = yv (ix4 b o h w) - Cert.Spec.meanr (Yof yv) o := by
  show yv (ix4 b o h w) - bn_v30 yv (ix4 b o h w) = _
  unfold bn_v30
  rw [bcast_full_apply, bn_v28_apply]

theorem bn_v34_apply (u : Fin 1) (o : Fin 256) (v w : Fin 1) :
    bn_v34 yv (ix4 u o v w) = Ideal.sqrt (Cert.Spec.varr (Yof yv) o + Cert.Spec.eps2) := by
  show Ideal.sqrt (bn_v29 yv (ix4 u o v w) + bn_v32 (ix4 u o v w)) = _
  unfold bn_v32
  rw [bn_v29_apply, splat_apply]
  rfl

theorem bn_v36_apply (b : Fin 8) (o : Fin 256) (h w : Fin 128) :
    bn_v36 yv (ix4 b o h w)
      = Ideal.div (yv (ix4 b o h w) - Cert.Spec.meanr (Yof yv) o)
          (Ideal.sqrt (Cert.Spec.varr (Yof yv) o + Cert.Spec.eps2)) := by
  show Ideal.div (bn_v31 yv (ix4 b o h w)) (bn_v35 yv (ix4 b o h w)) = _
  unfold bn_v35
  rw [bn_v31_apply, bcast_full_apply, bn_v34_apply]

theorem bn_v38_apply (b : Fin 8) (o : Fin 256) (h w : Fin 128) : bn_v38 a3 (ix4 b o h w) = a3 (ix1 o) := by
  unfold bn_v38 bn_v37
  rw [bcast_full_apply, bcast_c_apply]

theorem bn_v41_apply (b : Fin 8) (o : Fin 256) (h w : Fin 128) : bn_v41 a4 (ix4 b o h w) = a4 (ix1 o) := by
  unfold bn_v41 bn_v40
  rw [bcast_full_apply, bcast_c_apply]

theorem bn_v42_apply (b : Fin 8) (o : Fin 256) (h w : Fin 128) :
    bn_v42 yv a3 a4 (ix4 b o h w)
      = Ideal.div (yv (ix4 b o h w) - Cert.Spec.meanr (Yof yv) o)
          (Ideal.sqrt (Cert.Spec.varr (Yof yv) o + Cert.Spec.eps2)) * a3 (ix1 o) + a4 (ix1 o) := by
  show bn_v36 yv (ix4 b o h w) * bn_v38 a3 (ix4 b o h w) + bn_v41 a4 (ix4 b o h w) = _
  rw [bn_v36_apply, bn_v38_apply, bn_v41_apply]

/-- The zero the final maximum is taken against. -/
theorem relu_v0_apply (j : S8x256x128x128.Idx) : relu_v0 j = 0 := by
  unfold relu_v0
  rw [splat_apply]
  show Ideal.ofBits .f32 0x00000000#32 = 0
  exact Ideal.ofBits_zero_f32

/-- THE READING: the reference's batch-norm half at (b, o, h, w) is the specification's `outr`. -/
theorem bnTerm_apply (yv : FVec Ideal S8x256x128x128 .f32) (a3 a4 : FVec Ideal S256 .f32) (b : Fin 8) (o : Fin 256) (h w : Fin 128) :
    bnTerm yv a3 a4 (Idealize.ShloMosaic.ValueIdx.ix4 b o h w)
      = Cert.Spec.outr (fun b h w o => yv (Idealize.ShloMosaic.ValueIdx.ix4 b o h w)) (fun o => a3 (Idealize.ShloMosaic.ValueIdx.ix1 o)) (fun o => a4 (Idealize.ShloMosaic.ValueIdx.ix1 o)) b o h w := by
  show max (bn_v42 yv a3 a4 (ix4 b o h w)) (relu_v0 (ix4 b o h w)) = _
  rw [bn_v42_apply, relu_v0_apply]
  rfl

end Cert.ReferenceIdeal.RefValue

end
-- ==== Proof.PixelMath.lean ====
/-
  The per-pixel algebra of the specification.

  (1) The projection written as one sum over the 512 entries of the concatenation (normalised pixel ++ read) is the
      projection written as two sums over the two halves of the weight's columns: a sum over Fin 512 splits at 256,
      the concatenation is the normalised pixel on the first half and the read on the second, and the product commutes.
      No finiteness is needed: the extended reals are a commutative monoid under + and a commutative one under ·.

  (2) When every entry of the pixel, of the bank and of the two weight halves is a real number, the projection is a
      real number. The chain: a sum of squares of reals is a nonnegative real, so its square root is a real; the larger
      of that and the positive real ε₁ is a positive real, so the normalised pixel is real; finite sums of products of
      reals are real (the cues); the running maximum from −∞ over the nonempty set of 256 cues is one of the cues, a
      real; the exponential of a real is a positive real, so the softmax denominator, a sum of 256 positive reals, is a
      positive real and the attention weights are real; the read and the projection are finite sums of products of reals.
-/
import proofs.«151587_j20340965114022_2_alg».proof.Proof.Spec
import proofs.«151587_j20340965114022_2_alg».proof.Proof.Consts

noncomputable section

namespace Cert.Spec

open Idealize.ShloMosaic

/-! ### The one sum over 512 columns is the two sums over the halves -/

namespace PixelMath

/-- A sum over `Fin 512` is the sum over its first 256 indices plus the sum over its last 256. -/
theorem sum_halves (f : Fin 512 → EReal) :
    ∑ k : Fin 512, f k
      = (∑ c : Fin 256, f (⟨c.val, by have := c.isLt; omega⟩ : Fin 512))
        + ∑ c : Fin 256, f (⟨256 + c.val, by have := c.isLt; omega⟩ : Fin 512) :=
  Fin.sum_univ_add (a := 256) (b := 256) f

theorem catP_left (qv : Fin 256 → EReal) (t : Fin 256 → Fin 256 → EReal) (c : Fin 256) :
    catP qv t (⟨c.val, by have := c.isLt; omega⟩ : Fin 512) = qnP qv c := by
  unfold catP
  rw [dif_pos (show (⟨c.val, by have := c.isLt; omega⟩ : Fin 512).val < 256 from c.isLt)]

theorem catP_right (qv : Fin 256 → EReal) (t : Fin 256 → Fin 256 → EReal) (c : Fin 256) :
    catP qv t (⟨256 + c.val, by have := c.isLt; omega⟩ : Fin 512) = rdP qv t c := by
  unfold catP
  rw [dif_neg (show ¬ (⟨256 + c.val, by have := c.isLt; omega⟩ : Fin 512).val < 256 from by
    show ¬ 256 + c.val < 256; omega)]
  exact congrArg (rdP qv t) (Fin.ext (by show 256 + c.val - 256 = c.val; omega))

end PixelMath

theorem YrP_eq_YkP (qv : Fin 256 → EReal) (t : Fin 256 → Fin 256 → EReal) (w : Fin 256 → Fin 512 → EReal) (o : Fin 256) :
    YrP qv t w o = YkP qv t (fun o c => w o (⟨c.val, by have := c.isLt; omega⟩ : Fin 512))
                            (fun o c => w o (⟨256 + c.val, by have := c.isLt; omega⟩ : Fin 512)) o := by
  unfold YrP YkP
  rw [PixelMath.sum_halves]
  congr 1
  · exact Finset.sum_congr rfl (fun c _ => by rw [PixelMath.catP_left, mul_comm])
  · exact Finset.sum_congr rfl (fun c _ => by rw [PixelMath.catP_right, mul_comm])

/-! ### Every quantity of the pixel chain is a real number when the inputs are -/

namespace PixelMath

/-- The coercion of a finite sum of reals is the sum of the coercions. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- "Is a real number". -/
def IsR (x : EReal) : Prop := ∃ r : ℝ, x = (r : EReal)
/-- "Is a positive real number". -/
def IsP (x : EReal) : Prop := ∃ r : ℝ, 0 < r ∧ x = (r : EReal)

theorem IsP.isR {x : EReal} : IsP x → IsR x
  | ⟨r, _, h⟩ => ⟨r, h⟩

theorem IsR.add {x y : EReal} : IsR x → IsR y → IsR (x + y)
  | ⟨a, ha⟩, ⟨b, hb⟩ => ⟨a + b, by rw [ha, hb, EReal.coe_add]⟩

theorem IsR.mul {x y : EReal} : IsR x → IsR y → IsR (x * y)
  | ⟨a, ha⟩, ⟨b, hb⟩ => ⟨a * b, by rw [ha, hb, EReal.coe_mul]⟩

theorem IsR.sub {x y : EReal} : IsR x → IsR y → IsR (x - y)
  | ⟨a, ha⟩, ⟨b, hb⟩ => ⟨a - b, by rw [ha, hb, EReal.coe_sub]⟩

theorem IsR.sum {ι : Type} (s : Finset ι) {f : ι → EReal} (h : ∀ i, IsR (f i)) : IsR (∑ i ∈ s, f i) := by
  choose g hg using h
  exact ⟨∑ i ∈ s, g i, by rw [coe_sum]; exact Finset.sum_congr rfl (fun i _ => hg i)⟩

theorem IsP.sum {ι : Type} (s : Finset ι) (hs : s.Nonempty) {f : ι → EReal} (h : ∀ i, IsP (f i)) :
    IsP (∑ i ∈ s, f i) := by
  choose g hg0 hg using h
  exact ⟨∑ i ∈ s, g i, Finset.sum_pos (fun i _ => hg0 i) hs,
    by rw [coe_sum]; exact Finset.sum_congr rfl (fun i _ => hg i)⟩

/-- Division by a positive real keeps a real a real. -/
theorem IsR.div {x y : EReal} : IsR x → IsP y → IsR (Ideal.div x y)
  | ⟨a, ha⟩, ⟨b, hb0, hb⟩ => ⟨a * (1 / b), by rw [ha, hb, Ideal.div_coe (ne_of_gt hb0), EReal.coe_mul]⟩

/-- The exponential of a real is a positive real. -/
theorem IsR.exp {x : EReal} : IsR x → IsP (Ideal.exp x)
  | ⟨a, ha⟩ => ⟨Real.exp a, Real.exp_pos a, by rw [ha, Ideal.exp_coe]⟩

/-- The larger of a real and a positive real is a positive real. -/
theorem IsP.max_right {x y : EReal} : IsR x → IsP y → IsP (max x y)
  | ⟨a, ha⟩, ⟨b, hb0, hb⟩ => by
    rcases le_total x y with h | h
    · exact ⟨b, hb0, by rw [max_eq_right h, hb]⟩
    · refine ⟨a, ?_, by rw [max_eq_left h, ha]⟩
      rw [ha, hb] at h
      exact lt_of_lt_of_le hb0 (EReal.coe_le_coe_iff.mp h)

/-- The square root of a sum of squares of reals is a real. -/
theorem sqrt_sum_sq {ι : Type} (s : Finset ι) {f : ι → EReal} (h : ∀ i, IsR (f i)) :
    IsR (Ideal.sqrt (∑ i ∈ s, f i * f i)) := by
  choose g hg using h
  have hsum : (∑ i ∈ s, f i * f i) = ((∑ i ∈ s, g i * g i : ℝ) : EReal) := by
    rw [coe_sum]; exact Finset.sum_congr rfl (fun i _ => by rw [hg i, EReal.coe_mul])
  have hnn : ¬ (∑ i ∈ s, g i * g i) < 0 := not_lt.mpr (Finset.sum_nonneg (fun i _ => mul_self_nonneg (g i)))
  exact ⟨Real.sqrt (∑ i ∈ s, g i * g i), by rw [hsum, Ideal.sqrt_coe, if_neg hnn]⟩

/-- The running maximum, started at the bottom, of finitely many values over a nonempty index set is one of the values. -/
theorem fold_max_mem {ι : Type} (f : ι → EReal) (s : Finset ι) (hs : s.Nonempty) :
    ∃ i ∈ s, s.fold max ⊥ f = f i := by
  classical
  induction s using Finset.induction_on with
  | empty => exact absurd hs Finset.not_nonempty_empty
  | insert a s ha ih =>
    rw [Finset.fold_insert ha]
    rcases s.eq_empty_or_nonempty with rfl | hne
    · exact ⟨a, Finset.mem_insert_self a _, by rw [Finset.fold_empty]; exact max_eq_left bot_le⟩
    · obtain ⟨i, hi, he⟩ := ih hne
      rw [he]
      rcases le_total (f a) (f i) with h | h
      · exact ⟨i, Finset.mem_insert_of_mem hi, max_eq_right h⟩
      · exact ⟨a, Finset.mem_insert_self a s, max_eq_left h⟩

section Chain
variable (qv : Fin 256 → EReal) (t : Fin 256 → Fin 256 → EReal)
  (hq : ∀ c, IsR (qv c)) (ht : ∀ r c, IsR (t r c))
  (hninf : ninf = ⊥) (heps : IsP eps1)
include hq heps

theorem nrmP_pos : IsP (nrmP qv) := by
  unfold nrmP ssP
  exact IsP.max_right (sqrt_sum_sq Finset.univ hq) heps

theorem qnP_real (c : Fin 256) : IsR (qnP qv c) := by
  unfold qnP
  exact IsR.div (hq c) (nrmP_pos qv hq heps)

include ht

theorem cueP_real (r : Fin 256) : IsR (cueP qv t r) := by
  unfold cueP
  exact IsR.sum _ (fun c => IsR.mul (qnP_real qv hq heps c) (ht r c))

include hninf

theorem mxP_real : IsR (mxP qv t) := by
  unfold mxP
  rw [hninf]
  obtain ⟨i, _, he⟩ := fold_max_mem (cueP qv t) Finset.univ ⟨0, Finset.mem_univ _⟩
  rw [he]
  exact cueP_real qv t hq ht heps i

theorem exP_pos (r : Fin 256) : IsP (exP qv t r) := by
  unfold exP
  exact IsR.exp (IsR.sub (cueP_real qv t hq ht heps r) (mxP_real qv t hq ht hninf heps))

theorem smP_pos : IsP (smP qv t) := by
  unfold smP
  exact IsP.sum _ ⟨0, Finset.mem_univ _⟩ (fun r => exP_pos qv t hq ht hninf heps r)

theorem attP_real (r : Fin 256) : IsR (attP qv t r) := by
  unfold attP
  exact IsR.div (exP_pos qv t hq ht hninf heps r).isR (smP_pos qv t hq ht hninf heps)

theorem rdP_real (c : Fin 256) : IsR (rdP qv t c) := by
  unfold rdP
  exact IsR.sum _ (fun r => IsR.mul (attP_real qv t hq ht hninf heps r) (ht r c))

theorem YkP_real_of (wL wR : Fin 256 → Fin 256 → EReal)
    (hL : ∀ o c, IsR (wL o c)) (hR : ∀ o c, IsR (wR o c)) (o : Fin 256) :
    IsR (YkP qv t wL wR o) := by
  unfold YkP
  exact IsR.add (IsR.sum _ (fun c => IsR.mul (qnP_real qv hq heps c) (hL o c)))
    (IsR.sum _ (fun c => IsR.mul (rdP_real qv t hq ht hninf heps c) (hR o c)))

end Chain

end PixelMath

theorem YkP_real (qv : Fin 256 → EReal) (t wL wR : Fin 256 → Fin 256 → EReal)
    (hq : ∀ c, ∃ r : ℝ, qv c = (r : EReal)) (ht : ∀ r c, ∃ s : ℝ, t r c = (s : EReal))
    (hL : ∀ o c, ∃ s : ℝ, wL o c = (s : EReal)) (hR : ∀ o c, ∃ s : ℝ, wR o c = (s : EReal)) (o : Fin 256) :
    ∃ y : ℝ, YkP qv t wL wR o = (y : EReal) :=
  PixelMath.YkP_real_of qv t hq ht ninf_eq eps1_pos wL wR hL hR o

end Cert.Spec

end
-- ==== Proof.LibSumChunks.lean ====
/-
  Two facts about finite sums in a commutative additive monoid — no cancellation, no order, no finiteness of the
  values is used, so they hold of the extended reals with both infinities:

  * `sum_chunks`: a sum over `a * b` consecutive indices is the sum over its `a` consecutive chunks of `b` indices of
    each chunk's own sum (index `j + b * c` is entry `j` of chunk `c`);
  * `fold_eq_sum`: a left-to-right accumulation `z, z + g 0, (z + g 0) + g 1, …` stands, after `n` steps, at `z` plus
    the sum of the first `n` terms.

  Together: an accumulator started at `z` and advanced chunk by chunk by the chunk's sum ends at `z` plus the sum
  over all indices.
-/
import Mathlib.Algebra.BigOperators.Fin
import Mathlib.Logic.Equiv.Fin.Basic

open scoped BigOperators

namespace Cert.Lib.SumChunks

/-- Entry `j` of chunk `c` (of `a` chunks of `b`) is a position below `a * b`. -/
theorem chunk_lt {a b : ℕ} (c : Fin a) (j : Fin b) : j.val + b * c.val < a * b := by
  have hc : c.val + 1 ≤ a := c.isLt
  calc j.val + b * c.val < b + b * c.val := Nat.add_lt_add_right j.isLt _
    _ = b * (c.val + 1) := by rw [Nat.mul_succ, Nat.add_comm]
    _ ≤ b * a := Nat.mul_le_mul_left _ hc
    _ = a * b := Nat.mul_comm _ _

/-- A sum over `n = a * b` consecutive indices, chunk by chunk: the `a` chunks' sums, summed. -/
theorem sum_chunks {M : Type*} [AddCommMonoid M] {n : ℕ} (a b : ℕ) (h : a * b = n) (f : Fin n → M) :
    ∑ k : Fin n, f k = ∑ c : Fin a, ∑ j : Fin b, f ⟨j.val + b * c.val, h ▸ chunk_lt c j⟩ := by
  subst h
  rw [← Equiv.sum_comp finProdFinEquiv f, Fintype.sum_prod_type]
  rfl

/-- A left-to-right accumulation from `z` by the terms `g 0, g 1, …` stands after `n ≤ N` steps at `z` plus the sum
    of the first `n` terms (the step equation is only asked of the first `N` steps). -/
theorem fold_eq_sum {M : Type*} [AddCommMonoid M] (z : M) (g : ℕ → M) (s : ℕ → M) (N : ℕ) (h0 : s 0 = z)
    (hs : ∀ k, k < N → s (k + 1) = s k + g k) : ∀ n, n ≤ N → s n = z + ∑ k ∈ Finset.range n, g k
  | 0, _ => by rw [h0, Finset.sum_range_zero, add_zero]
  | n + 1, hn => by
    rw [hs n (Nat.lt_of_succ_le hn), fold_eq_sum z g s N h0 hs n (Nat.le_of_succ_le hn), Finset.sum_range_succ, add_assoc]

/-- The two together: an accumulator started at `z` and advanced, chunk after chunk, by the sum of the chunk's `b`
    entries stands after all `a` chunks at `z` plus the sum over all `a * b` indices. -/
theorem fold_chunks_eq_sum {M : Type*} [AddCommMonoid M] {n : ℕ} (a b : ℕ) (h : a * b = n) (f : Fin n → M) (z : M)
    (s : ℕ → M) (h0 : s 0 = z)
    (hs : ∀ c : Fin a, s (c.val + 1) = s c.val + ∑ j : Fin b, f ⟨j.val + b * c.val, h ▸ chunk_lt c j⟩) :
    s a = z + ∑ k : Fin n, f k := by
  let g : ℕ → M := fun c => if hc : c < a then ∑ j : Fin b, f ⟨j.val + b * c, h ▸ chunk_lt ⟨c, hc⟩ j⟩ else 0
  have hg : ∀ c : Fin a, g c.val = ∑ j : Fin b, f ⟨j.val + b * c.val, h ▸ chunk_lt c j⟩ := fun c => dif_pos c.isLt
  rw [fold_eq_sum z g s a h0 (fun k hk => by rw [hs ⟨k, hk⟩, ← hg ⟨k, hk⟩]) a le_rfl, sum_chunks a b h f,
    Finset.sum_range]
  exact congrArg (z + ·) (Finset.sum_congr rfl fun c _ => hg c)

end Cert.Lib.SumChunks
-- ==== Proof.ImageMath.lean ====
/-
  The batch-norm algebra over the whole image.

  * The per-block partial sums (64 blocks of 16 × 128 pixels) add up to the sums over images, rows and columns: a
    re-indexing of a finite sum in a commutative additive monoid.
  * When every entry is a real number, the mean and the variance are real numbers in both arrangements, the same
    ones, because on the reals (Σ (y − μ)²)/N = (Σ y²)/N − μ² for μ = (Σ y)/N and N the number of terms; the variance
    is ≥ 0, so with ε₂ > 0 the square root of variance + ε₂ is a positive real, its reciprocal square root is the
    reciprocal of that real, and division by it is multiplication by the reciprocal. Scale, shift and the final
    maximum are then the same operations on the same values, whatever extended reals the scale and shift are.
-/
import proofs.«151587_j20340965114022_2_alg».proof.Proof.Spec
import proofs.«151587_j20340965114022_2_alg».proof.Proof.Consts
import proofs.«151587_j20340965114022_2_alg».proof.Proof.LibSumChunks
import Mathlib

noncomputable section

open Idealize.ShloMosaic
open scoped BigOperators

namespace Cert.Spec.ImageMath

/-! ### Re-indexing: 64 blocks of 2048 pixels are the 8 × 128 × 128 pixels -/

/-- A function of three coordinates takes equal values at coordinates with equal values. -/
theorem apply3_congr {M : Type*} (f : Fin 8 → Fin 128 → Fin 128 → M) {a b c : ℕ}
    (ha : a < 8) (hb : b < 128) (hc : c < 128) (x : Fin 8) (y z : Fin 128)
    (h1 : a = x.val) (h2 : b = y.val) (h3 : c = z.val) : f ⟨a, ha⟩ ⟨b, hb⟩ ⟨c, hc⟩ = f x y z := by
  subst h1 h2 h3; rfl

/-- Block blk = b · 8 + hb holds rows hb · 16 … hb · 16 + 15 of image b, and pixel p = r · 128 + w of the block is
    row r, column w of that tile: summing over blocks and their pixels is summing over images, rows and columns.
    Only commutativity and associativity of the sum are used. -/
theorem sum_blocks {M : Type*} [AddCommMonoid M] (f : Fin 8 → Fin 128 → Fin 128 → M) :
    (∑ blk : Fin 64, ∑ p : Fin 2048,
      f ⟨blk.val / 8, by have := blk.isLt; omega⟩
        ⟨(blk.val % 8) * 16 + p.val / 128, by have := blk.isLt; have := p.isLt; omega⟩
        ⟨p.val % 128, by omega⟩) = ∑ b : Fin 8, ∑ h : Fin 128, ∑ w : Fin 128, f b h w := by
  refine (Cert.Lib.SumChunks.sum_chunks (n := 64) 8 8 rfl _).trans ?_
  refine Finset.sum_congr rfl fun b _ => ?_
  refine Eq.trans ?_ (Cert.Lib.SumChunks.sum_chunks (n := 128) 8 16 rfl
    (fun h : Fin 128 => ∑ w : Fin 128, f b h w)).symm
  refine Finset.sum_congr rfl fun hb _ => ?_
  refine (Cert.Lib.SumChunks.sum_chunks (n := 2048) 16 128 rfl _).trans ?_
  refine Finset.sum_congr rfl fun r _ => Finset.sum_congr rfl fun w _ => ?_
  have hb8 := hb.isLt
  have hr := r.isLt
  have hw := w.isLt
  exact apply3_congr f _ _ _ b ⟨r.val + 16 * hb.val, by omega⟩ w (by simp only []; omega) (by simp only []; omega)
    (by simp only []; omega)

/-! ### Sums of reals inside the extended reals -/

/-- The embedding of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A triple sum is one sum over triples. -/
theorem sum3_eq_prod {M : Type*} [AddCommMonoid M] (g : Fin 8 → Fin 128 → Fin 128 → M) :
    ∑ b : Fin 8, ∑ h : Fin 128, ∑ w : Fin 128, g b h w
      = ∑ x : Fin 8 × Fin 128 × Fin 128, g x.1 x.2.1 x.2.2 := by
  rw [Fintype.sum_prod_type]
  refine Finset.sum_congr rfl fun b _ => ?_
  rw [Fintype.sum_prod_type]

theorem cnt_ne : (131072 : ℝ) ≠ 0 := by norm_num

/-- There are 8 · 128 · 128 = 131072 pixels. -/
theorem card_pix : (Fintype.card (Fin 8 × Fin 128 × Fin 128) : ℝ) = 131072 := by
  simp only [Fintype.card_prod, Fintype.card_fin]; norm_num

/-- Over N values with mean μ = (Σ y)/N: the mean square deviation is the mean square minus the squared mean. -/
theorem real_var {ι : Type*} [Fintype ι] (y : ι → ℝ) (N μ : ℝ) (hN : N ≠ 0) (hc : (Fintype.card ι : ℝ) = N)
    (hμ : μ = (∑ j, y j) * (1 / N)) :
    (∑ i, (y i - μ) * (y i - μ)) * (1 / N) = (∑ i, y i * y i) * (1 / N) - μ * μ := by
  have h2 : (∑ i, y i) = N * μ := by rw [hμ]; field_simp
  have h1 : ∑ i, (y i - μ) * (y i - μ) = (∑ i, y i * y i) - 2 * μ * (∑ i, y i) + N * (μ * μ) := by
    have e : ∀ i, (y i - μ) * (y i - μ) = y i * y i - 2 * μ * y i + μ * μ := fun i => by ring
    simp only [e, Finset.sum_add_distrib, Finset.sum_sub_distrib, ← Finset.mul_sum, Finset.sum_const,
      Finset.card_univ, nsmul_eq_mul, hc]
    ring
  rw [h1, h2]
  field_simp
  ring

/-- The same over the 131072 pixels, written as triple sums. -/
theorem real_var3 (y : Fin 8 → Fin 128 → Fin 128 → ℝ) (μ : ℝ)
    (hμ : μ = (∑ b : Fin 8, ∑ h : Fin 128, ∑ w : Fin 128, y b h w) * (1 / 131072)) :
    (∑ b : Fin 8, ∑ h : Fin 128, ∑ w : Fin 128, (y b h w - μ) * (y b h w - μ)) * (1 / 131072)
      = (∑ b : Fin 8, ∑ h : Fin 128, ∑ w : Fin 128, y b h w * y b h w) * (1 / 131072) - μ * μ := by
  rw [sum3_eq_prod y] at hμ
  rw [sum3_eq_prod (fun b h w => (y b h w - μ) * (y b h w - μ)), sum3_eq_prod (fun b h w => y b h w * y b h w)]
  exact real_var (fun x : Fin 8 × Fin 128 × Fin 128 => y x.1 x.2.1 x.2.2) 131072 μ cnt_ne card_pix hμ

/-- Square root and reciprocal square root of a positive real. -/
theorem sqrt_pos_coe {r : ℝ} (hr : 0 < r) : Ideal.sqrt (r : EReal) = ((Real.sqrt r : ℝ) : EReal) := by
  rw [Ideal.sqrt_coe, if_neg (not_lt.mpr hr.le)]

theorem rsqrt_pos_coe {r : ℝ} (hr : 0 < r) : Ideal.rsqrt (r : EReal) = (((Real.sqrt r)⁻¹ : ℝ) : EReal) := by
  rw [Ideal.rsqrt_coe, if_neg (not_lt.mpr hr.le), if_neg hr.ne']

end Cert.Spec.ImageMath

namespace Cert.Spec

open Cert.Spec.ImageMath

theorem S1k_eq_S1r (Y : Fin 8 → Fin 128 → Fin 128 → Fin 256 → EReal) (o : Fin 256) : S1k Y o = S1r Y o :=
  sum_blocks (fun b h w => Y b h w o)

theorem S2k_eq (Y : Fin 8 → Fin 128 → Fin 128 → Fin 256 → EReal) (o : Fin 256) :
    S2k Y o = ∑ b : Fin 8, ∑ h : Fin 128, ∑ w : Fin 128, Y b h w o * Y b h w o :=
  sum_blocks (fun b h w => Y b h w o * Y b h w o)

/-- When every entry of Y is real, both arrangements have the same real mean μ and the same real variance v ≥ 0 in
    each channel: v is the mean square deviation, which on the reals is also the mean square minus μ². -/
theorem stats_real (Y : Fin 8 → Fin 128 → Fin 128 → Fin 256 → EReal) (y : Fin 8 → Fin 128 → Fin 128 → Fin 256 → ℝ)
    (hy : ∀ b h w o, Y b h w o = (y b h w o : EReal)) (o : Fin 256) :
    ∃ μ v : ℝ, 0 ≤ v ∧ meank Y o = (μ : EReal) ∧ meanr Y o = (μ : EReal) ∧ vark Y o = (v : EReal) ∧
      varr Y o = (v : EReal) := by
  obtain ⟨μ, hμ⟩ : ∃ μ : ℝ, μ = (∑ b : Fin 8, ∑ h : Fin 128, ∑ w : Fin 128, y b h w o) * (1 / 131072) := ⟨_, rfl⟩
  have hS1 : S1r Y o = ((∑ b : Fin 8, ∑ h : Fin 128, ∑ w : Fin 128, y b h w o : ℝ) : EReal) := by
    unfold S1r; simp only [hy, coe_sum]
  have hmr : meanr Y o = (μ : EReal) := by
    unfold meanr; rw [hS1, cntN_eq, Ideal.div_coe cnt_ne, ← EReal.coe_mul, hμ]
  have hmk : meank Y o = (μ : EReal) := by
    unfold meank; rw [S1k_eq_S1r, hS1, cntN_eq, Ideal.div_coe cnt_ne, ← EReal.coe_mul, hμ]
  have hS2 : S2k Y o = ((∑ b : Fin 8, ∑ h : Fin 128, ∑ w : Fin 128, y b h w o * y b h w o : ℝ) : EReal) := by
    rw [S2k_eq]; simp only [hy, coe_sum, EReal.coe_mul]
  have hvk : vark Y o = (((∑ b : Fin 8, ∑ h : Fin 128, ∑ w : Fin 128, y b h w o * y b h w o) * (1 / 131072)
      - μ * μ : ℝ) : EReal) := by
    unfold vark
    rw [hmk, hS2, cntN_eq, Ideal.div_coe cnt_ne, EReal.coe_sub, EReal.coe_mul, EReal.coe_mul]
  have hdev : ∀ b h w, devr Y b h w o = ((y b h w o - μ : ℝ) : EReal) := fun b h w => by
    unfold devr; rw [hmr, hy, EReal.coe_sub]
  have hvr : varr Y o = (((∑ b : Fin 8, ∑ h : Fin 128, ∑ w : Fin 128, (y b h w o - μ) * (y b h w o - μ))
      * (1 / 131072) : ℝ) : EReal) := by
    unfold varr
    rw [cntN_eq, Ideal.div_coe cnt_ne]
    simp only [hdev, EReal.coe_mul, coe_sum]
  refine ⟨μ, _, ?_, hmk, hmr, ?_, hvr⟩
  · exact mul_nonneg (Finset.sum_nonneg fun b _ => Finset.sum_nonneg fun h _ => Finset.sum_nonneg fun w _ =>
      mul_self_nonneg _) (by norm_num)
  · rw [hvk, real_var3 (fun b h w => y b h w o) μ hμ]

theorem outk_eq_outr (Y : Fin 8 → Fin 128 → Fin 128 → Fin 256 → EReal) (γ β : Fin 256 → EReal)
    (hY : ∀ b h w o, ∃ r : ℝ, Y b h w o = (r : EReal)) (b : Fin 8) (o : Fin 256) (h w : Fin 128) :
    outk Y γ β b o h w = outr Y γ β b o h w := by
  choose y hy using hY
  obtain ⟨ε, hε, he⟩ := eps2_pos
  obtain ⟨μ, v, hv, hmk, hmr, hvk, hvr⟩ := stats_real Y y hy o
  have hpos : 0 < v + ε := add_pos_of_nonneg_of_pos hv hε
  have hs : Real.sqrt (v + ε) ≠ 0 := (Real.sqrt_pos.mpr hpos).ne'
  unfold outk outr
  rw [hmk, hmr, hvk, hvr, he, ← EReal.coe_add v ε, rsqrt_pos_coe hpos, sqrt_pos_coe hpos, Ideal.div_coe hs, one_div]

end Cert.Spec

end
-- ==== Proof.WholeMath.lean ====
/-
  The two arrangements of the whole computation agree when every input entry is a real number.

  Per pixel the projection as one sum over the concatenation equals the projection as two sums over the halves of the
  weight's columns, so the two arrangements feed the same array Y to the batch statistics; every entry of Y is real
  because the inputs are; and on a real Y the two arrangements of the normalisation agree.
-/
import proofs.«151587_j20340965114022_2_alg».proof.Proof.Spec
import proofs.«151587_j20340965114022_2_alg».proof.Proof.Consts
import proofs.«151587_j20340965114022_2_alg».proof.Proof.PixelMath
import proofs.«151587_j20340965114022_2_alg».proof.Proof.ImageMath

noncomputable section

namespace Cert.Spec.WholeMath

open Idealize.ShloMosaic Idealize.ShloMosaic.ValueIdx

/-- Per pixel and output channel, the one-sum projection is the two-halves projection: the left and right halves of
    the weight's columns are columns c and 256 + c. -/
theorem Yr_eq_Yk (x : FVec Ideal SQ .f32) (t : FVec Ideal ST .f32) (w : FVec Ideal SW .f32) :
    Yr x t w = Yk x t w := by
  funext b h w' o
  unfold Yr Yk
  exact YrP_eq_YkP (pix x b h w') (bank t) (fun o k => w (ix2 o k)) o

/-- Every entry of the projected array is real when the inputs are. -/
theorem Yk_real (x : FVec Ideal SQ .f32) (t : FVec Ideal ST .f32) (w : FVec Ideal SW .f32)
    (hx : ∀ i, ∃ r : ℝ, x i = (r : EReal)) (ht : ∀ i, ∃ r : ℝ, t i = (r : EReal))
    (hw : ∀ i, ∃ r : ℝ, w i = (r : EReal)) (b : Fin 8) (h w' : Fin 128) (o : Fin 256) :
    ∃ r : ℝ, Yk x t w b h w' o = (r : EReal) := by
  unfold Yk
  exact YkP_real (pix x b h w') (bank t) (wL w) (wR w) (fun c => hx _) (fun r c => ht _) (fun o c => hw _)
    (fun o c => hw _) o

end Cert.Spec.WholeMath

namespace Cert.Spec

open Idealize.ShloMosaic Idealize.ShloMosaic.ValueIdx Cert.Spec.WholeMath

theorem Gk_eq_Gr (x : FVec Ideal SQ .f32) (t : FVec Ideal ST .f32) (w : FVec Ideal SW .f32) (γ β : FVec Ideal SC .f32)
    (hx : ∀ i, ∃ r : ℝ, x i = (r : EReal)) (ht : ∀ i, ∃ r : ℝ, t i = (r : EReal)) (hw : ∀ i, ∃ r : ℝ, w i = (r : EReal)) :
    Gk x t w γ β = Gr x t w γ β := by
  funext i
  unfold Gk Gr
  rw [Yr_eq_Yk]
  exact outk_eq_outr (Yk x t w) (fun o => γ (ix1 o)) (fun o => β (ix1 o)) (Yk_real x t w hx ht hw) (i 0) (i 1) (i 2) (i 3)

end Cert.Spec

end
-- ==== Proof.LibFinite.lean ====
/-
  GENERAL LEMMAS: a printed "is finite" test read back over the extended reals. At the ideal instance a float is an
  extended real, `|x|` is `max x (-x)`, a comparison is the linear order's, and the word 0x7F800000 denotes `+∞`. So the
  one-bit word of `|x| < +∞` being 1 says that `x` is a real number. Nothing here mentions a program.
-/
import Idealize.ShloMosaic.PureOps.Ideal

noncomputable section

namespace Cert.Lib.Finite

open Idealize.ShloMosaic

/-- The scalar shape has one index. -/
instance : Subsingleton (⟨0, ![]⟩ : Shape).Idx := ⟨fun a b => funext fun d => d.elim0⟩

/-- The word 0x7F800000 denotes `+∞`. -/
theorem ofBits_inf : Ideal.ofBits .f32 0x7F800000#32 = (⊤ : EReal) := by
  simp [Ideal.ofBits, Ideal.ieee]

/-- An extended real whose absolute value `max x (-x)` is below `+∞` is a real: `+∞` is its own absolute value, and
    `-∞`'s is `+∞` too. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` read back from its one-bit word: if it is 1, `x` is a real. -/
theorem real_of_cmp (x : EReal)
    (h : Ideal.cmp .olt (max x (-x)) (Ideal.ofBits .f32 0x7F800000#32) = 1#1) : ∃ r : ℝ, x = (r : EReal) := by
  refine real_of_abs_lt_top x ?_
  by_contra hn
  rw [ofBits_inf] at h
  simp [Ideal.cmp, hn] at h

end Cert.Lib.Finite

end
-- ==== Proof.PreReal.lean ====
/-
  From the precondition to "every entry of the first three input arrays is a real number".

  The precondition says that a printed predicate is all ones. The predicate is the conjunction, by the one-bit "and",
  of five tests, one per input array: reduce by "and", over every axis, the array of comparisons |x| < +∞. A one-bit
  "and" is 1 only when both operands are; a reduction by "and" into a single result is 1 only when every element is;
  and at the ideal instance, where a float is an extended real, |x| = max x (−x) and the word 0x7F800000 is +∞, the
  comparison |x| < +∞ being 1 says that x is neither +∞ nor −∞, that is, a real.
-/
import proofs.«151587_j20340965114022_2_alg».proof.Defs
import proofs.«151587_j20340965114022_2_alg».proof.Proof.Gen.Pre_finite_inputs
import proofs.«151587_j20340965114022_2_alg».proof.Proof.LibFinite
import Idealize.ShloMosaic.Lib.ReduceAll
import Idealize.ShloMosaic.Lib.ValueIdx

noncomputable section

namespace Cert.PreReal

open Idealize.ShloMosaic Cert.Pre_finite_inputs

/-- One element of the compared array `|a| < +∞` being the word 1 says that this element of `a` is a real. -/
theorem elem_real {S : Shape} (hb : S_.BroadcastsInDim S (![] : Fin 0 → Fin S.rank)) (a : FVec Ideal S .f32) (i : S.Idx)
    (h : cmpf .olt (Host.absf a) (broadcastInDim S ![] hb (constant (F := Ideal) S_ .f32 0x7F800000#32)) i = 1#1) :
    ∃ r : ℝ, a i = (r : EReal) :=
  Cert.Lib.Finite.real_of_cmp (a i) h

/-- The printed predicate is the conjunction of five "every element is finite" tests, one per input array; when it is
    all ones, each test is 1, so every element of each compared array is 1, so every entry is a real. Stated for the
    first three arrays. -/
theorem real_of_fn [hP : Cert.Pre_finite_inputs.Facts]
    (a0 : FVec Ideal S8x256x128x128 .f32) (a1 : FVec Ideal S256x256 .f32) (a2 : FVec Ideal S256x512 .f32)
    (a3 a4 : FVec Ideal S256 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn, Cert.Pre_finite_inputs.fn_part1, Idealize.ShloMosaic.andi] at h0
  obtain ⟨h4, -⟩ := IntOp.andi_eq_one.1 h0
  obtain ⟨h3, -⟩ := IntOp.andi_eq_one.1 h4
  obtain ⟨h2, hc⟩ := IntOp.andi_eq_one.1 h3
  obtain ⟨ha, hb⟩ := IntOp.andi_eq_one.1 h2
  exact ⟨fun i => elem_real _ a0 i (Host.reduce_andi_all _ _ _ _ _ ha i),
    fun i => elem_real _ a1 i (Host.reduce_andi_all _ _ _ _ _ hb i),
    fun i => elem_real _ a2 i (Host.reduce_andi_all _ _ _ _ _ hc i)⟩

theorem real_inputs [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
  ∧ (∀ i, ∃ r : ℝ, m ((c.tc : Thread Cert.KernelIdeal.nD Cert.KernelIdeal.τ).loc Cert.KernelIdeal.main_arg1) i = (r : EReal))
  ∧ (∀ i, ∃ r : ℝ, m ((c.tc : Thread Cert.KernelIdeal.nD Cert.KernelIdeal.τ).loc Cert.KernelIdeal.main_arg2) i = (r : EReal)) :=
  real_of_fn _ _ _ _ _ (h c)

end Cert.PreReal

end
-- ==== Proof.lean ====
/-
  The certificate of one kernel against its reference, at the ideal instance (floats are extended reals, every
  operation exact, a change of float format the identity).

  Both programs compute, for a query x [8,256,128,128], a token bank t [256,256], a weight w [256,512] and two rows
  gamma, beta [256]: per pixel the L2-normalised channel vector, its cue softmax over the bank, the read from the bank,
  the projection y of the concatenation of the two by w; then batch normalisation of y over the 131072 pixels per
  output channel, the affine map by gamma and beta, and the clamp at zero (Proof/Spec.lean states all of it).
  They differ in arrangement only: the kernel projects the two halves of the concatenation separately and adds, sums y
  and y² per tile of 2048 pixels and then over the 64 tiles, takes the variance as E[y²] − mean² and multiplies by the
  reciprocal square root; the reference takes one sum over 512, one sum over all pixels, the variance of the deviations,
  and divides by the square root. On the extended reals a sum may be regrouped freely; the two variance formulas and
  the two ways to divide agree once every y is a real number, which holds when every input entry is finite
  (Proof/PixelMath.lean, Proof/ImageMath.lean, Proof/WholeMath.lean; Proof/PreReal.lean reads finiteness off the
  precondition).

  The kernel's result array is read off its run region by region (Proof/KRun.lean, KReg0.lean, KReg1.lean, KHost.lean,
  KGlue.lean over the two bodies' results at an index, Proof/Payload0.lean and Payload1.lean); the reference's run is
  Proof/RefRun.lean and its result at an index Proof/RefPix.lean (per pixel) and Proof/RefBN.lean (batch statistics).
  The three frames are the generated ones (the reference's is its run with the result dropped); the idealization
  rewrote nothing, so there is nothing to preserve.
-/
import proofs.«151587_j20340965114022_2_alg».proof.Defs
import proofs.«151587_j20340965114022_2_alg».proof.Proof.Gen.Kernel
import proofs.«151587_j20340965114022_2_alg».proof.Proof.Gen.Kernel.Frame
import proofs.«151587_j20340965114022_2_alg».proof.Proof.Gen.KernelIdeal
import proofs.«151587_j20340965114022_2_alg».proof.Proof.Gen.KernelIdeal.Frame
import proofs.«151587_j20340965114022_2_alg».proof.Proof.Gen.ReferenceIdeal
import proofs.«151587_j20340965114022_2_alg».proof.Proof.Gen.Pre_finite_inputs
import proofs.«151587_j20340965114022_2_alg».proof.Proof.KRun
import proofs.«151587_j20340965114022_2_alg».proof.Proof.KGlue
import proofs.«151587_j20340965114022_2_alg».proof.Proof.KHost
import proofs.«151587_j20340965114022_2_alg».proof.Proof.Payload0
import proofs.«151587_j20340965114022_2_alg».proof.Proof.Payload1
import proofs.«151587_j20340965114022_2_alg».proof.Proof.RefRun
import proofs.«151587_j20340965114022_2_alg».proof.Proof.RefPix
import proofs.«151587_j20340965114022_2_alg».proof.Proof.RefBN
import proofs.«151587_j20340965114022_2_alg».proof.Proof.WholeMath
import proofs.«151587_j20340965114022_2_alg».proof.Proof.PreReal
import Idealize.ShloMosaic.Adequacy
import Idealize.ShloMosaic.Init

noncomputable section

namespace Cert.Proof

open Idealize.ShloMosaic Idealize.ShloMosaic.ValueIdx Idealize.SL.Sem

/-- The two bodies' block results at an index, in the form the region lemmas take them. -/
theorem pay0 : Cert.KernelIdeal.KVal.Pay0 :=
  ⟨fun x0 x1 x2 x3 hh ww o => Cert.KernelIdeal.Pay.out0_4_apply x0 x1 x2 x3 hh ww o,
   fun x0 x1 x2 x3 o => Cert.KernelIdeal.Pay.out0_5_apply x0 x1 x2 x3 o,
   fun x0 x1 x2 x3 o => Cert.KernelIdeal.Pay.out0_6_apply x0 x1 x2 x3 o⟩
theorem pay1 : Cert.KernelIdeal.KVal.Pay1 :=
  fun y mu va ga be o hh ww => Cert.KernelIdeal.Pay.out1_5_apply y mu va ga be o hh ww

/-- The kernel program's two host stretches read at an index. -/
theorem hostReads : Cert.KernelIdeal.KVal.HostReads where
  mean := Cert.KernelIdeal.KVal.host1_mean
  var := Cert.KernelIdeal.KVal.host1_var
  gamma := Cert.KernelIdeal.KVal.host1_gamma
  beta := Cert.KernelIdeal.KVal.host1_beta
  y := Cert.KernelIdeal.KVal.host1_y
  w1 := Cert.KernelIdeal.KVal.host0_w1
  w2 := Cert.KernelIdeal.KVal.host0_w2
  x := Cert.KernelIdeal.KVal.host0_x
  t := Cert.KernelIdeal.KVal.host0_t

/-- The reference's composed term is Spec.Gr of its arguments: the batch-norm half over the per-pixel half. -/
theorem ref_eq_Gr (a0 : FVec Ideal Cert.ReferenceIdeal.S8x256x128x128 .f32) (a1 : FVec Ideal Cert.ReferenceIdeal.S256x256 .f32)
    (a2 : FVec Ideal Cert.ReferenceIdeal.S256x512 .f32) (a3 a4 : FVec Ideal Cert.ReferenceIdeal.S256 .f32) :
    Cert.ReferenceIdeal.RefValue.bnTerm (Cert.ReferenceIdeal.RefValue.pixTerm a0 a1 a2) a3 a4 = Cert.Spec.Gr a0 a1 a2 a3 a4 := by
  funext i
  obtain ⟨b, o, h, w, rfl⟩ : ∃ (b : Fin 8) (o : Fin 256) (h w : Fin 128), i = ix4 b o h w := ⟨i 0, i 1, i 2, i 3, eq_ix4 i⟩
  rw [Cert.ReferenceIdeal.RefValue.bnTerm_apply]
  have e : (fun (b : Fin 8) (h w : Fin 128) (o : Fin 256) => Cert.ReferenceIdeal.RefValue.pixTerm a0 a1 a2 (ix4 b o h w))
      = Cert.Spec.Yr a0 a1 a2 := by
    funext b h w o; exact Cert.ReferenceIdeal.RefValue.pixTerm_apply a0 a1 a2 b o h w
  rw [e]; rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- Run from memories that agree on finite arguments, the two idealized programs end with the same result array: the
    kernel's is Spec.Gk of the arguments, the reference's Spec.Gr, and the two are one function of real entries. -/
theorem algebraic : Cert.algebraic_KernelIdeal_ReferenceIdeal := by
  intro m ρ m' ρ' hpre hagree
  refine ⟨_, (θ_run Cert.KernelIdeal.defs _ _).mono
      (fun r h c => ⟨(h c).1.trans (Cert.KernelIdeal.KVal.kernel_value m ρ pay0 pay1 hostReads c), (h c).2⟩)
      (Cert.KernelIdeal.KRun.run_named (F := Ideal) m ρ), ?_⟩
  refine (θ_run Cert.ReferenceIdeal.defs _ _).mono (fun r h c => ⟨(h c).1.trans ?_, (h c).2⟩)
    (Cert.ReferenceIdeal.RefRun.run m' ρ')
  obtain ⟨h0, h1, h2, h3, h4⟩ := hagree c
  obtain ⟨r0, r1, r2⟩ := Cert.PreReal.real_inputs m hpre c
  rw [h0, h1, h2, h3, h4, ref_eq_Gr]
  exact (Cert.Spec.Gk_eq_Gr _ _ _ _ _ r0 r1 r2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
